-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1152 : Shape := ⟨2, ![50000, 1152]⟩
abbrev S2x200000 : Shape := ⟨2, ![2, 200000]⟩
abbrev S200000 : Shape := ⟨1, ![200000]⟩
abbrev S50000 : Shape := ⟨1, ![50000]⟩
abbrev S256x1152 : Shape := ⟨2, ![256, 1152]⟩
abbrev S256 : Shape := ⟨1, ![256]⟩
abbrev S128x256 : Shape := ⟨2, ![128, 256]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S50000x1152 : S_.BroadcastsInDim S50000x1152 (![] : Fin 0 → Fin S50000x1152.rank)
  reducesTo_S50000x1152_S_d0_1 : S50000x1152.ReducesTo [0, 1] S_
  h_S_ : 0 < S_.numel
  bcast_S_S200000 : S_.BroadcastsInDim S200000 (![] : Fin 0 → Fin S200000.rank)
  reducesTo_S200000_S_d0 : S200000.ReducesTo [0] S_
  bcast_S_S256x1152 : S_.BroadcastsInDim S256x1152 (![] : Fin 0 → Fin S256x1152.rank)
  reducesTo_S256x1152_S_d0_1 : S256x1152.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  main_v53

def fn_part2 {F : FTy → Type} [FloatOps F] (main_arg9 : FVec F S128x256 .f32) (main_arg10 : FVec F S2x128 .f32) (main_arg11 : FVec F S2 .f32) (main_arg12 : FVec F S2x128 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S2x128 .f32 := Host.absf main_arg10
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2 .f32 := Host.absf main_arg11
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_v49 : FVec F S2x128 .f32 := Host.absf main_arg12
  let main_cst_18 : FVec F S_ .f32 := constant S_ .f32 0x7F800000#32
  let main_v50 : FVec F S2x128 .f32 := broadcastInDim S2x128 ![] bcast_S_S2x128 main_cst_18
  fn_part3 (F := F) main_v48 main_v49 main_v50

def fn_part1 {F : FTy → Type} [FloatOps F] (main_arg6 : FVec F S256x1152 .f32) (main_arg7 : FVec F S128x256 .f32) (main_arg8 : FVec F S128 .f32) (main_arg9 : FVec F S128x256 .f32) (main_arg10 : FVec F S2x128 .f32) (main_arg11 : FVec F S2 .f32) (main_arg12 : FVec F S2x128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1152 .f32 := Host.absf main_arg6
  let main_cst_6 : FVec F S_ .f32 := constant S_ .f32 0x7F800000#32
  let main_v20 : FVec F S256x1152 .f32 := broadcastInDim S256x1152 ![] bcast_S_S256x1152 main_cst_6
  let main_v21 : IVec S256x1152 1 := cmpf .olt main_v19 main_v20
  let main_c_7 : IVec S_ 1 := constantI S_ 1 1#1
  let main_v22 : IVec S_ 1 := (fun x v => Host.reduce IntOp.andi x v reducesTo_S256x1152_S_d0_1 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x1152 .f32) (main_arg1 : IVec S2x200000 32) (main_arg2 : FVec F S200000 .f32) (main_arg3 : IVec S50000 32) (main_arg4 : FVec F S256x1152 .f32) (main_arg5 : FVec F S256 .f32) (main_arg6 : FVec F S256x1152 .f32) (main_arg7 : FVec F S128x256 .f32) (main_arg8 : FVec F S128 .f32) (main_arg9 : FVec F S128x256 .f32) (main_arg10 : FVec F S2x128 .f32) (main_arg11 : FVec F S2 .f32) (main_arg12 : FVec F S2x128 .f32) : IVec S_ 1 :=
  let main_v0 : FVec F S50000x1152 .f32 := Host.absf main_arg0
  let main_cst : FVec F S_ .f32 := constant S_ .f32 0x7F800000#32
  let main_v1 : FVec F S50000x1152 .f32 := broadcastInDim S50000x1152 ![] bcast_S_S50000x1152 main_cst
  let main_v2 : IVec S50000x1152 1 := cmpf .olt main_v0 main_v1
  let main_c : IVec S_ 1 := constantI S_ 1 1#1
  let main_v3 : IVec S_ 1 := (fun x v => Host.reduce IntOp.andi x v reducesTo_S50000x1152_S_d0_1 h_S_) main_v2 main_c
  let main_v4 : FVec F S200000 .f32 := Host.absf main_arg2
  let main_cst_0 : FVec F S_ .f32 := constant S_ .f32 0x7F800000#32
  let main_v5 : FVec F S200000 .f32 := broadcastInDim S200000 ![] bcast_S_S200000 main_cst_0
  let main_v6 : IVec S200000 1 := cmpf .olt main_v4 main_v5
  let main_c_1 : IVec S_ 1 := constantI S_ 1 1#1
  let main_v7 : IVec S_ 1 := (fun x v => Host.reduce IntOp.andi x v reducesTo_S200000_S_d0 h_S_) main_v6 main_c_1
  let main_v8 : IVec S_ 1 := andi main_v3 main_v7
  let main_v9 : FVec F S256x1152 .f32 := Host.absf main_arg4
  let main_cst_2 : FVec F S_ .f32 := constant S_ .f32 0x7F800000#32
  let main_v10 : FVec F S256x1152 .f32 := broadcastInDim S256x1152 ![] bcast_S_S256x1152 main_cst_2
  let main_v11 : IVec S256x1152 1 := cmpf .olt main_v9 main_v10
  let main_c_3 : IVec S_ 1 := constantI S_ 1 1#1
  let main_v12 : IVec S_ 1 := (fun x v => Host.reduce IntOp.andi x v reducesTo_S256x1152_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_v13 main_v16
-- ==== Kernel.lean ====
abbrev S50000x1152 : Shape := ⟨2, ![50000, 1152]⟩
abbrev S2x200000 : Shape := ⟨2, ![2, 200000]⟩
abbrev S200000 : Shape := ⟨1, ![200000]⟩
abbrev S50000 : Shape := ⟨1, ![50000]⟩
abbrev S256x1152 : Shape := ⟨2, ![256, 1152]⟩
abbrev S256 : Shape := ⟨1, ![256]⟩
abbrev S128x256 : Shape := ⟨2, ![128, 256]⟩
abbrev S128 : Shape := ⟨1, ![128]⟩
abbrev S2x128 : Shape := ⟨2, ![2, 128]⟩
abbrev S2 : Shape := ⟨1, ![2]⟩
abbrev S1x200000 : Shape := ⟨2, ![1, 200000]⟩
abbrev S50000x256 : Shape := ⟨2, ![50000, 256]⟩
abbrev S1000x1152 : Shape := ⟨2, ![1000, 1152]⟩
abbrev S1000x256 : Shape := ⟨2, ![1000, 256]⟩
abbrev S1152x256 : Shape := ⟨2, ![1152, 256]⟩
abbrev S_ : Shape := ⟨0, ![]⟩
abbrev S200000x1 : Shape := ⟨2, ![200000, 1]⟩
abbrev S200000x256 : Shape := ⟨2, ![200000, 256]⟩
abbrev S1x256 : Shape := ⟨2, ![1, 256]⟩
abbrev S50000x128 : Shape := ⟨2, ![50000, 128]⟩
abbrev S1000x128 : Shape := ⟨2, ![1000, 128]⟩
abbrev S256x128 : Shape := ⟨2, ![256, 128]⟩
abbrev S200000x128 : Shape := ⟨2, ![200000, 128]⟩
abbrev S1x128 : Shape := ⟨2, ![1, 128]⟩
abbrev S50000x2 : Shape := ⟨2, ![50000, 2]⟩
abbrev S1000x2 : Shape := ⟨2, ![1000, 2]⟩
abbrev S128x2 : Shape := ⟨2, ![128, 2]⟩
abbrev S200000x2 : Shape := ⟨2, ![200000, 2]⟩
abbrev S1x2 : Shape := ⟨2, ![1, 2]⟩

abbrev nBuf : Space → Nat
  | .hbm => 80
  | .vmem => 45
  | .smem => 0
  | _ => 0

abbrev bufTy : (tb : Table) → Fin (tcTables nBuf tb) → BufTy
  | .hbm, ⟨0, _⟩ => ⟨S50000x1152, .f32⟩
  | .hbm, ⟨1, _⟩ => ⟨S2x200000, .i32⟩
  | .hbm, ⟨2, _⟩ => ⟨S200000, .f32⟩
  | .hbm, ⟨3, _⟩ => ⟨S50000, .i32⟩
  | .hbm, ⟨4, _⟩ => ⟨S256x1152, .f32⟩
  | .hbm, ⟨5, _⟩ => ⟨S256, .f32⟩
  | .hbm, ⟨6, _⟩ => ⟨S256x1152, .f32⟩
  | .hbm, ⟨7, _⟩ => ⟨S128x256, .f32⟩
  | .hbm, ⟨8, _⟩ => ⟨S128, .f32⟩
  | .hbm, ⟨9, _⟩ => ⟨S128x256, .f32⟩
  | .hbm, ⟨10, _⟩ => ⟨S2x128, .f32⟩
  | .hbm, ⟨11, _⟩ => ⟨S2, .f32⟩
  | .hbm, ⟨12, _⟩ => ⟨S2x128, .f32⟩
  | .hbm, ⟨13, _⟩ => ⟨S1x200000, .i32⟩
  | .hbm, ⟨14, _⟩ => ⟨S200000, .i32⟩
  | .hbm, ⟨15, _⟩ => ⟨S1x200000, .i32⟩
  | .hbm, ⟨16, _⟩ => ⟨S200000, .i32⟩
  | .hbm, ⟨17, _⟩ => ⟨S50000x256, .bf16⟩
  | .hbm, ⟨18, _⟩ => ⟨S50000x256, .f32⟩
  | .hbm, ⟨19, _⟩ => ⟨S_, .i32⟩
  | .hbm, ⟨20, _⟩ => ⟨S200000, .i32⟩
  | .hbm, ⟨21, _⟩ => ⟨S200000, .i1⟩
  | .hbm, ⟨22, _⟩ => ⟨S_, .i32⟩
  | .hbm, ⟨23, _⟩ => ⟨S200000, .i32⟩
  | .hbm, ⟨24, _⟩ => ⟨S200000, .i32⟩
  | .hbm, ⟨25, _⟩ => ⟨S200000, .i32⟩
  | .hbm, ⟨26, _⟩ => ⟨S200000x1, .i32⟩
  | .hbm, ⟨27, _⟩ => ⟨S200000x256, .bf16⟩
  | .hbm, ⟨28, _⟩ => ⟨S200000x256, .f32⟩
  | .hbm, ⟨29, _⟩ => ⟨S200000x1, .f32⟩
  | .hbm, ⟨30, _⟩ => ⟨S200000x256, .f32⟩
  | .hbm, ⟨31, _⟩ => ⟨S200000x256, .f32⟩
  | .hbm, ⟨32, _⟩ => ⟨S_, .f32⟩
  | .hbm, ⟨33, _⟩ => ⟨S50000x256, .f32⟩
  | .hbm, ⟨34, _⟩ => ⟨S200000x1, .i32⟩
  | .hbm, ⟨35, _⟩ => ⟨S50000x256, .f32⟩
  | .hbm, ⟨36, _⟩ => ⟨S1x256, .f32⟩
  | .hbm, ⟨37, _⟩ => ⟨S50000x256, .f32⟩
  | .hbm, ⟨38, _⟩ => ⟨S50000x128, .bf16⟩
  | .hbm, ⟨39, _⟩ => ⟨S50000x128, .f32⟩
  | .hbm, ⟨40, _⟩ => ⟨S_, .i32⟩
  | .hbm, ⟨41, _⟩ => ⟨S200000, .i32⟩
  | .hbm, ⟨42, _⟩ => ⟨S200000, .i1⟩
  | .hbm, ⟨43, _⟩ => ⟨S_, .i32⟩
  | .hbm, ⟨44, _⟩ => ⟨S200000, .i32⟩
  | .hbm, ⟨45, _⟩ => ⟨S200000, .i32⟩
  | .hbm, ⟨46, _⟩ => ⟨S200000, .i32⟩
  | .hbm, ⟨47, _⟩ => ⟨S200000x1, .i32⟩
  | .hbm, ⟨48, _⟩ => ⟨S200000x128, .bf16⟩
  | .hbm, ⟨49, _⟩ => ⟨S200000x128, .f32⟩
  | .hbm, ⟨50, _⟩ => ⟨S200000x1, .f32⟩
  | .hbm, ⟨51, _⟩ => ⟨S200000x128, .f32⟩
  | .hbm, ⟨52, _⟩ => ⟨S200000x128, .f32⟩
  | .hbm, ⟨53, _⟩ => ⟨S_, .f32⟩
  | .hbm, ⟨54, _⟩ => ⟨S50000x128, .f32⟩
  | .hbm, ⟨55, _⟩ => ⟨S200000x1, .i32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x2, .bf16⟩
  | .hbm, ⟨60, _⟩ => ⟨S50000x2, .f32⟩
  | .hbm, ⟨61, _⟩ => ⟨S_, .i32⟩
  | .hbm, ⟨62, _⟩ => ⟨S200000, .i32⟩
  | .hbm, ⟨63, _⟩ => ⟨S200000, .i1⟩
  | .hbm, ⟨64, _⟩ => ⟨S_, .i32⟩
  | .hbm, ⟨65, _⟩ => ⟨S200000, .i32⟩
  | .hbm, ⟨66, _⟩ => ⟨S200000, .i32⟩
  | .hbm, ⟨67, _⟩ => ⟨S200000, .i32⟩
  | .hbm, ⟨68, _⟩ => ⟨S200000x1, .i32⟩
  | .hbm, ⟨69, _⟩ => ⟨S200000x2, .bf16⟩
  | .hbm, ⟨70, _⟩ => ⟨S200000x2, .f32⟩
  | .hbm, ⟨71, _⟩ => ⟨S200000x1, .f32⟩
  | .hbm, ⟨72, _⟩ => ⟨S200000x2, .f32⟩
  | .hbm, ⟨73, _⟩ => ⟨S200000x2, .f32⟩
  | .hbm, ⟨74, _⟩ => ⟨S_, .f32⟩
  | .hbm, ⟨75, _⟩ => ⟨S50000x2, .f32⟩
  | .hbm, ⟨76, _⟩ => ⟨S200000x1, .i32⟩
  | .hbm, ⟨77, _⟩ => ⟨S50000x2, .f32⟩
  | .hbm, ⟨78, _⟩ => ⟨S1x2, .f32⟩
  | .hbm, ⟨79, _⟩ => ⟨S50000x2, .f32⟩
  | .local _ .vmem, ⟨0, _⟩ => ⟨S1000x1152, .f32⟩
  | .local _ .vmem, ⟨1, _⟩ => ⟨S1000x1152, .f32⟩
  | .local _ .vmem, ⟨2, _⟩ => ⟨S256x1152, .f32⟩
  | .local _ .vmem, ⟨3, _⟩ => ⟨S256x1152, .f32⟩
  | .local _ .vmem, ⟨4, _⟩ => ⟨S1000x256, .bf16⟩
  | .local _ .vmem, ⟨5, _⟩ => ⟨S1000x256, .bf16⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1x256, .f32⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | .local _ .vmem, ⟨16, _⟩ => ⟨S1000x256, .f32⟩
  | .local _ .vmem, ⟨17, _⟩ => ⟨S128x256, .f32⟩
  | .local _ .vmem, ⟨18, _⟩ => ⟨S128x256, .f32⟩
  | .local _ .vmem, ⟨19, _⟩ => ⟨S1000x128, .bf16⟩
  | .local _ .vmem, ⟨20, _⟩ => ⟨S1000x128, .bf16⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S1x128, .f32⟩
  | .local _ .vmem, ⟨28, _⟩ => ⟨S1000x128, .f32⟩
  | .local _ .vmem, ⟨29, _⟩ => ⟨S1000x128, .f32⟩
  | .local _ .vmem, ⟨30, _⟩ => ⟨S1000x128, .f32⟩
  | .local _ .vmem, ⟨31, _⟩ => ⟨S1000x128, .f32⟩
  | .local _ .vmem, ⟨32, _⟩ => ⟨S2x128, .f32⟩
  | .local _ .vmem, ⟨33, _⟩ => ⟨S2x128, .f32⟩
  | .local _ .vmem, ⟨34, _⟩ => ⟨S1000x2, .bf16⟩
  | .local _ .vmem, ⟨35, _⟩ => ⟨S1000x2, .bf16⟩
  | .local _ .vmem, ⟨36, _⟩ => ⟨S1000x2, .f32⟩
  | .local _ .vmem, ⟨37, _⟩ => ⟨S1000x2, .f32⟩
  | .local _ .vmem, ⟨38, _⟩ => ⟨S1000x2, .f32⟩
  | .local _ .vmem, ⟨39, _⟩ => ⟨S1000x2, .f32⟩
  | .local _ .vmem, ⟨40, _⟩ => ⟨S1000x2, .f32⟩
  | .local _ .vmem, ⟨41, _⟩ => ⟨S1000x2, .f32⟩
  | .local _ .vmem, ⟨42, _⟩ => ⟨S1x2, .f32⟩
  | .local _ .vmem, ⟨43, _⟩ => ⟨S1000x2, .f32⟩
  | .local _ .vmem, ⟨44, _⟩ => ⟨S1000x2, .f32⟩
  | _, _ => ⟨S50000x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev main_c_1 : Ref sig .tc := ⟨.hbm, 40, rfl⟩
abbrev main_v22 : Ref sig .tc := ⟨.hbm, 41, rfl⟩
abbrev main_v23 : Ref sig .tc := ⟨.hbm, 42, rfl⟩
abbrev main_c_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_3 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38_0 : Ref sig .tc := ⟨.hbm, 59, rfl⟩
abbrev main_v38_1 : Ref sig .tc := ⟨.hbm, 60, rfl⟩
abbrev main_c_4 : Ref sig .tc := ⟨.hbm, 61, rfl⟩
abbrev main_v39 : Ref sig .tc := ⟨.hbm, 62, rfl⟩
abbrev main_v40 : Ref sig .tc := ⟨.hbm, 63, rfl⟩
abbrev main_c_5 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_6 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg3_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc4_sem4_0 : DmaSem sig := 36
abbrev cc4_sem4_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem3_1 : DmaSem sig := 44

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S2x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x2 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1000x2 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x2 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x2 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1000x2 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  inb_S1000x1152_S1000x1152_0_0 : ∀ a, (![0, 0] : Fin 2 → Nat) a + S1000x1152.size a ≤ S1000x1152.size a
  h_S1000x1152 : 0 < S1000x1152.numel
  bitsLt_bf16_f32 : FTy.bits .bf16 < FTy.bits .f32
  inb_S256x1152_S256x1152_0_0 : ∀ a, (![0, 0] : Fin 2 → Nat) a + S256x1152.size a ≤ S256x1152.size a
  h_S256x1152 : 0 < S256x1152.numel
  transposes_S256x1152_p1_0_S1152x256 : S256x1152.Transposes [1, 0] S1152x256
  inb_S1000x256_S1000x256_0_0 : ∀ a, (![0, 0] : Fin 2 → Nat) a + S1000x256.size a ≤ S1000x256.size a
  h_S1000x256 : 0 < S1000x256.numel
  packedbf16_S1000x256_S1000x256_0_0 : (Rect.unit (s := S1000x256) ![0, 0] S1000x256.size inb_S1000x256_S1000x256_0_0).PackedRows (EltTy.packing .bf16)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x256_0_1 : S200000x1.BroadcastsInDim S200000x256 (![0, 1] : Fin 2 → Fin S200000x256.rank)
  bcast_S_S50000x256 : S_.BroadcastsInDim S50000x256 (![] : Fin 0 → Fin S50000x256.rank)
  shapeCasts_S256_S1x256 : S256.ShapeCasts S1x256
  shapeCasts_S1000x256_S1000x256 : S1000x256.ShapeCasts S1000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1000x128_S1000x128_0_0 : ∀ a, (![0, 0] : Fin 2 → Nat) a + S1000x128.size a ≤ S1000x128.size a
  h_S1000x128 : 0 < S1000x128.numel
  packedbf16_S1000x128_S1000x128_0_0 : (Rect.unit (s := S1000x128) ![0, 0] S1000x128.size inb_S1000x128_S1000x128_0_0).PackedRows (EltTy.packing .bf16)
  bcast_S200000x1_S200000x128_0_1 : S200000x1.BroadcastsInDim S200000x128 (![0, 1] : Fin 2 → Fin S200000x128.rank)
  bcast_S_S50000x128 : S_.BroadcastsInDim S50000x128 (![] : Fin 0 → Fin S50000x128.rank)
  shapeCasts_S128_S1x128 : S128.ShapeCasts S1x128
  shapeCasts_S1000x128_S1000x128 : S1000x128.ShapeCasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S2x128_S2x128_0_0 : ∀ a, (![0, 0] : Fin 2 → Nat) a + S2x128.size a ≤ S2x128.size a
  h_S2x128 : 0 < S2x128.numel
  transposes_S2x128_p1_0_S128x2 : S2x128.Transposes [1, 0] S128x2
  inb_S1000x2_S1000x2_0_0 : ∀ a, (![0, 0] : Fin 2 → Nat) a + S1000x2.size a ≤ S1000x2.size a
  h_S1000x2 : 0 < S1000x2.numel
  packedbf16_S1000x2_S1000x2_0_0 : (Rect.unit (s := S1000x2) ![0, 0] S1000x2.size inb_S1000x2_S1000x2_0_0).PackedRows (EltTy.packing .bf16)
  bcast_S200000x1_S200000x2_0_1 : S200000x1.BroadcastsInDim S200000x2 (![0, 1] : Fin 2 → Fin S200000x2.rank)
  bcast_S_S50000x2 : S_.BroadcastsInDim S50000x2 (![] : Fin 0 → Fin S50000x2.rank)
  shapeCasts_S2_S1x2 : S2.ShapeCasts S1x2
  shapeCasts_S1000x2_S1000x2 : S1000x2.ShapeCasts S1000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  dot_S1000x1152_S1152x256_S1000x256_1_0_0_1_n_n_wf : DotDims.WF S1000x1152 S1152x256 S1000x256 [1] [0] [0] [1] [] []
  gather_S50000x256_S200000x1_S200000x256_1_0_n_n_0_1_1256_wf : GatherDims.WF S50000x256 S200000x1 S200000x256 [1] [0] [] [0] [] 1 ![1, 256]
  scatter_S50000x256_S200000x1_S200000x256_1_0_0_1_wf : ScatterDims.WF S50000x256 S200000x1 S200000x256 [1] [0] [0] 1
  dot_S1000x256_S256x128_S1000x128_1_0_0_1_n_n_wf : DotDims.WF S1000x256 S256x128 S1000x128 [1] [0] [0] [1] [] []
  gather_S50000x128_S200000x1_S200000x128_1_0_n_n_0_1_1128_wf : GatherDims.WF S50000x128 S200000x1 S200000x128 [1] [0] [] [0] [] 1 ![1, 128]
  scatter_S50000x128_S200000x1_S200000x128_1_0_0_1_wf : ScatterDims.WF S50000x128 S200000x1 S200000x128 [1] [0] [0] 1
  dot_S1000x128_S128x2_S1000x2_1_0_0_1_n_n_wf : DotDims.WF S1000x128 S128x2 S1000x2 [1] [0] [0] [1] [] []
  gather_S50000x2_S200000x1_S200000x2_1_0_n_n_0_1_12_wf : GatherDims.WF S50000x2 S200000x1 S200000x2 [1] [0] [] [0] [] 1 ![1, 2]
  scatter_S50000x2_S200000x1_S200000x2_1_0_0_1_wf : ScatterDims.WF S50000x2 S200000x1 S200000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1152.size a ≤ S50000x1152.size a
  hwx0_0 : ∀ i : grid0.Coords, EltTy.bits .f32 = 32 ∨ (Rect.block (s := S50000x1152) S1000x1152.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1152.size a ≤ S256x1152.size a
  hwx0_1 : ∀ i : grid0.Coords, EltTy.bits .f32 = 32 ∨ (Rect.block (s := S256x1152) S256x1152.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1152.size a ≤ S256x1152.size a
  hwx0_2 : ∀ i : grid0.Coords, EltTy.bits .f32 = 32 ∨ (Rect.block (s := S256x1152) S256x1152.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S50000x256.size a
  hwx0_3 : ∀ i : grid0.Coords, EltTy.bits .bf16 = 32 ∨ (Rect.block (s := S50000x256) S1000x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S50000x256.size a
  hwx0_4 : ∀ i : grid0.Coords, EltTy.bits .f32 = 32 ∨ (Rect.block (s := S50000x256) S1000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S50000x256.size a
  hwx1_1 : ∀ i : grid1.Coords, EltTy.bits .f32 = 32 ∨ (Rect.block (s := S50000x256) S1000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S50000x256.size a
  hwx1_3 : ∀ i : grid1.Coords, EltTy.bits .f32 = 32 ∨ (Rect.block (s := S50000x256) S1000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x128.size a ≤ S50000x128.size a
  hwx2_3 : ∀ i : grid2.Coords, EltTy.bits .bf16 = 32 ∨ (Rect.block (s := S50000x128) S1000x128.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x128.size a ≤ S50000x128.size a
  hwx2_4 : ∀ i : grid2.Coords, EltTy.bits .f32 = 32 ∨ (Rect.block (s := S50000x128) S1000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x128.size a ≤ S50000x128.size a
  hwx3_1 : ∀ i : grid3.Coords, EltTy.bits .f32 = 32 ∨ (Rect.block (s := S50000x128) S1000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x128.size a ≤ S50000x128.size a
  hwx3_3 : ∀ i : grid3.Coords, EltTy.bits .f32 = 32 ∨ (Rect.block (s := S50000x128) S1000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S50000x128.size a
  hwx4_0 : ∀ i : grid4.Coords, EltTy.bits .f32 = 32 ∨ (Rect.block (s := S50000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2x128.size a ≤ S2x128.size a
  hwx4_1 : ∀ i : grid4.Coords, EltTy.bits .f32 = 32 ∨ (Rect.block (s := S2x128) S2x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S2x128.size a ≤ S2x128.size a
  hwx4_2 : ∀ i : grid4.Coords, EltTy.bits .f32 = 32 ∨ (Rect.block (s := S2x128) S2x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x2.size a ≤ S50000x2.size a
  hwx4_3 : ∀ i : grid4.Coords, EltTy.bits .bf16 = 32 ∨ (Rect.block (s := S50000x2) S1000x2.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1000x2.size a ≤ S50000x2.size a
  hwx4_4 : ∀ i : grid4.Coords, EltTy.bits .f32 = 32 ∨ (Rect.block (s := S50000x2) S1000x2.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x2.size a ≤ S50000x2.size a
  hwx5_0 : ∀ i : grid5.Coords, EltTy.bits .f32 = 32 ∨ (Rect.block (s := S50000x2) S1000x2.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x2.size a ≤ S50000x2.size a
  hwx5_1 : ∀ i : grid5.Coords, EltTy.bits .f32 = 32 ∨ (Rect.block (s := S50000x2) S1000x2.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x2.size a ≤ S1x2.size a
  hwx5_2 : ∀ i : grid5.Coords, EltTy.bits .f32 = 32 ∨ (Rect.block (s := S1x2) S1x2.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1000x2.size a ≤ S50000x2.size a
  hwx5_3 : ∀ i : grid5.Coords, EltTy.bits .f32 = 32 ∨ (Rect.block (s := S50000x2) S1000x2.size (cc5_transform_3 i) (hinb5_3 i)).WholeWords (EltTy.packing .f32)

variable [Facts₀]

def dot_S1000x1152_S1152x256_S1000x256_1_0_0_1_n_n : DotDims S1000x1152 S1152x256 S1000x256 where
  lhsContracting := [1]
  rhsContracting := [0]
  lhsNonContracting := [0]
  rhsNonContracting := [1]
  lhsBatch := []
  rhsBatch := []
  wf := dot_S1000x1152_S1152x256_S1000x256_1_0_0_1_n_n_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def scatter_S50000x256_S200000x1_S200000x256_1_0_0_1 : ScatterDims S50000x256 S200000x1 S200000x256 where
  updateWindowDims := [1]
  insertedWindowDims := [0]
  scatterDimsToOperandDims := [0]
  indexVectorDim := 1
  wf := scatter_S50000x256_S200000x1_S200000x256_1_0_0_1_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def scatter_S50000x128_S200000x1_S200000x128_1_0_0_1 : ScatterDims S50000x128 S200000x1 S200000x128 where
  updateWindowDims := [1]
  insertedWindowDims := [0]
  scatterDimsToOperandDims := [0]
  indexVectorDim := 1
  wf := scatter_S50000x128_S200000x1_S200000x128_1_0_0_1_wf
def dot_S1000x128_S128x2_S1000x2_1_0_0_1_n_n : DotDims S1000x128 S128x2 S1000x2 where
  lhsContracting := [1]
  rhsContracting := [0]
  lhsNonContracting := [0]
  rhsNonContracting := [1]
  lhsBatch := []
  rhsBatch := []
  wf := dot_S1000x128_S128x2_S1000x2_1_0_0_1_n_n_wf
def gather_S50000x2_S200000x1_S200000x2_1_0_n_n_0_1_12 : GatherDims S50000x2 S200000x1 S200000x2 where
  offsetDims := [1]
  collapsedSliceDims := [0]
  operandBatchingDims := []
  startIndicesBatchingDims := []
  startIndexMap := [0]
  indexVectorDim := 1
  sliceSizes := ![1, 2]
  wf := gather_S50000x2_S200000x1_S200000x2_1_0_n_n_0_1_12_wf
def scatter_S50000x2_S200000x1_S200000x2_1_0_0_1 : ScatterDims S50000x2 S200000x1 S200000x2 where
  updateWindowDims := [1]
  insertedWindowDims := [0]
  scatterDimsToOperandDims := [0]
  indexVectorDim := 1
  wf := scatter_S50000x2_S200000x1_S200000x2_1_0_0_1_wf

abbrev win0_0 : Pipeline.Window sig grid0 :=
  Pipeline.Window.ofSpec (Memref.whole main_arg0) S1000x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x1152.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S256x1152.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v18) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v20) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21_0) S1000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v21_1) S1000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v35) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21_1) S1000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37) S1000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v37) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S2x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S2x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v38_0) S1000x2.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v38_1) S1000x2.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v52) S1000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v38_1) S1000x2.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v53) S1x2.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v54) S1000x2.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x1152 : Shape := ⟨2, ![50000, 1152]⟩
abbrev S2x200000 : Shape := ⟨2, ![2, 200000]⟩
abbrev S200000 : Shape := ⟨1, ![200000]⟩
abbrev S50000 : Shape := ⟨1, ![50000]⟩
abbrev S256x1152 : Shape := ⟨2, ![256, 1152]⟩
abbrev S256 : Shape := ⟨1, ![256]⟩
abbrev S128x256 : Shape := ⟨2, ![128, 256]⟩
abbrev S128 : Shape := ⟨1, ![128]⟩
abbrev S2x128 : Shape := ⟨2, ![2, 128]⟩
abbrev S2 : Shape := ⟨1, ![2]⟩
abbrev S1x200000 : Shape := ⟨2, ![1, 200000]⟩
abbrev S_ : Shape := ⟨0, ![]⟩
abbrev S200000x1 : Shape := ⟨2, ![200000, 1]⟩
abbrev S200000x1152 : Shape := ⟨2, ![200000, 1152]⟩
abbrev S1152x256 : Shape := ⟨2, ![1152, 256]⟩
abbrev S50000x256 : Shape := ⟨2, ![50000, 256]⟩
abbrev S1x256 : Shape := ⟨2, ![1, 256]⟩
abbrev S200000x256 : Shape := ⟨2, ![200000, 256]⟩
abbrev S256x128 : Shape := ⟨2, ![256, 128]⟩
abbrev S50000x128 : Shape := ⟨2, ![50000, 128]⟩
abbrev S1x128 : Shape := ⟨2, ![1, 128]⟩
abbrev S200000x128 : Shape := ⟨2, ![200000, 128]⟩
abbrev S128x2 : Shape := ⟨2, ![128, 2]⟩
abbrev S50000x2 : Shape := ⟨2, ![50000, 2]⟩
abbrev S1x2 : Shape := ⟨2, ![1, 2]⟩

abbrev nBuf : Space → Nat
  | .hbm => 95
  | .vmem => 0
  | .smem => 0
  | _ => 0

abbrev bufTy : (tb : Table) → Fin (tcTables nBuf tb) → BufTy
  | .hbm, ⟨0, _⟩ => ⟨S50000x1152, .f32⟩
  | .hbm, ⟨1, _⟩ => ⟨S2x200000, .i32⟩
  | .hbm, ⟨2, _⟩ => ⟨S200000, .f32⟩
  | .hbm, ⟨3, _⟩ => ⟨S50000, .i32⟩
  | .hbm, ⟨4, _⟩ => ⟨S256x1152, .f32⟩
  | .hbm, ⟨5, _⟩ => ⟨S256, .f32⟩
  | .hbm, ⟨6, _⟩ => ⟨S256x1152, .f32⟩
  | .hbm, ⟨7, _⟩ => ⟨S128x256, .f32⟩
  | .hbm, ⟨8, _⟩ => ⟨S128, .f32⟩
  | .hbm, ⟨9, _⟩ => ⟨S128x256, .f32⟩
  | .hbm, ⟨10, _⟩ => ⟨S2x128, .f32⟩
  | .hbm, ⟨11, _⟩ => ⟨S2, .f32⟩
  | .hbm, ⟨12, _⟩ => ⟨S2x128, .f32⟩
  | .hbm, ⟨13, _⟩ => ⟨S1x200000, .i32⟩
  | .hbm, ⟨14, _⟩ => ⟨S200000, .i32⟩
  | .hbm, ⟨15, _⟩ => ⟨S1x200000, .i32⟩
  | .hbm, ⟨16, _⟩ => ⟨S200000, .i32⟩
  | .hbm, ⟨17, _⟩ => ⟨S_, .i32⟩
  | .hbm, ⟨18, _⟩ => ⟨S200000, .i32⟩
  | .hbm, ⟨19, _⟩ => ⟨S200000, .i1⟩
  | .hbm, ⟨20, _⟩ => ⟨S_, .i32⟩
  | .hbm, ⟨21, _⟩ => ⟨S200000, .i32⟩
  | .hbm, ⟨22, _⟩ => ⟨S200000, .i32⟩
  | .hbm, ⟨23, _⟩ => ⟨S200000, .i32⟩
  | .hbm, ⟨24, _⟩ => ⟨S200000x1, .i32⟩
  | .hbm, ⟨25, _⟩ => ⟨S200000x1152, .f32⟩
  | .hbm, ⟨26, _⟩ => ⟨S200000x1, .f32⟩
  | .hbm, ⟨27, _⟩ => ⟨S200000x1152, .f32⟩
  | .hbm, ⟨28, _⟩ => ⟨S200000x1152, .f32⟩
  | .hbm, ⟨29, _⟩ => ⟨S_, .f32⟩
  | .hbm, ⟨30, _⟩ => ⟨S50000x1152, .f32⟩
  | .hbm, ⟨31, _⟩ => ⟨S200000x1, .i32⟩
  | .hbm, ⟨32, _⟩ => ⟨S50000x1152, .f32⟩
  | .hbm, ⟨33, _⟩ => ⟨S1152x256, .f32⟩
  | .hbm, ⟨34, _⟩ => ⟨S50000x256, .f32⟩
  | .hbm, ⟨35, _⟩ => ⟨S1x256, .f32⟩
  | .hbm, ⟨36, _⟩ => ⟨S50000x256, .f32⟩
  | .hbm, ⟨37, _⟩ => ⟨S50000x256, .f32⟩
  | .hbm, ⟨38, _⟩ => ⟨S1152x256, .f32⟩
  | .hbm, ⟨39, _⟩ => ⟨S50000x256, .f32⟩
  | .hbm, ⟨40, _⟩ => ⟨S50000x256, .f32⟩
  | .hbm, ⟨41, _⟩ => ⟨S_, .f32⟩
  | .hbm, ⟨42, _⟩ => ⟨S50000x256, .f32⟩
  | .hbm, ⟨43, _⟩ => ⟨S50000x256, .f32⟩
  | .hbm, ⟨44, _⟩ => ⟨S_, .i32⟩
  | .hbm, ⟨45, _⟩ => ⟨S200000, .i32⟩
  | .hbm, ⟨46, _⟩ => ⟨S200000, .i1⟩
  | .hbm, ⟨47, _⟩ => ⟨S_, .i32⟩
  | .hbm, ⟨48, _⟩ => ⟨S200000, .i32⟩
  | .hbm, ⟨49, _⟩ => ⟨S200000, .i32⟩
  | .hbm, ⟨50, _⟩ => ⟨S200000, .i32⟩
  | .hbm, ⟨51, _⟩ => ⟨S200000x1, .i32⟩
  | .hbm, ⟨52, _⟩ => ⟨S200000x256, .f32⟩
  | .hbm, ⟨53, _⟩ => ⟨S200000x1, .f32⟩
  | .hbm, ⟨54, _⟩ => ⟨S200000x256, .f32⟩
  | .hbm, ⟨55, _⟩ => ⟨S200000x256, .f32⟩
  | .hbm, ⟨56, _⟩ => ⟨S_, .f32⟩
  | .hbm, ⟨57, _⟩ => ⟨S50000x256, .f32⟩
  | .hbm, ⟨58, _⟩ => ⟨S200000x1, .i32⟩
  | .hbm, ⟨59, _⟩ => ⟨S50000x256, .f32⟩
  | .hbm, ⟨60, _⟩ => ⟨S256x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S256x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S200000, .i32⟩
  | .hbm, ⟨73, _⟩ => ⟨S200000, .i1⟩
  | .hbm, ⟨74, _⟩ => ⟨S_, .i32⟩
  | .hbm, ⟨75, _⟩ => ⟨S200000, .i32⟩
  | .hbm, ⟨76, _⟩ => ⟨S200000, .i32⟩
  | .hbm, ⟨77, _⟩ => ⟨S200000, .i32⟩
  | .hbm, ⟨78, _⟩ => ⟨S200000x1, .i32⟩
  | .hbm, ⟨79, _⟩ => ⟨S200000x128, .f32⟩
  | .hbm, ⟨80, _⟩ => ⟨S200000x1, .f32⟩
  | .hbm, ⟨81, _⟩ => ⟨S200000x128, .f32⟩
  | .hbm, ⟨82, _⟩ => ⟨S200000x128, .f32⟩
  | .hbm, ⟨83, _⟩ => ⟨S_, .f32⟩
  | .hbm, ⟨84, _⟩ => ⟨S50000x128, .f32⟩
  | .hbm, ⟨85, _⟩ => ⟨S200000x1, .i32⟩
  | .hbm, ⟨86, _⟩ => ⟨S50000x128, .f32⟩
  | .hbm, ⟨87, _⟩ => ⟨S128x2, .f32⟩
  | .hbm, ⟨88, _⟩ => ⟨S50000x2, .f32⟩
  | .hbm, ⟨89, _⟩ => ⟨S1x2, .f32⟩
  | .hbm, ⟨90, _⟩ => ⟨S50000x2, .f32⟩
  | .hbm, ⟨91, _⟩ => ⟨S50000x2, .f32⟩
  | .hbm, ⟨92, _⟩ => ⟨S128x2, .f32⟩
  | .hbm, ⟨93, _⟩ => ⟨S50000x2, .f32⟩
  | .hbm, ⟨94, _⟩ => ⟨S50000x2, .f32⟩
  | _, _ => ⟨S50000x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call0_cst : Ref sig .tc := ⟨.hbm, 41, rfl⟩
abbrev main_call0_v0 : Ref sig .tc := ⟨.hbm, 42, rfl⟩
abbrev main_v25 : Ref sig .tc := ⟨.hbm, 43, rfl⟩
abbrev main_c_1 : Ref sig .tc := ⟨.hbm, 44, rfl⟩
abbrev main_v26 : Ref sig .tc := ⟨.hbm, 45, rfl⟩
abbrev main_v27 : Ref sig .tc := ⟨.hbm, 46, rfl⟩
abbrev main_c_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_3 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_c_4 : Ref sig .tc := ⟨.hbm, 71, rfl⟩
abbrev main_v48 : Ref sig .tc := ⟨.hbm, 72, rfl⟩
abbrev main_v49 : Ref sig .tc := ⟨.hbm, 73, rfl⟩
abbrev main_c_5 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_6 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x1152_0_1 : S200000x1.BroadcastsInDim S200000x1152 (![0, 1] : Fin 2 → Fin S200000x1152.rank)
  bcast_S_S50000x1152 : S_.BroadcastsInDim S50000x1152 (![] : Fin 0 → Fin S50000x1152.rank)
  transposes_S256x1152_S1152x256_1_0 : S256x1152.Transposes [1, 0] S1152x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S200000x1_S200000x256_0_1 : S200000x1.BroadcastsInDim S200000x256 (![0, 1] : Fin 2 → Fin S200000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S200000x1_S200000x128_0_1 : S200000x1.BroadcastsInDim S200000x128 (![0, 1] : Fin 2 → Fin S200000x128.rank)
  transposes_S2x128_S128x2_1_0 : S2x128.Transposes [1, 0] S128x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x1152_S200000x1_S200000x1152_1_0_n_n_0_1_11152_wf : GatherDims.WF S50000x1152 S200000x1 S200000x1152 [1] [0] [] [0] [] 1 ![1, 1152]
  scatter_S50000x1152_S200000x1_S200000x1152_1_0_0_1_wf : ScatterDims.WF S50000x1152 S200000x1 S200000x1152 [1] [0] [0] 1
  dot_S50000x1152_S1152x256_S50000x256_1_0_0_1_n_n_wf : DotDims.WF S50000x1152 S1152x256 S50000x256 [1] [0] [0] [1] [] []
  gather_S50000x256_S200000x1_S200000x256_1_0_n_n_0_1_1256_wf : GatherDims.WF S50000x256 S200000x1 S200000x256 [1] [0] [] [0] [] 1 ![1, 256]
  scatter_S50000x256_S200000x1_S200000x256_1_0_0_1_wf : ScatterDims.WF S50000x256 S200000x1 S200000x256 [1] [0] [0] 1
  dot_S50000x256_S256x128_S50000x128_1_0_0_1_n_n_wf : DotDims.WF S50000x256 S256x128 S50000x128 [1] [0] [0] [1] [] []
  gather_S50000x128_S200000x1_S200000x128_1_0_n_n_0_1_1128_wf : GatherDims.WF S50000x128 S200000x1 S200000x128 [1] [0] [] [0] [] 1 ![1, 128]
  scatter_S50000x128_S200000x1_S200000x128_1_0_0_1_wf : ScatterDims.WF S50000x128 S200000x1 S200000x128 [1] [0] [0] 1
  dot_S50000x128_S128x2_S50000x2_1_0_0_1_n_n_wf : DotDims.WF S50000x128 S128x2 S50000x2 [1] [0] [0] [1] [] []

variable [Facts₀]

def gather_S50000x1152_S200000x1_S200000x1152_1_0_n_n_0_1_11152 : GatherDims S50000x1152 S200000x1 S200000x1152 where
  offsetDims := [1]
  collapsedSliceDims := [0]
  operandBatchingDims := []
  startIndicesBatchingDims := []
  startIndexMap := [0]
  indexVectorDim := 1
  sliceSizes := ![1, 1152]
  wf := gather_S50000x1152_S200000x1_S200000x1152_1_0_n_n_0_1_11152_wf
def scatter_S50000x1152_S200000x1_S200000x1152_1_0_0_1 : ScatterDims S50000x1152 S200000x1 S200000x1152 where
  updateWindowDims := [1]
  insertedWindowDims := [0]
  scatterDimsToOperandDims := [0]
  indexVectorDim := 1
  wf := scatter_S50000x1152_S200000x1_S200000x1152_1_0_0_1_wf
def dot_S50000x1152_S1152x256_S50000x256_1_0_0_1_n_n : DotDims S50000x1152 S1152x256 S50000x256 where
  lhsContracting := [1]
  rhsContracting := [0]
  lhsNonContracting := [0]
  rhsNonContracting := [1]
  lhsBatch := []
  rhsBatch := []
  wf := dot_S50000x1152_S1152x256_S50000x256_1_0_0_1_n_n_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def scatter_S50000x256_S200000x1_S200000x256_1_0_0_1 : ScatterDims S50000x256 S200000x1 S200000x256 where
  updateWindowDims := [1]
  insertedWindowDims := [0]
  scatterDimsToOperandDims := [0]
  indexVectorDim := 1
  wf := scatter_S50000x256_S200000x1_S200000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def scatter_S50000x128_S200000x1_S200000x128_1_0_0_1 : ScatterDims S50000x128 S200000x1 S200000x128 where
  updateWindowDims := [1]
  insertedWindowDims := [0]
  scatterDimsToOperandDims := [0]
  indexVectorDim := 1
  wf := scatter_S50000x128_S200000x1_S200000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.KRun.lean ====
/-
  The run of the whole program with its result named.

  Every weakly fair execution of the program terminates without a fault; at the end the result buffer holds what the
  last region's write-backs leave in it (the last of the boundary contents, a fold through the program from the launch
  memory), and every argument array is as launched. The run is assembled from the six regions' segments and the four
  stretches of host operations between them; the final thread state holds every unscoped buffer at the last boundary's
  contents, and the result buffer is one of them.
-/
import proofs.«107408_j73280732004501_2_alg».proof.Proof.PatchedKernelIdealFrame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: it terminates, nothing faults, the result buffer ends at the last boundary's contents and the
    arguments end as launched. -/
theorem run_result : θ_run defs (onTc (τ := τ) (main (F := F))) ⟨m, fun _ => 0, ρ⟩ (fun r => ∀ c : Dev nD,
      r.2.mem ((c.tc : Thread nD τ).loc main_v54) = W10 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v54 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.KValue

end
-- ==== Proof.KPay.lean ====
/-
  What each kernel body computes, entry by entry, on extended reals.

  The three projection bodies load a block `x` of node rows and two weight matrices, and store `x · Wᵀ` twice:
  entry `(r, o)` of either product is `∑ q, x (r, q) · W (o, q)` — the weights are transposed in registers, the
  product goes into a zero accumulator, and every change of float format is the identity on extended reals.
  The three combining bodies load two blocks and a one-row bias and store `(a + b) + bias`, entry by entry, the
  bias row repeated down the block; the first two then take the maximum with zero.
-/
import proofs.«107408_j73280732004501_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

open scoped BigOperators

namespace Cert.KernelIdeal.KValue

open Cert.KernelIdeal Cert.KernelIdeal.Gen Idealize.ShloMosaic Idealize.ShloMosaic.ValueIdx Idealize.ShloMosaic.StackMember

/-- A plain `m × k` by `k × n` product into the zero accumulator, read at `(a, b)`: the sum over the contracted
    coordinate of the products of the entries. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  have h := dotGeneral_plain_apply (m := m) (n := n) prec A B a b
  rw [Ideal.matmul_constant_zero_apply]
  rw [show Host.dotGeneral (DotDims.plain m k n) prec A B (ix2 a b)
      = FloatOps.dotGeneral (DotDims.plain m k n) prec _ A B (ix2 a b) from rfl, Ideal.dotGeneral_apply] at h
  exact h

/-! ## The projection bodies -/

/-- Layer 1's projection, the narrow copy: entry `(r, o)` is row `r` of the block against row `o` of the weights. -/
theorem pay0_3 (v0 : FVec Ideal S1000x1152 .f32) (v2 : FVec Ideal S256x1152 .f32) (r : Fin 1000) (o : Fin 256) :
    k0_pay3 (F := Ideal) v0 v2 (ix2 r o) = ∑ q : Fin 1152, v0 (ix2 r q) * v2 (ix2 o q) := by
  unfold k0_pay3 k0_pay1
  show FloatOps.matmul (DotDims.plain 1000 1152 256) none (truncf .bf16 v0 bitsLt_bf16_f32)
      (transpose S1152x256 [1, 0] (truncf .bf16 v2 bitsLt_bf16_f32) transposes_S256x1152_p1_0_S1152x256)
      (constant ⟨2, ![1000, 256]⟩ .f32 0x00000000#32) (ix2 r o) = _
  rw [matmul_plain_zero_apply]
  refine Finset.sum_congr rfl fun q _ => ?_
  rw [transpose_ix2_apply]
  rfl

/-- Layer 1's projection, the root copy. -/
theorem pay0_2 (v0 : FVec Ideal S1000x1152 .f32) (v4 : FVec Ideal S256x1152 .f32) (r : Fin 1000) (o : Fin 256) :
    k0_pay2 (F := Ideal) v0 v4 (ix2 r o) = ∑ q : Fin 1152, v0 (ix2 r q) * v4 (ix2 o q) := by
  unfold k0_pay2 k0_pay1
  show FloatOps.matmul (DotDims.plain 1000 1152 256) none (truncf .bf16 v0 bitsLt_bf16_f32)
      (transpose S1152x256 [1, 0] (truncf .bf16 v4 bitsLt_bf16_f32) transposes_S256x1152_p1_0_S1152x256)
      (constant ⟨2, ![1000, 256]⟩ .f32 0x00000000#32) (ix2 r o) = _
  rw [matmul_plain_zero_apply]
  refine Finset.sum_congr rfl fun q _ => ?_
  rw [transpose_ix2_apply]
  rfl

/-- Layer 2's projection, the narrow copy. -/
theorem pay2_3 (v0 : FVec Ideal S1000x256 .f32) (v3 : FVec Ideal S128x256 .f32) (r : Fin 1000) (o : Fin 128) :
    k2_pay3 (F := Ideal) v0 v3 (ix2 r o) = ∑ q : Fin 256, v0 (ix2 r q) * v3 (ix2 o q) := by
  unfold k2_pay3 k2_pay1
  rw [shapeCast_self]
  show FloatOps.matmul (DotDims.plain 1000 256 128) none (truncf .bf16 v0 bitsLt_bf16_f32)
      (transpose S256x128 [1, 0] (truncf .bf16 v3 bitsLt_bf16_f32) transposes_S128x256_p1_0_S256x128)
      (constant ⟨2, ![1000, 128]⟩ .f32 0x00000000#32) (ix2 r o) = _
  rw [matmul_plain_zero_apply]
  refine Finset.sum_congr rfl fun q _ => ?_
  rw [transpose_ix2_apply]
  rfl

/-- Layer 2's projection, the root copy. -/
theorem pay2_2 (v0 : FVec Ideal S1000x256 .f32) (v5 : FVec Ideal S128x256 .f32) (r : Fin 1000) (o : Fin 128) :
    k2_pay2 (F := Ideal) v0 v5 (ix2 r o) = ∑ q : Fin 256, v0 (ix2 r q) * v5 (ix2 o q) := by
  unfold k2_pay2 k2_pay1
  rw [shapeCast_self]
  show FloatOps.matmul (DotDims.plain 1000 256 128) none (truncf .bf16 v0 bitsLt_bf16_f32)
      (transpose S256x128 [1, 0] (truncf .bf16 v5 bitsLt_bf16_f32) transposes_S128x256_p1_0_S256x128)
      (constant ⟨2, ![1000, 128]⟩ .f32 0x00000000#32) (ix2 r o) = _
  rw [matmul_plain_zero_apply]
  refine Finset.sum_congr rfl fun q _ => ?_
  rw [transpose_ix2_apply]
  rfl

/-- Layer 3's projection, the narrow copy. -/
theorem pay4_3 (v0 : FVec Ideal S1000x128 .f32) (v3 : FVec Ideal S2x128 .f32) (r : Fin 1000) (o : Fin 2) :
    k4_pay3 (F := Ideal) v0 v3 (ix2 r o) = ∑ q : Fin 128, v0 (ix2 r q) * v3 (ix2 o q) := by
  unfold k4_pay3 k4_pay1
  rw [shapeCast_self]
  show FloatOps.matmul (DotDims.plain 1000 128 2) none (truncf .bf16 v0 bitsLt_bf16_f32)
      (transpose S128x2 [1, 0] (truncf .bf16 v3 bitsLt_bf16_f32) transposes_S2x128_p1_0_S128x2)
      (constant ⟨2, ![1000, 2]⟩ .f32 0x00000000#32) (ix2 r o) = _
  rw [matmul_plain_zero_apply]
  refine Finset.sum_congr rfl fun q _ => ?_
  rw [transpose_ix2_apply]
  rfl

/-- Layer 3's projection, the root copy. -/
theorem pay4_2 (v0 : FVec Ideal S1000x128 .f32) (v5 : FVec Ideal S2x128 .f32) (r : Fin 1000) (o : Fin 2) :
    k4_pay2 (F := Ideal) v0 v5 (ix2 r o) = ∑ q : Fin 128, v0 (ix2 r q) * v5 (ix2 o q) := by
  unfold k4_pay2 k4_pay1
  rw [shapeCast_self]
  show FloatOps.matmul (DotDims.plain 1000 128 2) none (truncf .bf16 v0 bitsLt_bf16_f32)
      (transpose S128x2 [1, 0] (truncf .bf16 v5 bitsLt_bf16_f32) transposes_S2x128_p1_0_S128x2)
      (constant ⟨2, ![1000, 2]⟩ .f32 0x00000000#32) (ix2 r o) = _
  rw [matmul_plain_zero_apply]
  refine Finset.sum_congr rfl fun q _ => ?_
  rw [transpose_ix2_apply]
  rfl

/-! ## The combining bodies -/

/-- Layer 1's combination: the two blocks and the bias row added, then the maximum with zero. -/
theorem pay1_1 (v0 v2 : FVec Ideal S1000x256 .f32) (v5 : FVec Ideal S1x256 .f32) (r : Fin 1000) (o : Fin 256) :
    k1_pay1 (F := Ideal) v0 v2 v5 (ix2 r o) = max ((v0 (ix2 r o) + v2 (ix2 r o)) + v5 (ix2 (0 : Fin 1) o)) 0 := by
  unfold k1_pay1
  simp only [shapeCast_self]
  show max ((v0 (ix2 r o) + v2 (ix2 r o)) + broadcastTo S1000x256 v5 broadcasts_S1x256_S1000x256 (ix2 r o))
      (Ideal.ofBits .f32 0x00000000#32) = _
  rw [Ideal.ofBits_zero_f32, broadcastTo_1b_ab_apply]

/-- Layer 2's combination. -/
theorem pay3_1 (v0 v2 : FVec Ideal S1000x128 .f32) (v5 : FVec Ideal S1x128 .f32) (r : Fin 1000) (o : Fin 128) :
    k3_pay1 (F := Ideal) v0 v2 v5 (ix2 r o) = max ((v0 (ix2 r o) + v2 (ix2 r o)) + v5 (ix2 (0 : Fin 1) o)) 0 := by
  unfold k3_pay1
  simp only [shapeCast_self]
  show max ((v0 (ix2 r o) + v2 (ix2 r o)) + broadcastTo S1000x128 v5 broadcasts_S1x128_S1000x128 (ix2 r o))
      (Ideal.ofBits .f32 0x00000000#32) = _
  rw [Ideal.ofBits_zero_f32, broadcastTo_1b_ab_apply]

/-- Layer 3's combination: no maximum. -/
theorem pay5_1 (v0 v2 : FVec Ideal S1000x2 .f32) (v5 : FVec Ideal S1x2 .f32) (r : Fin 1000) (o : Fin 2) :
    k5_pay1 (F := Ideal) v0 v2 v5 (ix2 r o) = (v0 (ix2 r o) + v2 (ix2 r o)) + v5 (ix2 (0 : Fin 1) o) := by
  unfold k5_pay1
  simp only [shapeCast_self]
  show (v0 (ix2 r o) + v2 (ix2 r o)) + broadcastTo S1000x2 v5 broadcasts_S1x2_S1000x2 (ix2 r o) = _
  rw [broadcastTo_1b_ab_apply]

end Cert.KernelIdeal.KValue

end
-- ==== Proof.LibRowScatter.lean ====
/-
  A ROW GATHER and a ROW SCATTER-ADD, READ AT AN INDEX, generically in the sizes.

  A table `x : [N, C]` and one integer row number per update row, `idx : [M, 1]`:
  • `stablehlo.gather` with offset axis `1`, collapsed axis `0`, start index map `[0]`, index vector on axis `1` and
    slices `1 × C` gives `[M, C]`; its element `(e, j)` is `x (gatherRow e, j)`, where `gatherRow e` is `idx[e, 0]`
    read signed and clamped into `[0, N − 1]` (`gather_row_apply`).
  • the accumulating `stablehlo.scatter` with update window axis `1`, inserted window axis `0`, scatter index to
    operand axis `0` and index vector on axis `1` sends update `(e, j)` to `(landRow e, j)`, where `landRow e` is
    `idx[e, 0]` read signed and NOT clamped — no row at all when it is outside `[0, N)` (`resultIdx_row`); so, at the
    ideal instance, the result's element `(i, j)` is `x (i, j)` plus the sum of `upd (e, j)` over the update rows `e`
    with `landRow e = some i` (`scatterAdd_row_apply`): the scatter acts column by column.
  Both are stated for any dimension-number record with those fields, whatever the sizes `N`, `M`, `C` and the index
  width; each is first proved for the literal record (`rowGatherDims`, `rowScatterDims`), where the axis lists compute.
-/
import Idealize.ShloMosaic.PureOps.Ideal
import Idealize.ShloMosaic.Lib.ValueIdx

noncomputable section

open scoped BigOperators

namespace Cert.Lib.RowScatter

open Idealize.ShloMosaic Idealize.ShloMosaic.ValueIdx

/-! ## Axis membership facts at rank 2 -/

/-- Axis `0` is in the list `[0]`. -/
theorem zero_mem_zero : (0 : Fin 2) ∈ [(0 : Fin 2)] := by decide
/-- Axis `1` is not in the list `[0]`. -/
theorem one_not_mem_zero : (1 : Fin 2) ∉ [(0 : Fin 2)] := by decide
/-- Axis `1` is in the list `[1]`. -/
theorem one_mem_one : (1 : Fin 2) ∈ [(1 : Fin 2)] := by decide
/-- Axis `0` is not in the list `[1]`. -/
theorem zero_not_mem_one : (0 : Fin 2) ∉ [(1 : Fin 2)] := by decide

/-! ## A row gather read at an index -/

/-- The operand row that update row `e` reads: its start index `idx[e, 0]`, read as a signed integer and clamped
    into `[0, N − 1]`. -/
def gatherRow (N M : Nat) (hN : 0 < N) {w : Nat} (idx : IVec ⟨2, ![M, 1]⟩ w) (e : Fin M) : Fin N :=
  ⟨min (idx (ix2 e 0)).toInt.toNat (N - 1), by omega⟩

/-- The row-gather dimension numbers as a literal record: operand `[N, C]`, start indices `[M, 1]`, result `[M, C]`;
    offset axis `1`, collapsed axis `0`, start index map `[0]`, index vector on axis `1`, slices `1 × C`. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The literal row gather at `(e, j)` is the operand at row `gatherRow e`, column `j`. -/
theorem gather_rowDims_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowGatherDims N M C wf) x idx (ix2 e j) = x (ix2 (gatherRow N M hN idx e) j) := by
  unfold Host.gather
  congr 1
  funext a
  refine Fin.ext ?_
  match a with
  | ⟨0, _⟩ =>
    show (rowGatherDims N M C wf).start (ix2 e j) idx 0 + (rowGatherDims N M C wf).batchCoord (ix2 e j) 0
      + (rowGatherDims N M C wf).offCoord (ix2 e j) 0 = min (idx (ix2 e 0)).toInt.toNat (N - 1)
    rw [GatherDims.batchCoord_eq_zero _ _ _ List.not_mem_nil,
      GatherDims.offCoord_eq_zero _ _ _ (fun h => ((GatherDims.mem_sKept _ _).mp h).1 zero_mem_zero)]
    simp only [Nat.add_zero]
    unfold GatherDims.start
    rw [dif_pos (show (0 : Fin 2) ∈ (rowGatherDims N M C wf).startIndexMap from zero_mem_zero)]
    have hsi : (rowGatherDims N M C wf).siIdx (ix2 e j) ⟨List.idxOf (0 : Fin 2) (rowGatherDims N M C wf).startIndexMap,
        List.idxOf_lt_length_iff.2 zero_mem_zero⟩ = ix2 e 0 := by
      funext b; refine Fin.ext ?_
      match b with
      | ⟨0, _⟩ => rfl
      | ⟨1, _⟩ => rfl
    rw [hsi]
    rfl
  | ⟨1, _⟩ =>
    show (rowGatherDims N M C wf).start (ix2 e j) idx 1 + (rowGatherDims N M C wf).batchCoord (ix2 e j) 1
      + (rowGatherDims N M C wf).offCoord (ix2 e j) 1 = j.val
    rw [GatherDims.batchCoord_eq_zero _ _ _ List.not_mem_nil]
    unfold GatherDims.start
    rw [dif_neg (show (1 : Fin 2) ∉ (rowGatherDims N M C wf).startIndexMap from one_not_mem_zero)]
    simp only [Nat.add_zero, Nat.zero_add]
    unfold GatherDims.offCoord
    rw [dif_pos (show (1 : Fin 2) ∈ (rowGatherDims N M C wf).sKept from
      (GatherDims.mem_sKept _ _).mpr ⟨one_not_mem_zero, List.not_mem_nil⟩)]
    rfl

/-- A ROW GATHER READ AT `(e, j)`: for row-indexed dimension numbers (offset axis `1`, collapsed axis `0`, start index
    map `[0]`, one start index per update row, slices `1 × C`), `stablehlo.gather` of a table `x : [N, C]` at the
    start indices `idx : [M, 1]` has, at row `e` and column `j`, the table's element at row `idx[e, 0]` (read
    signed, clamped into `[0, N − 1]`) and the same column `j`. -/
theorem gather_row_apply {α : Type} {N M C w : Nat} (hN : 0 < N)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (j : Fin C) :
    Host.gather d x idx (ix2 e j) = x (ix2 (gatherRow N M hN idx e) j) := by
  obtain ⟨od, cd, ob, sb, sm, iv, ss, wf⟩ := d
  dsimp only at hod hcd hob hsb hsm hiv hss
  subst hod hcd hob hsb hsm hiv hss
  exact gather_rowDims_apply hN wf x idx e j

/-! ## A row scatter-add read at an index -/

/-- An axis is kept exactly when it is not among the dropped ones. -/
theorem mem_kept {s : Shape} (axes : List (Fin s.rank)) (a : Fin s.rank) : a ∈ s.kept axes ↔ a ∉ axes := by
  simp [Shape.kept, List.mem_filter, List.mem_finRange]

/-- The operand row that update row `e` lands at: its scatter index `idx[e, 0]`, read as a signed integer and NOT
    clamped, when that is a row of the operand; no row (the update is dropped) when it is negative or `≥ N`. -/
def landRow (N M : Nat) {w : Nat} (idx : IVec ⟨2, ![M, 1]⟩ w) (e : Fin M) : Option (Fin N) :=
  if h : 0 ≤ (idx (ix2 e 0)).toInt ∧ (idx (ix2 e 0)).toInt < N then
    some ⟨(idx (ix2 e 0)).toInt.toNat, by omega⟩
  else none

/-- The row-scatter dimension numbers as a literal record: operand `[N, C]`, scatter indices `[M, 1]`, updates
    `[M, C]`; update window axis `1`, inserted window axis `0`, scatter index to operand axis `0`, index vector on
    axis `1`. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section RowScatter
variable {N M C w : Nat} (wf : ScatterDims.WF ⟨2, ![N, C]⟩ ⟨2, ![M, 1]⟩ ⟨2, ![M, C]⟩ [1] [0] [0] 1)
  (idx : IVec ⟨2, ![M, 1]⟩ w) (e : Fin M) (j : Fin C)

/-- On the row axis the window of update `(e, j)` starts at the scatter index `idx[e, 0]`, read signed. -/
theorem start_row : (rowScatterDims N M C wf).start (ix2 e j) idx 0 = (idx (ix2 e 0)).toInt := by
  unfold ScatterDims.start
  rw [dif_pos (show (0 : Fin 2) ∈ (rowScatterDims N M C wf).scatterDimsToOperandDims from zero_mem_zero)]
  have hsi : (rowScatterDims N M C wf).siIdx (ix2 e j)
      ⟨List.idxOf (0 : Fin 2) (rowScatterDims N M C wf).scatterDimsToOperandDims,
        List.idxOf_lt_length_iff.2 zero_mem_zero⟩ = ix2 e 0 := by
    funext b; refine Fin.ext ?_
    match b with
    | ⟨0, _⟩ => rfl
    | ⟨1, _⟩ => rfl
  rw [hsi]

/-- On the column axis the window starts at `0`. -/
theorem start_col : (rowScatterDims N M C wf).start (ix2 e j) idx 1 = 0 := by
  unfold ScatterDims.start
  rw [dif_neg (show (1 : Fin 2) ∉ (rowScatterDims N M C wf).scatterDimsToOperandDims from one_not_mem_zero)]

/-- On the row axis (inserted) the window coordinate is `0`. -/
theorem window_row : (rowScatterDims N M C wf).window (ix2 e j) 0 = 0 := by
  unfold ScatterDims.window
  rw [dif_neg (show (0 : Fin 2) ∉ (rowScatterDims N M C wf).sKept from
    fun h => ((mem_kept _ _).mp h) zero_mem_zero)]

/-- On the column axis the window coordinate is the update's column. -/
theorem window_col : (rowScatterDims N M C wf).window (ix2 e j) 1 = j.val := by
  unfold ScatterDims.window
  rw [dif_pos (show (1 : Fin 2) ∈ (rowScatterDims N M C wf).sKept from (mem_kept _ _).mpr one_not_mem_zero)]
  rfl

/-- The literal row scatter sends update `(e, j)` to `(landRow e, j)`, or drops it when `landRow e` is no row. -/
theorem resultIdx_rowDims :
    (rowScatterDims N M C wf).resultIdx? (ix2 e j) idx = (landRow N M idx e).map (fun r => ix2 r j) := by
  unfold ScatterDims.resultIdx? landRow
  by_cases h : 0 ≤ (idx (ix2 e 0)).toInt ∧ (idx (ix2 e 0)).toInt < N
  · have hall : ∀ a, 0 ≤ (rowScatterDims N M C wf).start (ix2 e j) idx a + (rowScatterDims N M C wf).window (ix2 e j) a ∧
        (rowScatterDims N M C wf).start (ix2 e j) idx a + (rowScatterDims N M C wf).window (ix2 e j) a
          < (⟨2, ![N, C]⟩ : Shape).size a := by
      intro a
      match a with
      | ⟨0, _⟩ =>
        show 0 ≤ (rowScatterDims N M C wf).start (ix2 e j) idx 0 + ((rowScatterDims N M C wf).window (ix2 e j) 0 : ℤ) ∧
          (rowScatterDims N M C wf).start (ix2 e j) idx 0 + ((rowScatterDims N M C wf).window (ix2 e j) 0 : ℤ) < (N : ℤ)
        rw [start_row, window_row]
        simpa using h
      | ⟨1, _⟩ =>
        show 0 ≤ (rowScatterDims N M C wf).start (ix2 e j) idx 1 + ((rowScatterDims N M C wf).window (ix2 e j) 1 : ℤ) ∧
          (rowScatterDims N M C wf).start (ix2 e j) idx 1 + ((rowScatterDims N M C wf).window (ix2 e j) 1 : ℤ) < (C : ℤ)
        rw [start_col, window_col]
        have := j.isLt
        omega
    rw [dif_pos hall, dif_pos h]
    simp only [Option.map_some]
    congr 1
    funext a; refine Fin.ext ?_
    match a with
    | ⟨0, _⟩ =>
      show ((rowScatterDims N M C wf).start (ix2 e j) idx 0 + ((rowScatterDims N M C wf).window (ix2 e j) 0 : ℤ)).toNat
        = (idx (ix2 e 0)).toInt.toNat
      rw [start_row, window_row]
      simp
    | ⟨1, _⟩ =>
      show ((rowScatterDims N M C wf).start (ix2 e j) idx 1 + ((rowScatterDims N M C wf).window (ix2 e j) 1 : ℤ)).toNat
        = j.val
      rw [start_col, window_col]
      simp
  · have hnot : ¬ ∀ a, 0 ≤ (rowScatterDims N M C wf).start (ix2 e j) idx a + (rowScatterDims N M C wf).window (ix2 e j) a ∧
        (rowScatterDims N M C wf).start (ix2 e j) idx a + (rowScatterDims N M C wf).window (ix2 e j) a
          < (⟨2, ![N, C]⟩ : Shape).size a := by
      intro hall
      apply h
      have h0 : 0 ≤ (rowScatterDims N M C wf).start (ix2 e j) idx 0 + ((rowScatterDims N M C wf).window (ix2 e j) 0 : ℤ) ∧
          (rowScatterDims N M C wf).start (ix2 e j) idx 0 + ((rowScatterDims N M C wf).window (ix2 e j) 0 : ℤ) < (N : ℤ) :=
        hall 0
      rw [start_row, window_row] at h0
      simpa using h0
    rw [dif_neg hnot, dif_neg h]
    rfl

/-- The literal row scatter-add at `(i, j)`: the operand's element plus the updates of column `j` over the update
    rows that land at row `i`. -/
theorem scatterAdd_rowDims_apply (x : FVec Ideal ⟨2, ![N, C]⟩ .f32) (upd : FVec Ideal ⟨2, ![M, C]⟩ .f32) (i : Fin N) :
    Host.scatterAdd (rowScatterDims N M C wf) x idx upd (ix2 i j)
      = x (ix2 i j) + ∑ e ∈ Finset.univ.filter (fun e : Fin M => landRow N M idx e = some i), upd (ix2 e j) := by
  show Ideal.hostScatterAdd (rowScatterDims N M C wf) x idx upd (ix2 i j) = _
  unfold Ideal.hostScatterAdd
  congr 1
  symm
  refine Finset.sum_bij (fun e _ => ix2 e j) ?_ ?_ ?_ ?_
  · intro e he
    simp only [Finset.mem_filter, Finset.mem_univ, true_and] at he ⊢
    rw [resultIdx_rowDims, he]
    rfl
  · intro e₁ _ e₂ _ h
    exact congrFun h 0
  · intro u hu
    simp only [Finset.mem_filter, Finset.mem_univ, true_and] at hu
    obtain ⟨e', j', rfl⟩ : ∃ (e' : Fin M) (j' : Fin C), u = ix2 e' j' := ⟨u 0, u 1, eq_ix2 u⟩
    rw [resultIdx_rowDims] at hu
    cases hl : landRow N M idx e' with
    | none => rw [hl] at hu; simp at hu
    | some r =>
      rw [hl] at hu
      simp only [Option.map_some, Option.some.injEq] at hu
      have h0 : r = i := congrFun hu 0
      have h1 : j' = j := congrFun hu 1
      subst h0 h1
      exact ⟨e', by simp [hl], rfl⟩
  · intro e _
    rfl

end RowScatter

/-! ## The same two facts for any record with the row-scatter fields -/

/-- WHERE A ROW SCATTER SENDS AN UPDATE: for row-indexed dimension numbers (update window axis `1`, inserted window
    axis `0`, scatter index to operand axis `0`, one scatter index per update row), update `(e, j)` lands at
    `(r, j)` when the scatter index `idx[e, 0]`, read signed, is a row `r` of the operand, and is dropped otherwise. -/
theorem resultIdx_row {N M C w : Nat} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1) (idx : IVec ⟨2, ![M, 1]⟩ w) (e : Fin M) (j : Fin C) :
    d.resultIdx? (ix2 e j) idx = (landRow N M idx e).map (fun r => ix2 r j) := by
  obtain ⟨uw, iw, sd, iv, wf⟩ := d
  dsimp only at huw hiw hsd hiv
  subst huw hiw hsd hiv
  exact resultIdx_rowDims wf idx e j

/-- A ROW SCATTER-ADD READ AT `(i, j)`, at the ideal instance: for the same dimension numbers, the accumulating
    scatter of updates `upd : [M, C]` into `x : [N, C]` has, at row `i` and column `j`, the element `x (i, j)` plus
    the exact sum of `upd (e, j)` over the update rows `e` whose scatter index is the row `i`. Column `j` of the
    result depends on column `j` of the operand and of the updates only. -/
theorem scatterAdd_row_apply {N M C w : Nat} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1) (x : FVec Ideal ⟨2, ![N, C]⟩ .f32) (idx : IVec ⟨2, ![M, 1]⟩ w)
    (upd : FVec Ideal ⟨2, ![M, C]⟩ .f32) (i : Fin N) (j : Fin C) :
    Host.scatterAdd d x idx upd (ix2 i j)
      = x (ix2 i j) + ∑ e ∈ Finset.univ.filter (fun e : Fin M => landRow N M idx e = some i), upd (ix2 e j) := by
  obtain ⟨uw, iw, sd, iv, wf⟩ := d
  dsimp only at huw hiw hsd hiv
  subst huw hiw hsd hiv
  exact scatterAdd_rowDims_apply wf idx j x upd i

end Cert.Lib.RowScatter

end
-- ==== Proof.Spec.lean ====
/-
  The graph network both programs compute, as plain functions of the argument arrays.

  Nodes `i : Fin 50000`, edges `e : Fin 200000`. The edge list is a `[2, 200000]` array of 32-bit words: row 0
  holds each edge's source node, row 1 its destination node. An edge READS its source row through the word
  `srcWord` (a negative source is first moved up by the node count), taken signed and clamped into the node range
  (`srcRow`); it WRITES to its destination row `dstRow`, the destination word taken signed and not clamped — an
  edge whose destination is outside the node range writes nowhere.

  One layer maps node features `h : [n, k]` to `[n, o]`. Write `agg Y` for the edge-weighted neighbour sum
  `(agg Y) i j = ∑ over the edges e that write to i of Y (source of e) j · w e`, and `proj h W` for the product with
  the transposed weights, `(proj h W) i j = ∑ q, h i q · W j q`. The layer is
      agg-then-project :  proj (agg h) W_rel + b + proj h W_root          (`layerAggFirst`)
      project-then-agg :  agg (proj h W_rel) + proj h W_root + b          (`layerProjFirst`)
  and the two agree whenever every number involved is finite, because a finite sum of products of reals may be
  regrouped freely. The network is three such layers with `max · 0` after the first two.
-/
import Idealize.ShloMosaic.PureOps.Ideal
import Idealize.ShloMosaic.Lib.ValueIdx
import proofs.«107408_j73280732004501_2_alg».proof.Proof.LibRowScatter

noncomputable section

open scoped BigOperators

namespace Cert.GraphNet

open Idealize.ShloMosaic Idealize.ShloMosaic.ValueIdx Cert.Lib.RowScatter

/-! ## The rows an edge reads and writes -/

/-- The edge list: a `[2, 200000]` array of 32-bit words. -/
abbrev EdgeList := (⟨2, ![2, 200000]⟩ : Shape).Idx → BitVec 32

/-- The word edge `e` gathers through: its source word, moved up by the node count when negative. -/
def srcWord (ei : EdgeList) (e : Fin 200000) : BitVec 32 :=
  Scalar.select (IntOp.cmpi .slt (ei (ix2 0 e)) 0#32) (IntOp.addi (ei (ix2 0 e)) 50000#32) (ei (ix2 0 e))

/-- The word edge `e` scatters through: its destination word as it is. -/
def dstWord (ei : EdgeList) (e : Fin 200000) : BitVec 32 := ei (ix2 1 e)

/-- The node row edge `e` reads: `srcWord` taken signed, clamped into `[0, 49999]`. -/
def srcRow (ei : EdgeList) (e : Fin 200000) : Fin 50000 :=
  ⟨min (srcWord ei e).toInt.toNat (50000 - 1), by omega⟩

/-- The node row edge `e` writes: `dstWord` taken signed when it is a node, no row otherwise. -/
def dstRow (ei : EdgeList) (e : Fin 200000) : Option (Fin 50000) :=
  if h : 0 ≤ (dstWord ei e).toInt ∧ (dstWord ei e).toInt < (50000 : Nat) then
    some ⟨(dstWord ei e).toInt.toNat, by omega⟩
  else none

/-- A `[200000, 1]` index column whose entry for edge `e` is `srcWord` gathers row `srcRow`. -/
theorem gatherRow_eq (idx : IVec ⟨2, ![200000, 1]⟩ 32) (ei : EdgeList) (e : Fin 200000)
    (h : idx (ix2 e 0) = srcWord ei e) : gatherRow 50000 200000 (by decide) idx e = srcRow ei e := by
  have key : ∀ v : BitVec 32, v = srcWord ei e →
      (⟨min v.toInt.toNat (50000 - 1), by omega⟩ : Fin 50000) = srcRow ei e := by
    intro v hv; subst hv; rfl
  exact key _ h

/-- A `[200000, 1]` index column whose entry for edge `e` is `dstWord` scatters to row `dstRow`. -/
theorem landRow_eq (idx : IVec ⟨2, ![200000, 1]⟩ 32) (ei : EdgeList) (e : Fin 200000)
    (h : idx (ix2 e 0) = dstWord ei e) : landRow 50000 200000 idx e = dstRow ei e := by
  have key : ∀ v : BitVec 32, v = dstWord ei e →
      (if hv : 0 ≤ v.toInt ∧ v.toInt < (50000 : Nat) then some (⟨v.toInt.toNat, by omega⟩ : Fin 50000) else none)
        = dstRow ei e := by
    intro v hv; subst hv; rfl
  exact key _ h

/-! ## One layer, in its two arrangements -/

section Layer
variable {n m k o : Nat}

/-- The edge-weighted neighbour sum: entry `(i, j)` adds `Y (g e) j · w e` over the edges `e` that write to `i`. -/
def agg {c : Nat} (g : Fin m → Fin n) (l : Fin m → Option (Fin n)) (w : Fin m → EReal)
    (Y : Fin n → Fin c → EReal) (i : Fin n) (j : Fin c) : EReal :=
  ∑ e ∈ Finset.univ.filter (fun e : Fin m => l e = some i), Y (g e) j * w e

/-- The product with transposed weights: entry `(i, j)` is `∑ q, h i q · W j q`. -/
def proj (h : Fin n → Fin k → EReal) (W : Fin o → Fin k → EReal) (i : Fin n) (j : Fin o) : EReal :=
  ∑ q : Fin k, h i q * W j q

/-- A layer that projects first and aggregates the narrow rows: `agg (proj h W_rel) + proj h W_root + b`. -/
def layerProjFirst (g : Fin m → Fin n) (l : Fin m → Option (Fin n)) (w : Fin m → EReal)
    (h : Fin n → Fin k → EReal) (Wrel Wroot : Fin o → Fin k → EReal) (b : Fin o → EReal) : Fin n → Fin o → EReal :=
  fun i j => (agg g l w (proj h Wrel) i j + proj h Wroot i j) + b j

/-- A layer that aggregates the wide rows first and projects the sums: `proj (agg h) W_rel + b + proj h W_root`. -/
def layerAggFirst (g : Fin m → Fin n) (l : Fin m → Option (Fin n)) (w : Fin m → EReal)
    (h : Fin n → Fin k → EReal) (Wrel Wroot : Fin o → Fin k → EReal) (b : Fin o → EReal) : Fin n → Fin o → EReal :=
  fun i j => (proj (agg g l w h) Wrel i j + b j) + proj h Wroot i j

/-- The rectifier, entry by entry. -/
def relu (h : Fin n → Fin o → EReal) : Fin n → Fin o → EReal := fun i j => max (h i j) 0

/-- Every entry of a matrix is a real number. -/
def Finite2 (h : Fin n → Fin k → EReal) : Prop := ∀ i q, ∃ r : ℝ, h i q = (r : EReal)
/-- Every entry of a vector is a real number. -/
def Finite1 (b : Fin o → EReal) : Prop := ∀ j, ∃ r : ℝ, b j = (r : EReal)

end Layer

/-! ## The three-layer network, in the two arrangements -/

section Net
variable {n m d0 d1 d2 d3 : Nat}

/-- Three project-first layers, rectified after the first two. -/
def netProjFirst (g : Fin m → Fin n) (l : Fin m → Option (Fin n)) (w : Fin m → EReal) (x : Fin n → Fin d0 → EReal)
    (W1 R1 : Fin d1 → Fin d0 → EReal) (b1 : Fin d1 → EReal) (W2 R2 : Fin d2 → Fin d1 → EReal) (b2 : Fin d2 → EReal)
    (W3 R3 : Fin d3 → Fin d2 → EReal) (b3 : Fin d3 → EReal) : Fin n → Fin d3 → EReal :=
  layerProjFirst g l w (relu (layerProjFirst g l w (relu (layerProjFirst g l w x W1 R1 b1)) W2 R2 b2)) W3 R3 b3

/-- Three aggregate-first layers, rectified after the first two. -/
def netAggFirst (g : Fin m → Fin n) (l : Fin m → Option (Fin n)) (w : Fin m → EReal) (x : Fin n → Fin d0 → EReal)
    (W1 R1 : Fin d1 → Fin d0 → EReal) (b1 : Fin d1 → EReal) (W2 R2 : Fin d2 → Fin d1 → EReal) (b2 : Fin d2 → EReal)
    (W3 R3 : Fin d3 → Fin d2 → EReal) (b3 : Fin d3 → EReal) : Fin n → Fin d3 → EReal :=
  layerAggFirst g l w (relu (layerAggFirst g l w (relu (layerAggFirst g l w x W1 R1 b1)) W2 R2 b2)) W3 R3 b3

end Net

end Cert.GraphNet

end
-- ==== Proof.KRegion0.lean ====
/-
  The first projection region (layer 1), read as whole arrays.

  The grid has 50 points; point `t` stages rows `1000 t … 1000 t + 999` of the node features (all 1152 columns) and
  both weight matrices whole, and writes back rows `1000 t … 1000 t + 999` of the two products. The 50 row blocks
  tile the 50000 rows, so after the region each output array holds, at `(i, j)`, `∑ q, x (i, q) · W (j, q)` of
  the arrays the region found: the narrow copy against the aggregation weights, the root copy against the root weights.
-/
import proofs.«107408_j73280732004501_2_alg».proof.Proof.PatchedKernelIdealFrame
import proofs.«107408_j73280732004501_2_alg».proof.Proof.KPay
import proofs.«107408_j73280732004501_2_alg».proof.Proof.Spec
import Idealize.ShloMosaic.Lib.Pipeline.Value

set_option maxRecDepth 16384

noncomputable section

open scoped BigOperators

namespace Cert.KernelIdeal.KValue

open Cert.KernelIdeal Cert.KernelIdeal.Gen Cert.GraphNet Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps of the region's five windows, decided over the grid: the row-blocked windows move with the
    point, the weight windows stay at block `(0, 0)`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The feature block at point `t` is rows `1000 t …` of the feature array. -/
theorem iblk0_0_apply (c : Dev nD) (t : Fin cfg0.N) (x : S1000x1152.Idx) (k : S50000x1152.Idx)
    (hk0 : (k 0).val = 1000 * t.val + (x 0).val) (hk1 : (k 1).val = (x 1).val) :
    (iblk0 V c 0 t : Vec Ideal S1000x1152 .f32) x = (V c main_arg0 : S50000x1152.Idx → Elt Ideal .f32) k := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 1000 + 1 * (x 0).val = (k 0).val; rw [e0, hk0]; omega
  | ⟨1, _⟩ => show win0_0.index t 1 * 1152 + 1 * (x 1).val = (k 1).val; rw [e1, hk1]; omega

/-- The aggregation-weight block at any point is the whole weight array. -/
theorem iblk0_1_apply (c : Dev nD) (t : Fin cfg0.N) (x : S256x1152.Idx) :
    (iblk0 V c 1 t : Vec Ideal S256x1152 .f32) x = (V c main_arg4 : S256x1152.Idx → Elt Ideal .f32) x := by
  obtain ⟨-, -, e0, e1, -⟩ := idx0 t
  unfold iblk0
  rw [View.read_apply]
  show V c main_arg4 _ = V c main_arg4 _
  congr 1
  funext a
  apply Fin.ext
  match a with
  | ⟨0, _⟩ => show win0_1.index t 0 * 256 + 1 * (x 0).val = (x 0).val; rw [e0]; omega
  | ⟨1, _⟩ => show win0_1.index t 1 * 1152 + 1 * (x 1).val = (x 1).val; rw [e1]; omega

/-- The root-weight block at any point is the whole weight array. -/
theorem iblk0_2_apply (c : Dev nD) (t : Fin cfg0.N) (x : S256x1152.Idx) :
    (iblk0 V c 2 t : Vec Ideal S256x1152 .f32) x = (V c main_arg6 : S256x1152.Idx → Elt Ideal .f32) x := by
  obtain ⟨-, -, -, -, e0, e1, -⟩ := idx0 t
  unfold iblk0
  rw [View.read_apply]
  show V c main_arg6 _ = V c main_arg6 _
  congr 1
  funext a
  apply Fin.ext
  match a with
  | ⟨0, _⟩ => show win0_2.index t 0 * 256 + 1 * (x 0).val = (x 0).val; rw [e0]; omega
  | ⟨1, _⟩ => show win0_2.index t 1 * 1152 + 1 * (x 1).val = (x 1).val; rw [e1]; omega

/-- The array a projection region leaves: features against transposed weights, index by index. -/
def projArr {n k o : Nat} (x : (⟨2, ![n, k]⟩ : Shape).Idx → EReal) (W : (⟨2, ![o, k]⟩ : Shape).Idx → EReal) :
    (⟨2, ![n, o]⟩ : Shape).Idx → EReal :=
  fun i => proj (fun a q => x (ix2 a q)) (fun j q => W (ix2 j q)) (i 0) (i 1)

/-- What point `t` writes back of the narrow copy is block `t` of the whole product. -/
theorem flushed0_3 (c : Dev nD) (t : Fin cfg0.N) :
    (dat0 V c).flushed 3 t = ((cfg0.win 3).blk t).view.read (Elt Ideal)
      (projArr (n := 50000) (k := 1152) (o := 256) (V c main_arg0) (V c main_arg4)) := by
  show (cfg0.win 3).cut (grid0.coords t) ((dat0 V c).after 3 t) = _
  rw [after0_3]
  unfold out0_3
  rw [View.canon_unit_zero hz]
  simp only [View.ld_unit_zero (S := S1000x1152) hz, View.ld_unit_zero (S := S256x1152) hz]
  obtain ⟨-, -, -, -, -, -, e0, e1, -⟩ := idx0 t
  funext j
  obtain ⟨r, o, rfl⟩ : ∃ (r : Fin 1000) (o : Fin 256), j = ix2 r o := ⟨j 0, j 1, eq_ix2 j⟩
  refine (pay0_3 _ _ r o).trans ?_
  rw [View.read_apply]
  unfold projArr proj
  refine Finset.sum_congr rfl fun q _ => ?_
  congr 1
  · refine iblk0_0_apply V c t (ix2 r q) _ ?_ rfl
    show win0_3.index t 0 * 1000 + 1 * r.val = 1000 * t.val + r.val
    rw [e0]; omega
  · refine (iblk0_1_apply V c t (ix2 o q)).trans ?_
    congr 1
    funext a
    apply Fin.ext
    match a with
    | ⟨0, _⟩ => show o.val = win0_3.index t 1 * 256 + 1 * o.val; rw [e1]; omega
    | ⟨1, _⟩ => rfl

/-- The same for the root copy. -/
theorem flushed0_4 (c : Dev nD) (t : Fin cfg0.N) :
    (dat0 V c).flushed 4 t = ((cfg0.win 4).blk t).view.read (Elt Ideal)
      (projArr (n := 50000) (k := 1152) (o := 256) (V c main_arg0) (V c main_arg6)) := by
  show (cfg0.win 4).cut (grid0.coords t) ((dat0 V c).after 4 t) = _
  rw [after0_4]
  unfold out0_4
  rw [View.canon_unit_zero hz]
  simp only [View.ld_unit_zero (S := S1000x1152) hz, View.ld_unit_zero (S := S256x1152) hz]
  obtain ⟨-, -, -, -, -, -, -, -, e0, e1⟩ := idx0 t
  funext j
  obtain ⟨r, o, rfl⟩ : ∃ (r : Fin 1000) (o : Fin 256), j = ix2 r o := ⟨j 0, j 1, eq_ix2 j⟩
  refine (pay0_2 _ _ r o).trans ?_
  rw [View.read_apply]
  unfold projArr proj
  refine Finset.sum_congr rfl fun q _ => ?_
  congr 1
  · refine iblk0_0_apply V c t (ix2 r q) _ ?_ rfl
    show win0_4.index t 0 * 1000 + 1 * r.val = 1000 * t.val + r.val
    rw [e0]; omega
  · refine (iblk0_2_apply V c t (ix2 o q)).trans ?_
    congr 1
    funext a
    apply Fin.ext
    match a with
    | ⟨0, _⟩ => show o.val = win0_4.index t 1 * 256 + 1 * o.val; rw [e1]; omega
    | ⟨1, _⟩ => rfl

/-- Every index of the narrow output lies in the block of the point its row falls in. -/
theorem covered0_3 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 50 := N_0
  have ht : (i 0).val / 1000 < cfg0.N := by rw [hN]; omega
  obtain ⟨-, -, -, -, -, -, e0, e1, -⟩ := idx0 ⟨(i 0).val / 1000, ht⟩
  refine ⟨⟨(i 0).val / 1000, ht⟩, flush0_3 _, ?_⟩
  show i ∈ ((View.whole main_v4_0).slice (win0_3.rect ⟨(i 0).val / 1000, ht⟩)).set
  rw [View.set_slice_whole, Rect.mem_set_unit]
  intro a
  match a with
  | ⟨0, _⟩ =>
    show win0_3.index _ 0 * 1000 ≤ (i 0).val ∧ (i 0).val < win0_3.index _ 0 * 1000 + 1000
    rw [e0]; show (i 0).val / 1000 * 1000 ≤ (i 0).val ∧ (i 0).val < (i 0).val / 1000 * 1000 + 1000; omega
  | ⟨1, _⟩ =>
    show win0_3.index _ 1 * 256 ≤ (i 1).val ∧ (i 1).val < win0_3.index _ 1 * 256 + 256
    rw [e1]; omega

/-- Every index of the root output lies in the block of the point its row falls in. -/
theorem covered0_4 (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  have hN : cfg0.N = 50 := N_0
  have ht : (i 0).val / 1000 < cfg0.N := by rw [hN]; omega
  obtain ⟨-, -, -, -, -, -, -, -, e0, e1⟩ := idx0 ⟨(i 0).val / 1000, ht⟩
  refine ⟨⟨(i 0).val / 1000, ht⟩, flush0_4 _, ?_⟩
  show i ∈ ((View.whole main_v4_1).slice (win0_4.rect ⟨(i 0).val / 1000, ht⟩)).set
  rw [View.set_slice_whole, Rect.mem_set_unit]
  intro a
  match a with
  | ⟨0, _⟩ =>
    show win0_4.index _ 0 * 1000 ≤ (i 0).val ∧ (i 0).val < win0_4.index _ 0 * 1000 + 1000
    rw [e0]; show (i 0).val / 1000 * 1000 ≤ (i 0).val ∧ (i 0).val < (i 0).val / 1000 * 1000 + 1000; omega
  | ⟨1, _⟩ =>
    show win0_4.index _ 1 * 256 ≤ (i 1).val ∧ (i 1).val < win0_4.index _ 1 * 256 + 256
    rw [e1]; omega

/-- After the region the narrow output array is the whole product with the aggregation weights. -/
theorem final0_3 (c : Dev nD) :
    (dat0 V c).arrAt 3 cfg0.N = projArr (n := 50000) (k := 1152) (o := 256) (V c main_arg0) (V c main_arg4) :=
  (dat0 V c).arrAt_eq_of_cover 3 _ (fun t _ => flushed0_3 V c t) covered0_3

/-- After the region the root output array is the whole product with the root weights. -/
theorem final0_4 (c : Dev nD) :
    (dat0 V c).arrAt 4 cfg0.N = projArr (n := 50000) (k := 1152) (o := 256) (V c main_arg0) (V c main_arg6) :=
  (dat0 V c).arrAt_eq_of_cover 4 _ (fun t _ => flushed0_4 V c t) covered0_4

end Cert.KernelIdeal.KValue

end
-- ==== Proof.KRegion1.lean ====
/-
  The first combining region (layer 1), read as a whole array.

  Point `t` of the 50 stages rows `1000 t … 1000 t + 999` of the aggregated array and of the root product, and the
  one-row bias whole, and writes back the same rows of `max ((aggregated + root) + bias, 0)`, the bias row repeated
  down the block. The row blocks tile the 50000 rows.
-/
import proofs.«107408_j73280732004501_2_alg».proof.Proof.KRegion0

set_option maxRecDepth 16384

noncomputable section

open scoped BigOperators

namespace Cert.KernelIdeal.KValue

open Cert.KernelIdeal Cert.KernelIdeal.Gen Cert.GraphNet Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The array a rectifying combining region leaves: `max ((a + r) + bias, 0)`, the one-row bias read at the column. -/
def combArr {n o : Nat} (a r : (⟨2, ![n, o]⟩ : Shape).Idx → EReal) (b : (⟨2, ![1, o]⟩ : Shape).Idx → EReal) :
    (⟨2, ![n, o]⟩ : Shape).Idx → EReal :=
  fun i => max ((a i + r i) + b (ix2 (0 : Fin 1) (i 1))) 0

/-- The array the last combining region leaves: `(a + r) + bias`. -/
def combArrLast {n o : Nat} (a r : (⟨2, ![n, o]⟩ : Shape).Idx → EReal) (b : (⟨2, ![1, o]⟩ : Shape).Idx → EReal) :
    (⟨2, ![n, o]⟩ : Shape).Idx → EReal :=
  fun i => (a i + r i) + b (ix2 (0 : Fin 1) (i 1))

/-- The printed index maps of the region's four windows, decided over the grid. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregated block at point `t` is rows `1000 t …` of the aggregated array. -/
theorem iblk1_0_apply (c : Dev nD) (t : Fin cfg1.N) (x : S1000x256.Idx) (k : S50000x256.Idx)
    (hk0 : (k 0).val = 1000 * t.val + (x 0).val) (hk1 : (k 1).val = (x 1).val) :
    (iblk1 V c 0 t : Vec Ideal S1000x256 .f32) x = (V c main_v18 : S50000x256.Idx → Elt Ideal .f32) k := by
  obtain ⟨e0, e1, -⟩ := idx1 t
  unfold iblk1
  rw [View.read_apply]
  show V c main_v18 _ = V c main_v18 _
  congr 1
  funext a
  apply Fin.ext
  match a with
  | ⟨0, _⟩ => show win1_0.index t 0 * 1000 + 1 * (x 0).val = (k 0).val; rw [e0, hk0]; omega
  | ⟨1, _⟩ => show win1_0.index t 1 * 256 + 1 * (x 1).val = (k 1).val; rw [e1, hk1]; omega

/-- The root block at point `t` is rows `1000 t …` of the root product. -/
theorem iblk1_1_apply (c : Dev nD) (t : Fin cfg1.N) (x : S1000x256.Idx) (k : S50000x256.Idx)
    (hk0 : (k 0).val = 1000 * t.val + (x 0).val) (hk1 : (k 1).val = (x 1).val) :
    (iblk1 V c 1 t : Vec Ideal S1000x256 .f32) x = (V c main_v4_1 : S50000x256.Idx → Elt Ideal .f32) k := by
  obtain ⟨-, -, e0, e1, -⟩ := idx1 t
  unfold iblk1
  rw [View.read_apply]
  show V c main_v4_1 _ = V c main_v4_1 _
  congr 1
  funext a
  apply Fin.ext
  match a with
  | ⟨0, _⟩ => show win1_1.index t 0 * 1000 + 1 * (x 0).val = (k 0).val; rw [e0, hk0]; omega
  | ⟨1, _⟩ => show win1_1.index t 1 * 256 + 1 * (x 1).val = (k 1).val; rw [e1, hk1]; omega

/-- The bias block at any point is the whole one-row bias. -/
theorem iblk1_2_apply (c : Dev nD) (t : Fin cfg1.N) (x : S1x256.Idx) :
    (iblk1 V c 2 t : Vec Ideal S1x256 .f32) x = (V c main_v19 : S1x256.Idx → Elt Ideal .f32) x := by
  obtain ⟨-, -, -, -, e0, e1, -⟩ := idx1 t
  unfold iblk1
  rw [View.read_apply]
  show V c main_v19 _ = V c main_v19 _
  congr 1
  funext a
  apply Fin.ext
  match a with
  | ⟨0, _⟩ => show win1_2.index t 0 * 1 + 1 * (x 0).val = (x 0).val; rw [e0]; omega
  | ⟨1, _⟩ => show win1_2.index t 1 * 256 + 1 * (x 1).val = (x 1).val; rw [e1]; omega

/-- What point `t` writes back is block `t` of the whole combination. -/
theorem flushed1_3 (c : Dev nD) (t : Fin cfg1.N) :
    (dat1 V c).flushed 3 t = ((cfg1.win 3).blk t).view.read (Elt Ideal)
      (combArr (n := 50000) (o := 256) (V c main_v18) (V c main_v4_1) (V c main_v19)) := by
  show (cfg1.win 3).cut (grid1.coords t) ((dat1 V c).after 3 t) = _
  rw [after1_3]
  unfold out1_3
  rw [View.canon_unit_zero hz]
  simp only [View.ld_unit_zero (S := S1000x256) hz, View.ld_unit_zero (S := S1x256) hz]
  obtain ⟨-, -, -, -, -, -, e0, e1⟩ := idx1 t
  funext j
  obtain ⟨r, o, rfl⟩ : ∃ (r : Fin 1000) (o : Fin 256), j = ix2 r o := ⟨j 0, j 1, eq_ix2 j⟩
  refine (pay1_1 _ _ _ r o).trans ?_
  rw [View.read_apply]
  unfold combArr
  have h0 : ((((cfg1.win 3).blk t).view.emb (ix2 r o)) 0).val = 1000 * t.val + r.val := by
    show win1_3.index t 0 * 1000 + 1 * r.val = 1000 * t.val + r.val
    rw [e0]; omega
  have h1 : ((((cfg1.win 3).blk t).view.emb (ix2 r o)) 1).val = o.val := by
    show win1_3.index t 1 * 256 + 1 * o.val = o.val
    rw [e1]; omega
  rw [iblk1_0_apply V c t (ix2 r o) _ h0 h1, iblk1_1_apply V c t (ix2 r o) _ h0 h1, iblk1_2_apply V c t (ix2 (0 : Fin 1) o)]
  congr 3
  exact congrArg (ix2 (0 : Fin 1)) (Fin.ext h1).symm

/-- Every index of the output lies in the block of the point its row falls in. -/
theorem covered1_3 (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 50 := N_1
  have ht : (i 0).val / 1000 < cfg1.N := by rw [hN]; omega
  obtain ⟨-, -, -, -, -, -, e0, e1⟩ := idx1 ⟨(i 0).val / 1000, ht⟩
  refine ⟨⟨(i 0).val / 1000, ht⟩, flush1_3 _, ?_⟩
  show i ∈ ((View.whole main_v20).slice (win1_3.rect ⟨(i 0).val / 1000, ht⟩)).set
  rw [View.set_slice_whole, Rect.mem_set_unit]
  intro a
  match a with
  | ⟨0, _⟩ =>
    show win1_3.index _ 0 * 1000 ≤ (i 0).val ∧ (i 0).val < win1_3.index _ 0 * 1000 + 1000
    rw [e0]; show (i 0).val / 1000 * 1000 ≤ (i 0).val ∧ (i 0).val < (i 0).val / 1000 * 1000 + 1000; omega
  | ⟨1, _⟩ =>
    show win1_3.index _ 1 * 256 ≤ (i 1).val ∧ (i 1).val < win1_3.index _ 1 * 256 + 256
    rw [e1]; omega

/-- After the region the output array is the whole combination. -/
theorem final1_3 (c : Dev nD) :
    (dat1 V c).arrAt 3 cfg1.N = combArr (n := 50000) (o := 256) (V c main_v18) (V c main_v4_1) (V c main_v19) :=
  (dat1 V c).arrAt_eq_of_cover 3 _ (fun t _ => flushed1_3 V c t) covered1_3

end Cert.KernelIdeal.KValue

end
-- ==== Proof.KAgg.lean ====
/-
  The host operations between a projection region and a combining region, read at an index.

  Between the two regions of a layer the program works on whole arrays: it gathers, for each edge, the projected row
  of the edge's source node (the source word moved up by the node count when negative), widens it, multiplies it by
  the edge's weight (the weight vector turned into a column and repeated across the row), and adds the products into
  a zero array at the row of the edge's destination node. Entry `(i, j)` of the result is therefore the sum, over the
  edges that write to node `i`, of the projected entry `(source of e, j)` times the weight of `e` — the
  specification's `agg`. The lemmas are stated for any feature width and any dimension records with the row-gather and
  row-scatter fields.
-/
import proofs.«107408_j73280732004501_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.GraphNet

open Idealize.ShloMosaic Idealize.ShloMosaic.ValueIdx Cert.Lib.RowScatter

/-! ## The two rows of the edge list as vectors -/

/-- Row `r` of the `[2, 200000]` edge list, sliced out and flattened, holds at `e` the word `(r, e)`. -/
theorem edgeRow_apply (ei : EdgeList) (r : Fin 2) (off : Fin 2 → Nat) (hoff0 : off 0 = r.val) (hoff1 : off 1 = 0)
    (hs : (⟨2, ![2, 200000]⟩ : Shape).Slices off ⟨2, ![1, 200000]⟩)
    (hc : (⟨2, ![1, 200000]⟩ : Shape).ShapeCasts ⟨1, ![200000]⟩) (e : Fin 200000) :
    shapeCast ⟨1, ![200000]⟩ (extractStridedSlice ⟨2, ![1, 200000]⟩ off ei hs) hc (ix1 e) = ei (ix2 r e) := by
  rw [shapeCast_1a_a_apply]
  refine extractStridedSlice_apply off ei hs (ix2 (0 : Fin 1) e) (ix2 r e) fun a => ?_
  match a with
  | ⟨0, _⟩ => show r.val = off 0 + 0; omega
  | ⟨1, _⟩ => show e.val = off 1 + e.val; omega

/-! ## The index columns -/

/-- A vector turned into a `[200000, 1]` column reads, at `(e, 0)`, the vector at `e`. -/
theorem column_apply {α : Type} (v : (⟨1, ![200000]⟩ : Shape).Idx → α)
    (h : (⟨1, ![200000]⟩ : Shape).BroadcastsInDim ⟨2, ![200000, 1]⟩ ![0]) (e : Fin 200000) (u : Fin 1) :
    broadcastInDim ⟨2, ![200000, 1]⟩ ![0] h v (ix2 e u) = v (ix1 e) := by
  refine broadcastInDim_apply _ h v (ix2 e u) (ix1 e) fun a => ?_
  match a with
  | ⟨0, _⟩ => show e.val = if (200000 : Nat) = 1 then 0 else e.val; rw [if_neg (by decide)]

/-- A scalar repeated along a vector reads the scalar everywhere. -/
theorem splat_apply {α : Type} (v : (⟨0, ![]⟩ : Shape).Idx → α)
    (h : (⟨0, ![]⟩ : Shape).BroadcastsInDim ⟨1, ![200000]⟩ ![]) (i : (⟨1, ![200000]⟩ : Shape).Idx) :
    broadcastInDim ⟨1, ![200000]⟩ ![] h v i = v ix0 :=
  broadcastInDim_apply _ h v i ix0 fun a => a.elim0

/-- The gather's index column, entry `(e, 0)`: the source word moved up by the node count when negative. -/
theorem srcColumn_apply (ei : EdgeList) (s : IVec ⟨1, ![200000]⟩ 32) (hs : ∀ e : Fin 200000, s (ix1 e) = ei (ix2 0 e))
    (hb : (⟨0, ![]⟩ : Shape).BroadcastsInDim ⟨1, ![200000]⟩ ![])
    (hcol : (⟨1, ![200000]⟩ : Shape).BroadcastsInDim ⟨2, ![200000, 1]⟩ ![0]) (e : Fin 200000) :
    broadcastInDim ⟨2, ![200000, 1]⟩ ![0] hcol
        (select (cmpi .slt s (broadcastInDim ⟨1, ![200000]⟩ ![] hb (constantI ⟨0, ![]⟩ 32 0#32)))
          (addi s (broadcastInDim ⟨1, ![200000]⟩ ![] hb (constantI ⟨0, ![]⟩ 32 50000#32))) s) (ix2 e 0)
      = srcWord ei e := by
  rw [column_apply]
  show Scalar.select (IntOp.cmpi .slt (s (ix1 e)) (broadcastInDim ⟨1, ![200000]⟩ ![] hb (constantI ⟨0, ![]⟩ 32 0#32) (ix1 e)))
      (IntOp.addi (s (ix1 e)) (broadcastInDim ⟨1, ![200000]⟩ ![] hb (constantI ⟨0, ![]⟩ 32 50000#32) (ix1 e))) (s (ix1 e)) = _
  rw [splat_apply, splat_apply, hs e]
  rfl

/-- The scatter's index column, entry `(e, 0)`: the destination word as it is. -/
theorem dstColumn_apply (ei : EdgeList) (d : IVec ⟨1, ![200000]⟩ 32) (hd : ∀ e : Fin 200000, d (ix1 e) = ei (ix2 1 e))
    (hcol : (⟨1, ![200000]⟩ : Shape).BroadcastsInDim ⟨2, ![200000, 1]⟩ ![0]) (e : Fin 200000) :
    broadcastInDim ⟨2, ![200000, 1]⟩ ![0] hcol d (ix2 e 0) = dstWord ei e := by
  rw [column_apply, hd e]
  rfl

/-! ## The weight, repeated across the row -/

/-- The edge weights as a column repeated across `C` columns read, at `(e, j)`, the weight of `e`. -/
theorem weightRows_apply {C : Nat} (w : FVec Ideal ⟨1, ![200000]⟩ .f32)
    (hcol : (⟨1, ![200000]⟩ : Shape).BroadcastsInDim ⟨2, ![200000, 1]⟩ ![0])
    (hrow : (⟨2, ![200000, 1]⟩ : Shape).BroadcastsInDim ⟨2, ![200000, C]⟩ ![0, 1]) (e : Fin 200000) (j : Fin C) :
    broadcastInDim ⟨2, ![200000, C]⟩ ![0, 1] hrow (broadcastInDim ⟨2, ![200000, 1]⟩ ![0] hcol w) (ix2 e j) = w (ix1 e) := by
  rw [broadcastInDim_apply ![0, 1] hrow _ (ix2 e j) (ix2 e (0 : Fin 1)) (fun a => by
    match a with
    | ⟨0, _⟩ => show e.val = if (200000 : Nat) = 1 then 0 else e.val; rw [if_neg (by decide)]
    | ⟨1, _⟩ => show (0 : Nat) = if (1 : Nat) = 1 then 0 else j.val; rw [if_pos rfl])]
  exact column_apply w hcol e 0

/-! ## The whole chain -/

/-- THE AGGREGATION READ AT `(i, j)`: the weighted, gathered rows added into a zero array by destination are the
    specification's `agg` of the gathered table. -/
theorem hostAgg_apply {C : Nat} {φ : FTy} (hφ : φ.bits < FTy.f32.bits)
    (gd : GatherDims ⟨2, ![50000, C]⟩ ⟨2, ![200000, 1]⟩ ⟨2, ![200000, C]⟩)
    (hod : gd.offsetDims = [1]) (hcd : gd.collapsedSliceDims = [0]) (hob : gd.operandBatchingDims = [])
    (hsb : gd.startIndicesBatchingDims = []) (hsm : gd.startIndexMap = [0]) (hiv : gd.indexVectorDim = 1)
    (hss : gd.sliceSizes = ![1, C])
    (sd : ScatterDims ⟨2, ![50000, C]⟩ ⟨2, ![200000, 1]⟩ ⟨2, ![200000, C]⟩)
    (huw : sd.updateWindowDims = [1]) (hiw : sd.insertedWindowDims = [0]) (hsdo : sd.scatterDimsToOperandDims = [0])
    (hsiv : sd.indexVectorDim = 1)
    (hz : (⟨0, ![]⟩ : Shape).BroadcastsInDim ⟨2, ![50000, C]⟩ ![])
    (hcol : (⟨1, ![200000]⟩ : Shape).BroadcastsInDim ⟨2, ![200000, 1]⟩ ![0])
    (hrow : (⟨2, ![200000, 1]⟩ : Shape).BroadcastsInDim ⟨2, ![200000, C]⟩ ![0, 1])
    (ei : EdgeList) (y : FVec Ideal ⟨2, ![50000, C]⟩ φ) (gi di : IVec ⟨2, ![200000, 1]⟩ 32)
    (hgi : ∀ e : Fin 200000, gi (ix2 e 0) = srcWord ei e) (hdi : ∀ e : Fin 200000, di (ix2 e 0) = dstWord ei e)
    (w : FVec Ideal ⟨1, ![200000]⟩ .f32) (i : Fin 50000) (j : Fin C) :
    Host.scatterAdd sd (broadcastInDim ⟨2, ![50000, C]⟩ ![] hz (constant ⟨0, ![]⟩ .f32 0x00000000#32)) di
        (mulf (extf .f32 (Host.gather gd y gi) hφ)
          (broadcastInDim ⟨2, ![200000, C]⟩ ![0, 1] hrow (broadcastInDim ⟨2, ![200000, 1]⟩ ![0] hcol w))) (ix2 i j)
      = agg (srcRow ei) (dstRow ei) (fun e => w (ix1 e)) (fun a q => y (ix2 a q)) i j := by
  rw [scatterAdd_row_apply sd huw hiw hsdo hsiv]
  rw [broadcastInDim_apply ![] hz _ (ix2 i j) ix0 (fun a => a.elim0)]
  show Ideal.ofBits .f32 0x00000000#32 + _ = _
  rw [Ideal.ofBits_zero_f32, zero_add]
  unfold agg
  have hset : (Finset.univ.filter fun e : Fin 200000 => landRow 50000 200000 di e = some i)
      = Finset.univ.filter fun e : Fin 200000 => dstRow ei e = some i := by
    ext e
    simp only [Finset.mem_filter, Finset.mem_univ, true_and]
    rw [landRow_eq di ei e (hdi e)]
  rw [hset]
  refine Finset.sum_congr rfl fun e _ => ?_
  show Host.gather gd y gi (ix2 e j) * _ = _
  rw [gather_row_apply (by decide : 0 < 50000) gd hod hcd hob hsb hsm hiv hss, gatherRow_eq gi ei e (hgi e),
    weightRows_apply]

end Cert.GraphNet

end
-- ==== Proof.KLayer1.lean ====
/-
  Layer 1 of the kernel program, from the launch memory to the first activations.

  The program's buffers at each boundary between host operations and regions are a fold from the launch memory. Read
  through that fold: the first region finds the node features and the layer's two weight matrices as launched and
  leaves the two projections; the host operations that follow leave, in the aggregated array, the specification's
  `agg` of the narrow projection (over the rows the edge list names), and the bias as one row; the second region
  leaves `max ((aggregated + root projection) + bias, 0)`. Entry by entry that is the specification's rectified
  project-first layer of the arguments.
-/
import proofs.«107408_j73280732004501_2_alg».proof.Proof.KRegion0
import proofs.«107408_j73280732004501_2_alg».proof.Proof.KRegion1
import proofs.«107408_j73280732004501_2_alg».proof.Proof.KAgg
import Idealize.ShloMosaic.Lib.StableHlo.Run

set_option maxRecDepth 16384

noncomputable section

open scoped BigOperators

namespace Cert.KernelIdeal.KValue

open Cert.KernelIdeal Cert.KernelIdeal.Gen Cert.GraphNet Idealize.ShloMosaic Idealize.ShloMosaic.TcCoe Idealize.ShloMosaic.ValueIdx
open Idealize.SL.Sem Idealize.ShloMosaic.StableHlo

/-- A stretch of host operations leaves a buffer none of them writes as it was. -/
macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## One layer from its pieces -/

/-- A rectified layer from its pieces: if the projections are the products with the two weight matrices, the
    aggregated array is `agg` of the narrow projection and the one-row bias is the bias vector, the combination is the
    specification's rectified project-first layer. -/
theorem layer_step {k o : Nat} (g : Fin 200000 → Fin 50000) (l : Fin 200000 → Option (Fin 50000)) (w : Fin 200000 → EReal)
    (xarr : (⟨2, ![50000, k]⟩ : Shape).Idx → EReal) (Wa Ra : (⟨2, ![o, k]⟩ : Shape).Idx → EReal)
    (yarr rarr aggarr : (⟨2, ![50000, o]⟩ : Shape).Idx → EReal) (barr : (⟨2, ![1, o]⟩ : Shape).Idx → EReal)
    (bvec : (⟨1, ![o]⟩ : Shape).Idx → EReal) (h : Fin 50000 → Fin k → EReal)
    (hx : ∀ a q, xarr (ix2 a q) = h a q) (hy : yarr = projArr xarr Wa) (hr : rarr = projArr xarr Ra)
    (hagg : ∀ i j, aggarr (ix2 i j) = agg g l w (fun a q => yarr (ix2 a q)) i j)
    (hb : ∀ j, barr (ix2 (0 : Fin 1) j) = bvec (ix1 j)) (i : Fin 50000) (j : Fin o) :
    combArr aggarr rarr barr (ix2 i j)
      = relu (layerProjFirst g l w h (fun j q => Wa (ix2 j q)) (fun j q => Ra (ix2 j q)) (fun j => bvec (ix1 j))) i j := by
  have hxf : (fun a q => xarr (ix2 a q)) = h := funext fun a => funext fun q => hx a q
  subst hy hr
  unfold combArr relu layerProjFirst
  rw [hagg]
  show max ((_ + _) + barr (ix2 (0 : Fin 1) j)) 0 = _
  rw [hb]
  unfold projArr
  rw [hxf]
  rfl

/-- The last layer from its pieces: the same without the maximum. -/
theorem layer_step_last {k o : Nat} (g : Fin 200000 → Fin 50000) (l : Fin 200000 → Option (Fin 50000)) (w : Fin 200000 → EReal)
    (xarr : (⟨2, ![50000, k]⟩ : Shape).Idx → EReal) (Wa Ra : (⟨2, ![o, k]⟩ : Shape).Idx → EReal)
    (yarr rarr aggarr : (⟨2, ![50000, o]⟩ : Shape).Idx → EReal) (barr : (⟨2, ![1, o]⟩ : Shape).Idx → EReal)
    (bvec : (⟨1, ![o]⟩ : Shape).Idx → EReal) (h : Fin 50000 → Fin k → EReal)
    (hx : ∀ a q, xarr (ix2 a q) = h a q) (hy : yarr = projArr xarr Wa) (hr : rarr = projArr xarr Ra)
    (hagg : ∀ i j, aggarr (ix2 i j) = agg g l w (fun a q => yarr (ix2 a q)) i j)
    (hb : ∀ j, barr (ix2 (0 : Fin 1) j) = bvec (ix1 j)) (i : Fin 50000) (j : Fin o) :
    combArrLast aggarr rarr barr (ix2 i j)
      = layerProjFirst g l w h (fun j q => Wa (ix2 j q)) (fun j q => Ra (ix2 j q)) (fun j => bvec (ix1 j)) i j := by
  have hxf : (fun a q => xarr (ix2 a q)) = h := funext fun a => funext fun q => hx a q
  subst hy hr
  unfold combArrLast layerProjFirst
  rw [hagg]
  show (_ + _) + barr (ix2 (0 : Fin 1) j) = _
  rw [hb]
  unfold projArr
  rw [hxf]
  rfl

variable (m : (ℓ : Loc nD τ sig) → Buf (Elt Ideal) ℓ) (ρ : Dev nD → PrngReg)

/-! ## Before the first region -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_keeps hostOps0
    _ = m ((c : Thread nD τ).loc main_arg0) := rfl
theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := by host_keeps hostOps0
    _ = m ((c : Thread nD τ).loc main_arg2) := rfl
theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := by host_keeps hostOps0
    _ = m ((c : Thread nD τ).loc main_arg4) := rfl
theorem W1_arg5 (c : Dev nD) : W1 m ρ c (Proc.devRef .tc main_arg5) = m ((c : Thread nD τ).loc main_arg5) :=
  calc W1 m ρ c (Proc.devRef .tc main_arg5)
    _ = W0 m ρ c (Proc.devRef .tc main_arg5) := by host_keeps hostOps0
    _ = m ((c : Thread nD τ).loc main_arg5) := rfl
theorem W1_arg6 (c : Dev nD) : W1 m ρ c (Proc.devRef .tc main_arg6) = m ((c : Thread nD τ).loc main_arg6) :=
  calc W1 m ρ c (Proc.devRef .tc main_arg6)
    _ = W0 m ρ c (Proc.devRef .tc main_arg6) := by host_keeps hostOps0
    _ = m ((c : Thread nD τ).loc main_arg6) := rfl

/-- The source vector: row 0 of the edge list. -/
theorem W1_v1 (c : Dev nD) (e : Fin 200000) :
    (W1 m ρ c (Proc.devRef .tc main_v1) : S200000.Idx → BitVec 32) (ix1 e)
      = (m ((c : Thread nD τ).loc main_arg1) : EdgeList) (ix2 0 e) := by
  have h : W1 m ρ c (Proc.devRef .tc main_v1)
      = shapeCast S200000 (extractStridedSlice S1x200000 ![0, 0] (W0 m ρ c (Proc.devRef .tc main_arg1)) slices_S2x200000_S1x200000_0_0)
          shapeCasts_S1x200000_S200000 := by
    show StableHlo.after hostOps0 (W0 m ρ c) (Proc.devRef .tc main_v1) = _
    after_results
    rfl
  rw [h]
  exact edgeRow_apply _ 0 ![0, 0] rfl rfl _ _ e

/-- The destination vector: row 1 of the edge list. -/
theorem W1_v3 (c : Dev nD) (e : Fin 200000) :
    (W1 m ρ c (Proc.devRef .tc main_v3) : S200000.Idx → BitVec 32) (ix1 e)
      = (m ((c : Thread nD τ).loc main_arg1) : EdgeList) (ix2 1 e) := by
  have h : W1 m ρ c (Proc.devRef .tc main_v3)
      = shapeCast S200000 (extractStridedSlice S1x200000 ![1, 0] (W0 m ρ c (Proc.devRef .tc main_arg1)) slices_S2x200000_S1x200000_1_0)
          shapeCasts_S1x200000_S200000 := by
    show StableHlo.after hostOps0 (W0 m ρ c) (Proc.devRef .tc main_v3) = _
    after_results
    rfl
  rw [h]
  exact edgeRow_apply _ 1 ![1, 0] rfl rfl _ _ e

/-! ## After the first region -/

/-- The narrow projection of layer 1. -/
theorem W2_v4_0 (c : Dev nD) : W2 m ρ c (Proc.devRef .tc main_v4_0)
    = projArr (n := 50000) (k := 1152) (o := 256) (m ((c : Thread nD τ).loc main_arg0)) (m ((c : Thread nD τ).loc main_arg4)) := by
  refine (W2_arr m ρ c 3).trans ((final0_3 (V1 m ρ) c).trans ?_)
  show projArr (W1 m ρ c (Proc.devRef .tc main_arg0)) (W1 m ρ c (Proc.devRef .tc main_arg4)) = _
  rw [W1_arg0, W1_arg4]

/-- The root projection of layer 1. -/
theorem W2_v4_1 (c : Dev nD) : W2 m ρ c (Proc.devRef .tc main_v4_1)
    = projArr (n := 50000) (k := 1152) (o := 256) (m ((c : Thread nD τ).loc main_arg0)) (m ((c : Thread nD τ).loc main_arg6)) := by
  refine (W2_arr m ρ c 4).trans ((final0_4 (V1 m ρ) c).trans ?_)
  show projArr (W1 m ρ c (Proc.devRef .tc main_arg0)) (W1 m ρ c (Proc.devRef .tc main_arg6)) = _
  rw [W1_arg0, W1_arg6]

theorem W2_v1 (c : Dev nD) : W2 m ρ c (Proc.devRef .tc main_v1) = W1 m ρ c (Proc.devRef .tc main_v1) :=
  W2_of_ne m ρ c main_v1 (by decide)
theorem W2_v3 (c : Dev nD) : W2 m ρ c (Proc.devRef .tc main_v3) = W1 m ρ c (Proc.devRef .tc main_v3) :=
  W2_of_ne m ρ c main_v3 (by decide)
theorem W2_arg2 (c : Dev nD) : W2 m ρ c (Proc.devRef .tc main_arg2) = m ((c : Thread nD τ).loc main_arg2) :=
  (W2_of_ne m ρ c main_arg2 (by decide)).trans (W1_arg2 m ρ c)
theorem W2_arg5 (c : Dev nD) : W2 m ρ c (Proc.devRef .tc main_arg5) = m ((c : Thread nD τ).loc main_arg5) :=
  (W2_of_ne m ρ c main_arg5 (by decide)).trans (W1_arg5 m ρ c)

/-! ## After the host operations of layer 1 -/

set_option maxHeartbeats 4000000 in
/-- The aggregated array of layer 1, entry by entry. -/
theorem W3_v18 (c : Dev nD) (i : Fin 50000) (j : Fin 256) :
    (W3 m ρ c (Proc.devRef .tc main_v18) : S50000x256.Idx → EReal) (ix2 i j)
      = agg (srcRow (m ((c : Thread nD τ).loc main_arg1))) (dstRow (m ((c : Thread nD τ).loc main_arg1)))
          (fun e => (m ((c : Thread nD τ).loc main_arg2) : S200000.Idx → EReal) (ix1 e))
          (fun a q => (W2 m ρ c (Proc.devRef .tc main_v4_0) : S50000x256.Idx → EReal) (ix2 a q)) i j := by
  have h : W3 m ρ c (Proc.devRef .tc main_v18)
      = Host.scatterAdd scatter_S50000x256_S200000x1_S200000x256_1_0_0_1
          (broadcastInDim S50000x256 ![] bcast_S_S50000x256 (constant (F := Ideal) S_ .f32 0x00000000#32))
          (broadcastInDim S200000x1 ![0] bcast_S200000_S200000x1_0 (W2 m ρ c (Proc.devRef .tc main_v3)))
          (mulf
            (extf .f32
              (Host.gather gather_S50000x256_S200000x1_S200000x256_1_0_n_n_0_1_1256 (W2 m ρ c (Proc.devRef .tc main_v4_0))
                (broadcastInDim S200000x1 ![0] bcast_S200000_S200000x1_0
                  (select
                    (cmpi .slt (W2 m ρ c (Proc.devRef .tc main_v1))
                      (broadcastInDim S200000 ![] bcast_S_S200000 (constantI S_ 32 0#32)))
                    (addi (W2 m ρ c (Proc.devRef .tc main_v1))
                      (broadcastInDim S200000 ![] bcast_S_S200000 (constantI S_ 32 50000#32)))
                    (W2 m ρ c (Proc.devRef .tc main_v1)))))
              bitsLt_bf16_f32)
            (broadcastInDim S200000x256 ![0, 1] bcast_S200000x1_S200000x256_0_1
              (broadcastInDim S200000x1 ![0] bcast_S200000_S200000x1_0 (W2 m ρ c (Proc.devRef .tc main_arg2))))) := by
    show StableHlo.after hostOps1 (W2 m ρ c) (Proc.devRef .tc main_v18) = _
    after_results
  rw [h, W2_arg2]
  refine hostAgg_apply bitsLt_bf16_f32 gather_S50000x256_S200000x1_S200000x256_1_0_n_n_0_1_1256 rfl rfl rfl rfl rfl rfl rfl
    scatter_S50000x256_S200000x1_S200000x256_1_0_0_1 rfl rfl rfl rfl bcast_S_S50000x256 bcast_S200000_S200000x1_0
    bcast_S200000x1_S200000x256_0_1 (m ((c : Thread nD τ).loc main_arg1)) _ _ _ ?_ ?_ _ i j
  · intro e
    exact srcColumn_apply _ _ (fun e => by rw [W2_v1]; exact W1_v1 m ρ c e) bcast_S_S200000 bcast_S200000_S200000x1_0 e
  · intro e
    exact dstColumn_apply _ _ (fun e => by rw [W2_v3]; exact W1_v3 m ρ c e) bcast_S200000_S200000x1_0 e

/-- The bias of layer 1 as one row. -/
theorem W3_v19 (c : Dev nD) (j : Fin 256) :
    (W3 m ρ c (Proc.devRef .tc main_v19) : S1x256.Idx → EReal) (ix2 (0 : Fin 1) j)
      = (m ((c : Thread nD τ).loc main_arg5) : S256.Idx → EReal) (ix1 j) := by
  have h : W3 m ρ c (Proc.devRef .tc main_v19)
      = shapeCast S1x256 (W2 m ρ c (Proc.devRef .tc main_arg5)) shapeCasts_S256_S1x256 := by
    show StableHlo.after hostOps1 (W2 m ρ c) (Proc.devRef .tc main_v19) = _
    after_results
    rfl
  rw [h, W2_arg5]
  exact shapeCast_a_1a_apply _ _ 0 j

theorem W3_v4_1 (c : Dev nD) : W3 m ρ c (Proc.devRef .tc main_v4_1) = W2 m ρ c (Proc.devRef .tc main_v4_1) := by
  host_keeps hostOps1

/-! ## After the second region: the first activations -/

/-- The rows each edge reads and writes, and the edge weights, of the launch memory. -/
abbrev gOf (c : Dev nD) : Fin 200000 → Fin 50000 := srcRow (m ((c : Thread nD τ).loc main_arg1))
abbrev lOf (c : Dev nD) : Fin 200000 → Option (Fin 50000) := dstRow (m ((c : Thread nD τ).loc main_arg1))
abbrev wOf (c : Dev nD) : Fin 200000 → EReal := fun e => (m ((c : Thread nD τ).loc main_arg2) : S200000.Idx → EReal) (ix1 e)

/-- The first activations of the launch memory: the specification's rectified project-first layer. -/
def act1 (c : Dev nD) : Fin 50000 → Fin 256 → EReal :=
  relu (layerProjFirst (gOf m c) (lOf m c) (wOf m c)
    (fun a q => (m ((c : Thread nD τ).loc main_arg0) : S50000x1152.Idx → EReal) (ix2 a q))
    (fun j q => (m ((c : Thread nD τ).loc main_arg4) : S256x1152.Idx → EReal) (ix2 j q))
    (fun j q => (m ((c : Thread nD τ).loc main_arg6) : S256x1152.Idx → EReal) (ix2 j q))
    (fun j => (m ((c : Thread nD τ).loc main_arg5) : S256.Idx → EReal) (ix1 j)))

/-- The first activations, entry by entry, are what the second region leaves. -/
theorem W4_v20 (c : Dev nD) (i : Fin 50000) (j : Fin 256) :
    (W4 m ρ c (Proc.devRef .tc main_v20) : S50000x256.Idx → EReal) (ix2 i j) = act1 m c i j := by
  unfold act1
  have h : W4 m ρ c (Proc.devRef .tc main_v20)
      = combArr (n := 50000) (o := 256) (W3 m ρ c (Proc.devRef .tc main_v18)) (W3 m ρ c (Proc.devRef .tc main_v4_1))
          (W3 m ρ c (Proc.devRef .tc main_v19)) :=
    (W4_arr m ρ c 3).trans (final1_3 (V3 m ρ) c)
  rw [h]
  exact layer_step _ _ _ (m ((c : Thread nD τ).loc main_arg0)) (m ((c : Thread nD τ).loc main_arg4))
    (m ((c : Thread nD τ).loc main_arg6)) (W2 m ρ c (Proc.devRef .tc main_v4_0)) _ _ _
    (m ((c : Thread nD τ).loc main_arg5)) _ (fun _ _ => rfl) (W2_v4_0 m ρ c)
    ((W3_v4_1 m ρ c).trans (W2_v4_1 m ρ c)) (W3_v18 m ρ c) (W3_v19 m ρ c) i j

end Cert.KernelIdeal.KValue

end
-- ==== Proof.KRegion2.lean ====
/-
  The second projection region (layer 2), read as whole arrays.

  As in layer 1, with 256 input features and 128 output features: point `t` of the 50 stages rows
  `1000 t … 1000 t + 999` of the layer-1 activations and both weight matrices whole, and writes back the same rows of
  the two products; the row blocks tile the 50000 rows.
-/
import proofs.«107408_j73280732004501_2_alg».proof.Proof.KRegion0

set_option maxRecDepth 16384

noncomputable section

open scoped BigOperators

namespace Cert.KernelIdeal.KValue

open Cert.KernelIdeal Cert.KernelIdeal.Gen Cert.GraphNet Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The printed index maps of the region's five windows, decided over the grid. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The activation block at point `t` is rows `1000 t …` of the activation array. -/
theorem iblk2_0_apply (c : Dev nD) (t : Fin cfg2.N) (x : S1000x256.Idx) (k : S50000x256.Idx)
    (hk0 : (k 0).val = 1000 * t.val + (x 0).val) (hk1 : (k 1).val = (x 1).val) :
    (iblk2 V c 0 t : Vec Ideal S1000x256 .f32) x = (V c main_v20 : S50000x256.Idx → Elt Ideal .f32) k := by
  obtain ⟨e0, e1, -⟩ := idx2 t
  unfold iblk2
  rw [View.read_apply]
  show V c main_v20 _ = V c main_v20 _
  congr 1
  funext a
  apply Fin.ext
  match a with
  | ⟨0, _⟩ => show win2_0.index t 0 * 1000 + 1 * (x 0).val = (k 0).val; rw [e0, hk0]; omega
  | ⟨1, _⟩ => show win2_0.index t 1 * 256 + 1 * (x 1).val = (k 1).val; rw [e1, hk1]; omega

/-- The aggregation-weight block at any point is the whole weight array. -/
theorem iblk2_1_apply (c : Dev nD) (t : Fin cfg2.N) (x : S128x256.Idx) :
    (iblk2 V c 1 t : Vec Ideal S128x256 .f32) x = (V c main_arg7 : S128x256.Idx → Elt Ideal .f32) x := by
  obtain ⟨-, -, e0, e1, -⟩ := idx2 t
  unfold iblk2
  rw [View.read_apply]
  show V c main_arg7 _ = V c main_arg7 _
  congr 1
  funext a
  apply Fin.ext
  match a with
  | ⟨0, _⟩ => show win2_1.index t 0 * 128 + 1 * (x 0).val = (x 0).val; rw [e0]; omega
  | ⟨1, _⟩ => show win2_1.index t 1 * 256 + 1 * (x 1).val = (x 1).val; rw [e1]; omega

/-- The root-weight block at any point is the whole weight array. -/
theorem iblk2_2_apply (c : Dev nD) (t : Fin cfg2.N) (x : S128x256.Idx) :
    (iblk2 V c 2 t : Vec Ideal S128x256 .f32) x = (V c main_arg9 : S128x256.Idx → Elt Ideal .f32) x := by
  obtain ⟨-, -, -, -, e0, e1, -⟩ := idx2 t
  unfold iblk2
  rw [View.read_apply]
  show V c main_arg9 _ = V c main_arg9 _
  congr 1
  funext a
  apply Fin.ext
  match a with
  | ⟨0, _⟩ => show win2_2.index t 0 * 128 + 1 * (x 0).val = (x 0).val; rw [e0]; omega
  | ⟨1, _⟩ => show win2_2.index t 1 * 256 + 1 * (x 1).val = (x 1).val; rw [e1]; omega

/-- What point `t` writes back of the narrow copy is block `t` of the whole product. -/
theorem flushed2_3 (c : Dev nD) (t : Fin cfg2.N) :
    (dat2 V c).flushed 3 t = ((cfg2.win 3).blk t).view.read (Elt Ideal)
      (projArr (n := 50000) (k := 256) (o := 128) (V c main_v20) (V c main_arg7)) := by
  show (cfg2.win 3).cut (grid2.coords t) ((dat2 V c).after 3 t) = _
  rw [after2_3]
  unfold out2_3
  rw [View.canon_unit_zero hz]
  simp only [View.ld_unit_zero (S := S1000x256) hz, View.ld_unit_zero (S := S128x256) hz]
  obtain ⟨-, -, -, -, -, -, e0, e1, -⟩ := idx2 t
  funext j
  obtain ⟨r, o, rfl⟩ : ∃ (r : Fin 1000) (o : Fin 128), j = ix2 r o := ⟨j 0, j 1, eq_ix2 j⟩
  refine (pay2_3 _ _ r o).trans ?_
  rw [View.read_apply]
  unfold projArr proj
  refine Finset.sum_congr rfl fun q _ => ?_
  congr 1
  · refine iblk2_0_apply V c t (ix2 r q) _ ?_ rfl
    show win2_3.index t 0 * 1000 + 1 * r.val = 1000 * t.val + r.val
    rw [e0]; omega
  · refine (iblk2_1_apply V c t (ix2 o q)).trans ?_
    congr 1
    funext a
    apply Fin.ext
    match a with
    | ⟨0, _⟩ => show o.val = win2_3.index t 1 * 128 + 1 * o.val; rw [e1]; omega
    | ⟨1, _⟩ => rfl

/-- The same for the root copy. -/
theorem flushed2_4 (c : Dev nD) (t : Fin cfg2.N) :
    (dat2 V c).flushed 4 t = ((cfg2.win 4).blk t).view.read (Elt Ideal)
      (projArr (n := 50000) (k := 256) (o := 128) (V c main_v20) (V c main_arg9)) := by
  show (cfg2.win 4).cut (grid2.coords t) ((dat2 V c).after 4 t) = _
  rw [after2_4]
  unfold out2_4
  rw [View.canon_unit_zero hz]
  simp only [View.ld_unit_zero (S := S1000x256) hz, View.ld_unit_zero (S := S128x256) hz]
  obtain ⟨-, -, -, -, -, -, -, -, e0, e1⟩ := idx2 t
  funext j
  obtain ⟨r, o, rfl⟩ : ∃ (r : Fin 1000) (o : Fin 128), j = ix2 r o := ⟨j 0, j 1, eq_ix2 j⟩
  refine (pay2_2 _ _ r o).trans ?_
  rw [View.read_apply]
  unfold projArr proj
  refine Finset.sum_congr rfl fun q _ => ?_
  congr 1
  · refine iblk2_0_apply V c t (ix2 r q) _ ?_ rfl
    show win2_4.index t 0 * 1000 + 1 * r.val = 1000 * t.val + r.val
    rw [e0]; omega
  · refine (iblk2_2_apply V c t (ix2 o q)).trans ?_
    congr 1
    funext a
    apply Fin.ext
    match a with
    | ⟨0, _⟩ => show o.val = win2_4.index t 1 * 128 + 1 * o.val; rw [e1]; omega
    | ⟨1, _⟩ => rfl

/-- Every index of the narrow output lies in the block of the point its row falls in. -/
theorem covered2_3 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 50 := N_2
  have ht : (i 0).val / 1000 < cfg2.N := by rw [hN]; omega
  obtain ⟨-, -, -, -, -, -, e0, e1, -⟩ := idx2 ⟨(i 0).val / 1000, ht⟩
  refine ⟨⟨(i 0).val / 1000, ht⟩, flush2_3 _, ?_⟩
  show i ∈ ((View.whole main_v21_0).slice (win2_3.rect ⟨(i 0).val / 1000, ht⟩)).set
  rw [View.set_slice_whole, Rect.mem_set_unit]
  intro a
  match a with
  | ⟨0, _⟩ =>
    show win2_3.index _ 0 * 1000 ≤ (i 0).val ∧ (i 0).val < win2_3.index _ 0 * 1000 + 1000
    rw [e0]; show (i 0).val / 1000 * 1000 ≤ (i 0).val ∧ (i 0).val < (i 0).val / 1000 * 1000 + 1000; omega
  | ⟨1, _⟩ =>
    show win2_3.index _ 1 * 128 ≤ (i 1).val ∧ (i 1).val < win2_3.index _ 1 * 128 + 128
    rw [e1]; omega

/-- Every index of the root output lies in the block of the point its row falls in. -/
theorem covered2_4 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 50 := N_2
  have ht : (i 0).val / 1000 < cfg2.N := by rw [hN]; omega
  obtain ⟨-, -, -, -, -, -, -, -, e0, e1⟩ := idx2 ⟨(i 0).val / 1000, ht⟩
  refine ⟨⟨(i 0).val / 1000, ht⟩, flush2_4 _, ?_⟩
  show i ∈ ((View.whole main_v21_1).slice (win2_4.rect ⟨(i 0).val / 1000, ht⟩)).set
  rw [View.set_slice_whole, Rect.mem_set_unit]
  intro a
  match a with
  | ⟨0, _⟩ =>
    show win2_4.index _ 0 * 1000 ≤ (i 0).val ∧ (i 0).val < win2_4.index _ 0 * 1000 + 1000
    rw [e0]; show (i 0).val / 1000 * 1000 ≤ (i 0).val ∧ (i 0).val < (i 0).val / 1000 * 1000 + 1000; omega
  | ⟨1, _⟩ =>
    show win2_4.index _ 1 * 128 ≤ (i 1).val ∧ (i 1).val < win2_4.index _ 1 * 128 + 128
    rw [e1]; omega

/-- After the region the narrow output array is the whole product with the aggregation weights. -/
theorem final2_3 (c : Dev nD) :
    (dat2 V c).arrAt 3 cfg2.N = projArr (n := 50000) (k := 256) (o := 128) (V c main_v20) (V c main_arg7) :=
  (dat2 V c).arrAt_eq_of_cover 3 _ (fun t _ => flushed2_3 V c t) covered2_3

/-- After the region the root output array is the whole product with the root weights. -/
theorem final2_4 (c : Dev nD) :
    (dat2 V c).arrAt 4 cfg2.N = projArr (n := 50000) (k := 256) (o := 128) (V c main_v20) (V c main_arg9) :=
  (dat2 V c).arrAt_eq_of_cover 4 _ (fun t _ => flushed2_4 V c t) covered2_4

end Cert.KernelIdeal.KValue

end
-- ==== Proof.KRegion3.lean ====
/-
  The second combining region (layer 2), read as a whole array.

  As in layer 1 with 128 columns: point `t` of the 50 stages rows `1000 t … 1000 t + 999` of the aggregated array
  and of the root product, and the one-row bias whole, and writes back the same rows of
  `max ((aggregated + root) + bias, 0)`. The row blocks tile the 50000 rows.
-/
import proofs.«107408_j73280732004501_2_alg».proof.Proof.KRegion1

set_option maxRecDepth 16384

noncomputable section

open scoped BigOperators

namespace Cert.KernelIdeal.KValue

open Cert.KernelIdeal Cert.KernelIdeal.Gen Cert.GraphNet Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The printed index maps of the region's four windows, decided over the grid. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The aggregated block at point `t` is rows `1000 t …` of the aggregated array. -/
theorem iblk3_0_apply (c : Dev nD) (t : Fin cfg3.N) (x : S1000x128.Idx) (k : S50000x128.Idx)
    (hk0 : (k 0).val = 1000 * t.val + (x 0).val) (hk1 : (k 1).val = (x 1).val) :
    (iblk3 V c 0 t : Vec Ideal S1000x128 .f32) x = (V c main_v35 : S50000x128.Idx → Elt Ideal .f32) k := by
  obtain ⟨e0, e1, -⟩ := idx3 t
  unfold iblk3
  rw [View.read_apply]
  show V c main_v35 _ = V c main_v35 _
  congr 1
  funext a
  apply Fin.ext
  match a with
  | ⟨0, _⟩ => show win3_0.index t 0 * 1000 + 1 * (x 0).val = (k 0).val; rw [e0, hk0]; omega
  | ⟨1, _⟩ => show win3_0.index t 1 * 128 + 1 * (x 1).val = (k 1).val; rw [e1, hk1]; omega

/-- The root block at point `t` is rows `1000 t …` of the root product. -/
theorem iblk3_1_apply (c : Dev nD) (t : Fin cfg3.N) (x : S1000x128.Idx) (k : S50000x128.Idx)
    (hk0 : (k 0).val = 1000 * t.val + (x 0).val) (hk1 : (k 1).val = (x 1).val) :
    (iblk3 V c 1 t : Vec Ideal S1000x128 .f32) x = (V c main_v21_1 : S50000x128.Idx → Elt Ideal .f32) k := by
  obtain ⟨-, -, e0, e1, -⟩ := idx3 t
  unfold iblk3
  rw [View.read_apply]
  show V c main_v21_1 _ = V c main_v21_1 _
  congr 1
  funext a
  apply Fin.ext
  match a with
  | ⟨0, _⟩ => show win3_1.index t 0 * 1000 + 1 * (x 0).val = (k 0).val; rw [e0, hk0]; omega
  | ⟨1, _⟩ => show win3_1.index t 1 * 128 + 1 * (x 1).val = (k 1).val; rw [e1, hk1]; omega

/-- The bias block at any point is the whole one-row bias. -/
theorem iblk3_2_apply (c : Dev nD) (t : Fin cfg3.N) (x : S1x128.Idx) :
    (iblk3 V c 2 t : Vec Ideal S1x128 .f32) x = (V c main_v36 : S1x128.Idx → Elt Ideal .f32) x := by
  obtain ⟨-, -, -, -, e0, e1, -⟩ := idx3 t
  unfold iblk3
  rw [View.read_apply]
  show V c main_v36 _ = V c main_v36 _
  congr 1
  funext a
  apply Fin.ext
  match a with
  | ⟨0, _⟩ => show win3_2.index t 0 * 1 + 1 * (x 0).val = (x 0).val; rw [e0]; omega
  | ⟨1, _⟩ => show win3_2.index t 1 * 128 + 1 * (x 1).val = (x 1).val; rw [e1]; omega

/-- What point `t` writes back is block `t` of the whole combination. -/
theorem flushed3_3 (c : Dev nD) (t : Fin cfg3.N) :
    (dat3 V c).flushed 3 t = ((cfg3.win 3).blk t).view.read (Elt Ideal)
      (combArr (n := 50000) (o := 128) (V c main_v35) (V c main_v21_1) (V c main_v36)) := by
  show (cfg3.win 3).cut (grid3.coords t) ((dat3 V c).after 3 t) = _
  rw [after3_3]
  unfold out3_3
  rw [View.canon_unit_zero hz]
  simp only [View.ld_unit_zero (S := S1000x128) hz, View.ld_unit_zero (S := S1x128) hz]
  obtain ⟨-, -, -, -, -, -, e0, e1⟩ := idx3 t
  funext j
  obtain ⟨r, o, rfl⟩ : ∃ (r : Fin 1000) (o : Fin 128), j = ix2 r o := ⟨j 0, j 1, eq_ix2 j⟩
  refine (pay3_1 _ _ _ r o).trans ?_
  rw [View.read_apply]
  unfold combArr
  have h0 : ((((cfg3.win 3).blk t).view.emb (ix2 r o)) 0).val = 1000 * t.val + r.val := by
    show win3_3.index t 0 * 1000 + 1 * r.val = 1000 * t.val + r.val
    rw [e0]; omega
  have h1 : ((((cfg3.win 3).blk t).view.emb (ix2 r o)) 1).val = o.val := by
    show win3_3.index t 1 * 128 + 1 * o.val = o.val
    rw [e1]; omega
  rw [iblk3_0_apply V c t (ix2 r o) _ h0 h1, iblk3_1_apply V c t (ix2 r o) _ h0 h1, iblk3_2_apply V c t (ix2 (0 : Fin 1) o)]
  congr 3
  exact congrArg (ix2 (0 : Fin 1)) (Fin.ext h1).symm

/-- Every index of the output lies in the block of the point its row falls in. -/
theorem covered3_3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 50 := N_3
  have ht : (i 0).val / 1000 < cfg3.N := by rw [hN]; omega
  obtain ⟨-, -, -, -, -, -, e0, e1⟩ := idx3 ⟨(i 0).val / 1000, ht⟩
  refine ⟨⟨(i 0).val / 1000, ht⟩, flush3_3 _, ?_⟩
  show i ∈ ((View.whole main_v37).slice (win3_3.rect ⟨(i 0).val / 1000, ht⟩)).set
  rw [View.set_slice_whole, Rect.mem_set_unit]
  intro a
  match a with
  | ⟨0, _⟩ =>
    show win3_3.index _ 0 * 1000 ≤ (i 0).val ∧ (i 0).val < win3_3.index _ 0 * 1000 + 1000
    rw [e0]; show (i 0).val / 1000 * 1000 ≤ (i 0).val ∧ (i 0).val < (i 0).val / 1000 * 1000 + 1000; omega
  | ⟨1, _⟩ =>
    show win3_3.index _ 1 * 128 ≤ (i 1).val ∧ (i 1).val < win3_3.index _ 1 * 128 + 128
    rw [e1]; omega

/-- After the region the output array is the whole combination. -/
theorem final3_3 (c : Dev nD) :
    (dat3 V c).arrAt 3 cfg3.N = combArr (n := 50000) (o := 128) (V c main_v35) (V c main_v21_1) (V c main_v36) :=
  (dat3 V c).arrAt_eq_of_cover 3 _ (fun t _ => flushed3_3 V c t) covered3_3

end Cert.KernelIdeal.KValue

end
-- ==== Proof.KLayer2.lean ====
/-
  Layer 2 of the kernel program, from the first activations to the second.

  The third region finds the first activations in the buffer the second region wrote and the layer's two weight
  matrices as launched (no operation in between writes them), and leaves the two projections; the host operations that
  follow leave the specification's `agg` of the narrow projection and the bias as one row; the fourth region leaves
  `max ((aggregated + root projection) + bias, 0)`: the specification's rectified project-first layer of the first
  activations.
-/
import proofs.«107408_j73280732004501_2_alg».proof.Proof.KLayer1
import proofs.«107408_j73280732004501_2_alg».proof.Proof.KRegion2
import proofs.«107408_j73280732004501_2_alg».proof.Proof.KRegion3

set_option maxRecDepth 16384

noncomputable section

open scoped BigOperators

namespace Cert.KernelIdeal.KValue

open Cert.KernelIdeal Cert.KernelIdeal.Gen Cert.GraphNet Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! ## Buffers carried unchanged across boundaries -/

/-- A buffer the first stretch of host operations does not write holds its launch contents at the first boundary. -/
theorem W1_of_kept (c : Dev nD) (b : Ref sig .tc)
    (hh0 : ∀ W : Valuation τ sig (Elt Ideal), StableHlo.after hostOps0 W (Proc.devRef .tc b) = W (Proc.devRef .tc b)) :
    W1 m ρ c (Proc.devRef .tc b) = m ((c : Thread nD τ).loc b) :=
  (hh0 _).trans rfl

/-- A buffer that is no array of the first two regions and that the second stretch does not write is carried from the
    first boundary to the fourth. -/
theorem W4_eq_W1 (c : Dev nD) (b : Ref sig .tc) (h0 : ∀ w, Pipeline.arrRef spec0 w ≠ b) (h1 : ∀ w, Pipeline.arrRef spec1 w ≠ b)
    (hh1 : ∀ W : Valuation τ sig (Elt Ideal), StableHlo.after hostOps1 W (Proc.devRef .tc b) = W (Proc.devRef .tc b)) :
    W4 m ρ c (Proc.devRef .tc b) = W1 m ρ c (Proc.devRef .tc b) :=
  (W4_of_ne m ρ c b h1).trans ((hh1 _).trans (W2_of_ne m ρ c b h0))

/-- … and on to the fifth when it is no array of the third region. -/
theorem W5_eq_W1 (c : Dev nD) (b : Ref sig .tc) (h0 : ∀ w, Pipeline.arrRef spec0 w ≠ b) (h1 : ∀ w, Pipeline.arrRef spec1 w ≠ b)
    (h2 : ∀ w, Pipeline.arrRef spec2 w ≠ b)
    (hh1 : ∀ W : Valuation τ sig (Elt Ideal), StableHlo.after hostOps1 W (Proc.devRef .tc b) = W (Proc.devRef .tc b)) :
    W5 m ρ c (Proc.devRef .tc b) = W1 m ρ c (Proc.devRef .tc b) :=
  (W5_of_ne m ρ c b h2).trans (W4_eq_W1 m ρ c b h0 h1 hh1)

theorem W4_arg7 (c : Dev nD) : W4 m ρ c (Proc.devRef .tc main_arg7) = m ((c : Thread nD τ).loc main_arg7) :=
  (W4_eq_W1 m ρ c main_arg7 (by decide) (by decide) (fun W => by host_keeps hostOps1)).trans
    (W1_of_kept m ρ c main_arg7 (fun W => by host_keeps hostOps0))
theorem W4_arg9 (c : Dev nD) : W4 m ρ c (Proc.devRef .tc main_arg9) = m ((c : Thread nD τ).loc main_arg9) :=
  (W4_eq_W1 m ρ c main_arg9 (by decide) (by decide) (fun W => by host_keeps hostOps1)).trans
    (W1_of_kept m ρ c main_arg9 (fun W => by host_keeps hostOps0))
theorem W5_arg2 (c : Dev nD) : W5 m ρ c (Proc.devRef .tc main_arg2) = m ((c : Thread nD τ).loc main_arg2) :=
  (W5_eq_W1 m ρ c main_arg2 (by decide) (by decide) (by decide) (fun W => by host_keeps hostOps1)).trans (W1_arg2 m ρ c)
theorem W5_arg8 (c : Dev nD) : W5 m ρ c (Proc.devRef .tc main_arg8) = m ((c : Thread nD τ).loc main_arg8) :=
  (W5_eq_W1 m ρ c main_arg8 (by decide) (by decide) (by decide) (fun W => by host_keeps hostOps1)).trans
    (W1_of_kept m ρ c main_arg8 (fun W => by host_keeps hostOps0))
theorem W5_v1 (c : Dev nD) : W5 m ρ c (Proc.devRef .tc main_v1) = W1 m ρ c (Proc.devRef .tc main_v1) :=
  W5_eq_W1 m ρ c main_v1 (by decide) (by decide) (by decide) (fun W => by host_keeps hostOps1)
theorem W5_v3 (c : Dev nD) : W5 m ρ c (Proc.devRef .tc main_v3) = W1 m ρ c (Proc.devRef .tc main_v3) :=
  W5_eq_W1 m ρ c main_v3 (by decide) (by decide) (by decide) (fun W => by host_keeps hostOps1)

/-! ## After the third region -/

/-- The narrow projection of layer 2. -/
theorem W5_v21_0 (c : Dev nD) : W5 m ρ c (Proc.devRef .tc main_v21_0)
    = projArr (n := 50000) (k := 256) (o := 128) (W4 m ρ c (Proc.devRef .tc main_v20)) (m ((c : Thread nD τ).loc main_arg7)) := by
  refine (W5_arr m ρ c 3).trans ((final2_3 (V4 m ρ) c).trans ?_)
  show projArr (W4 m ρ c (Proc.devRef .tc main_v20)) (W4 m ρ c (Proc.devRef .tc main_arg7)) = _
  rw [W4_arg7]

/-- The root projection of layer 2. -/
theorem W5_v21_1 (c : Dev nD) : W5 m ρ c (Proc.devRef .tc main_v21_1)
    = projArr (n := 50000) (k := 256) (o := 128) (W4 m ρ c (Proc.devRef .tc main_v20)) (m ((c : Thread nD τ).loc main_arg9)) := by
  refine (W5_arr m ρ c 4).trans ((final2_4 (V4 m ρ) c).trans ?_)
  show projArr (W4 m ρ c (Proc.devRef .tc main_v20)) (W4 m ρ c (Proc.devRef .tc main_arg9)) = _
  rw [W4_arg9]

/-! ## After the host operations of layer 2 -/

set_option maxHeartbeats 4000000 in
/-- The aggregated array of layer 2, entry by entry. -/
theorem W6_v35 (c : Dev nD) (i : Fin 50000) (j : Fin 128) :
    (W6 m ρ c (Proc.devRef .tc main_v35) : S50000x128.Idx → EReal) (ix2 i j)
      = agg (gOf m c) (lOf m c) (wOf m c)
          (fun a q => (W5 m ρ c (Proc.devRef .tc main_v21_0) : S50000x128.Idx → EReal) (ix2 a q)) i j := by
  have h : W6 m ρ c (Proc.devRef .tc main_v35)
      = Host.scatterAdd scatter_S50000x128_S200000x1_S200000x128_1_0_0_1
          (broadcastInDim S50000x128 ![] bcast_S_S50000x128 (constant (F := Ideal) S_ .f32 0x00000000#32))
          (broadcastInDim S200000x1 ![0] bcast_S200000_S200000x1_0 (W5 m ρ c (Proc.devRef .tc main_v3)))
          (mulf
            (extf .f32
              (Host.gather gather_S50000x128_S200000x1_S200000x128_1_0_n_n_0_1_1128 (W5 m ρ c (Proc.devRef .tc main_v21_0))
                (broadcastInDim S200000x1 ![0] bcast_S200000_S200000x1_0
                  (select
                    (cmpi .slt (W5 m ρ c (Proc.devRef .tc main_v1))
                      (broadcastInDim S200000 ![] bcast_S_S200000 (constantI S_ 32 0#32)))
                    (addi (W5 m ρ c (Proc.devRef .tc main_v1))
                      (broadcastInDim S200000 ![] bcast_S_S200000 (constantI S_ 32 50000#32)))
                    (W5 m ρ c (Proc.devRef .tc main_v1)))))
              bitsLt_bf16_f32)
            (broadcastInDim S200000x128 ![0, 1] bcast_S200000x1_S200000x128_0_1
              (broadcastInDim S200000x1 ![0] bcast_S200000_S200000x1_0 (W5 m ρ c (Proc.devRef .tc main_arg2))))) := by
    show StableHlo.after hostOps3 (W5 m ρ c) (Proc.devRef .tc main_v35) = _
    after_results
  rw [h, W5_arg2]
  refine hostAgg_apply bitsLt_bf16_f32 gather_S50000x128_S200000x1_S200000x128_1_0_n_n_0_1_1128 rfl rfl rfl rfl rfl rfl rfl
    scatter_S50000x128_S200000x1_S200000x128_1_0_0_1 rfl rfl rfl rfl bcast_S_S50000x128 bcast_S200000_S200000x1_0
    bcast_S200000x1_S200000x128_0_1 (m ((c : Thread nD τ).loc main_arg1)) _ _ _ ?_ ?_ _ i j
  · intro e
    exact srcColumn_apply _ _ (fun e => by rw [W5_v1]; exact W1_v1 m ρ c e) bcast_S_S200000 bcast_S200000_S200000x1_0 e
  · intro e
    exact dstColumn_apply _ _ (fun e => by rw [W5_v3]; exact W1_v3 m ρ c e) bcast_S200000_S200000x1_0 e

/-- The bias of layer 2 as one row. -/
theorem W6_v36 (c : Dev nD) (j : Fin 128) :
    (W6 m ρ c (Proc.devRef .tc main_v36) : S1x128.Idx → EReal) (ix2 (0 : Fin 1) j)
      = (m ((c : Thread nD τ).loc main_arg8) : S128.Idx → EReal) (ix1 j) := by
  have h : W6 m ρ c (Proc.devRef .tc main_v36)
      = shapeCast S1x128 (W5 m ρ c (Proc.devRef .tc main_arg8)) shapeCasts_S128_S1x128 := by
    show StableHlo.after hostOps3 (W5 m ρ c) (Proc.devRef .tc main_v36) = _
    after_results
    rfl
  rw [h, W5_arg8]
  exact shapeCast_a_1a_apply _ _ 0 j

theorem W6_v21_1 (c : Dev nD) : W6 m ρ c (Proc.devRef .tc main_v21_1) = W5 m ρ c (Proc.devRef .tc main_v21_1) := by
  host_keeps hostOps3

/-! ## After the fourth region: the second activations -/

/-- The second activations of the launch memory. -/
def act2 (c : Dev nD) : Fin 50000 → Fin 128 → EReal :=
  relu (layerProjFirst (gOf m c) (lOf m c) (wOf m c) (act1 m c)
    (fun j q => (m ((c : Thread nD τ).loc main_arg7) : S128x256.Idx → EReal) (ix2 j q))
    (fun j q => (m ((c : Thread nD τ).loc main_arg9) : S128x256.Idx → EReal) (ix2 j q))
    (fun j => (m ((c : Thread nD τ).loc main_arg8) : S128.Idx → EReal) (ix1 j)))

/-- The second activations, entry by entry, are what the fourth region leaves. -/
theorem W7_v37 (c : Dev nD) (i : Fin 50000) (j : Fin 128) :
    (W7 m ρ c (Proc.devRef .tc main_v37) : S50000x128.Idx → EReal) (ix2 i j) = act2 m c i j := by
  unfold act2
  have h : W7 m ρ c (Proc.devRef .tc main_v37)
      = combArr (n := 50000) (o := 128) (W6 m ρ c (Proc.devRef .tc main_v35)) (W6 m ρ c (Proc.devRef .tc main_v21_1))
          (W6 m ρ c (Proc.devRef .tc main_v36)) :=
    (W7_arr m ρ c 3).trans (final3_3 (V6 m ρ) c)
  rw [h]
  exact layer_step _ _ _ (W4 m ρ c (Proc.devRef .tc main_v20)) (m ((c : Thread nD τ).loc main_arg7))
    (m ((c : Thread nD τ).loc main_arg9)) (W5 m ρ c (Proc.devRef .tc main_v21_0)) _ _ _
    (m ((c : Thread nD τ).loc main_arg8)) _ (W4_v20 m ρ c) (W5_v21_0 m ρ c)
    ((W6_v21_1 m ρ c).trans (W5_v21_1 m ρ c)) (W6_v35 m ρ c) (W6_v36 m ρ c) i j

end Cert.KernelIdeal.KValue

end
-- ==== Proof.KRegion4.lean ====
/-
  The third projection region (layer 3), read as whole arrays.

  As in the first two layers, with 128 input features and 2 output features: point `t` of the 50 stages rows
  `1000 t … 1000 t + 999` of the layer-2 activations and both weight matrices whole, and writes back the same rows of
  the two products; the row blocks tile the 50000 rows.
-/
import proofs.«107408_j73280732004501_2_alg».proof.Proof.KRegion0

set_option maxRecDepth 16384

noncomputable section

open scoped BigOperators

namespace Cert.KernelIdeal.KValue

open Cert.KernelIdeal Cert.KernelIdeal.Gen Cert.GraphNet Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The printed index maps of the region's five windows, decided over the grid. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- The activation block at point `t` is rows `1000 t …` of the activation array. -/
theorem iblk4_0_apply (c : Dev nD) (t : Fin cfg4.N) (x : S1000x128.Idx) (k : S50000x128.Idx)
    (hk0 : (k 0).val = 1000 * t.val + (x 0).val) (hk1 : (k 1).val = (x 1).val) :
    (iblk4 V c 0 t : Vec Ideal S1000x128 .f32) x = (V c main_v37 : S50000x128.Idx → Elt Ideal .f32) k := by
  obtain ⟨e0, e1, -⟩ := idx4 t
  unfold iblk4
  rw [View.read_apply]
  show V c main_v37 _ = V c main_v37 _
  congr 1
  funext a
  apply Fin.ext
  match a with
  | ⟨0, _⟩ => show win4_0.index t 0 * 1000 + 1 * (x 0).val = (k 0).val; rw [e0, hk0]; omega
  | ⟨1, _⟩ => show win4_0.index t 1 * 128 + 1 * (x 1).val = (k 1).val; rw [e1, hk1]; omega

/-- The aggregation-weight block at any point is the whole weight array. -/
theorem iblk4_1_apply (c : Dev nD) (t : Fin cfg4.N) (x : S2x128.Idx) :
    (iblk4 V c 1 t : Vec Ideal S2x128 .f32) x = (V c main_arg10 : S2x128.Idx → Elt Ideal .f32) x := by
  obtain ⟨-, -, e0, e1, -⟩ := idx4 t
  unfold iblk4
  rw [View.read_apply]
  show V c main_arg10 _ = V c main_arg10 _
  congr 1
  funext a
  apply Fin.ext
  match a with
  | ⟨0, _⟩ => show win4_1.index t 0 * 2 + 1 * (x 0).val = (x 0).val; rw [e0]; omega
  | ⟨1, _⟩ => show win4_1.index t 1 * 128 + 1 * (x 1).val = (x 1).val; rw [e1]; omega

/-- The root-weight block at any point is the whole weight array. -/
theorem iblk4_2_apply (c : Dev nD) (t : Fin cfg4.N) (x : S2x128.Idx) :
    (iblk4 V c 2 t : Vec Ideal S2x128 .f32) x = (V c main_arg12 : S2x128.Idx → Elt Ideal .f32) x := by
  obtain ⟨-, -, -, -, e0, e1, -⟩ := idx4 t
  unfold iblk4
  rw [View.read_apply]
  show V c main_arg12 _ = V c main_arg12 _
  congr 1
  funext a
  apply Fin.ext
  match a with
  | ⟨0, _⟩ => show win4_2.index t 0 * 2 + 1 * (x 0).val = (x 0).val; rw [e0]; omega
  | ⟨1, _⟩ => show win4_2.index t 1 * 128 + 1 * (x 1).val = (x 1).val; rw [e1]; omega

/-- What point `t` writes back of the narrow copy is block `t` of the whole product. -/
theorem flushed4_3 (c : Dev nD) (t : Fin cfg4.N) :
    (dat4 V c).flushed 3 t = ((cfg4.win 3).blk t).view.read (Elt Ideal)
      (projArr (n := 50000) (k := 128) (o := 2) (V c main_v37) (V c main_arg10)) := by
  show (cfg4.win 3).cut (grid4.coords t) ((dat4 V c).after 3 t) = _
  rw [after4_3]
  unfold out4_3
  rw [View.canon_unit_zero hz]
  simp only [View.ld_unit_zero (S := S1000x128) hz, View.ld_unit_zero (S := S2x128) hz]
  obtain ⟨-, -, -, -, -, -, e0, e1, -⟩ := idx4 t
  funext j
  obtain ⟨r, o, rfl⟩ : ∃ (r : Fin 1000) (o : Fin 2), j = ix2 r o := ⟨j 0, j 1, eq_ix2 j⟩
  refine (pay4_3 _ _ r o).trans ?_
  rw [View.read_apply]
  unfold projArr proj
  refine Finset.sum_congr rfl fun q _ => ?_
  congr 1
  · refine iblk4_0_apply V c t (ix2 r q) _ ?_ rfl
    show win4_3.index t 0 * 1000 + 1 * r.val = 1000 * t.val + r.val
    rw [e0]; omega
  · refine (iblk4_1_apply V c t (ix2 o q)).trans ?_
    congr 1
    funext a
    apply Fin.ext
    match a with
    | ⟨0, _⟩ => show o.val = win4_3.index t 1 * 2 + 1 * o.val; rw [e1]; omega
    | ⟨1, _⟩ => rfl

/-- The same for the root copy. -/
theorem flushed4_4 (c : Dev nD) (t : Fin cfg4.N) :
    (dat4 V c).flushed 4 t = ((cfg4.win 4).blk t).view.read (Elt Ideal)
      (projArr (n := 50000) (k := 128) (o := 2) (V c main_v37) (V c main_arg12)) := by
  show (cfg4.win 4).cut (grid4.coords t) ((dat4 V c).after 4 t) = _
  rw [after4_4]
  unfold out4_4
  rw [View.canon_unit_zero hz]
  simp only [View.ld_unit_zero (S := S1000x128) hz, View.ld_unit_zero (S := S2x128) hz]
  obtain ⟨-, -, -, -, -, -, -, -, e0, e1⟩ := idx4 t
  funext j
  obtain ⟨r, o, rfl⟩ : ∃ (r : Fin 1000) (o : Fin 2), j = ix2 r o := ⟨j 0, j 1, eq_ix2 j⟩
  refine (pay4_2 _ _ r o).trans ?_
  rw [View.read_apply]
  unfold projArr proj
  refine Finset.sum_congr rfl fun q _ => ?_
  congr 1
  · refine iblk4_0_apply V c t (ix2 r q) _ ?_ rfl
    show win4_4.index t 0 * 1000 + 1 * r.val = 1000 * t.val + r.val
    rw [e0]; omega
  · refine (iblk4_2_apply V c t (ix2 o q)).trans ?_
    congr 1
    funext a
    apply Fin.ext
    match a with
    | ⟨0, _⟩ => show o.val = win4_4.index t 1 * 2 + 1 * o.val; rw [e1]; omega
    | ⟨1, _⟩ => rfl

/-- Every index of the narrow output lies in the block of the point its row falls in. -/
theorem covered4_3 (i : S50000x2.Idx) :
    ∃ t : Fin cfg4.N, (cfg4.win 3).flush t = true ∧ i ∈ ((cfg4.win 3).blk t).view.set := by
  have hi0 : (i 0).val < 50000 := (i 0).isLt
  have hi1 : (i 1).val < 2 := (i 1).isLt
  have hN : cfg4.N = 50 := N_4
  have ht : (i 0).val / 1000 < cfg4.N := by rw [hN]; omega
  obtain ⟨-, -, -, -, -, -, e0, e1, -⟩ := idx4 ⟨(i 0).val / 1000, ht⟩
  refine ⟨⟨(i 0).val / 1000, ht⟩, flush4_3 _, ?_⟩
  show i ∈ ((View.whole main_v38_0).slice (win4_3.rect ⟨(i 0).val / 1000, ht⟩)).set
  rw [View.set_slice_whole, Rect.mem_set_unit]
  intro a
  match a with
  | ⟨0, _⟩ =>
    show win4_3.index _ 0 * 1000 ≤ (i 0).val ∧ (i 0).val < win4_3.index _ 0 * 1000 + 1000
    rw [e0]; show (i 0).val / 1000 * 1000 ≤ (i 0).val ∧ (i 0).val < (i 0).val / 1000 * 1000 + 1000; omega
  | ⟨1, _⟩ =>
    show win4_3.index _ 1 * 2 ≤ (i 1).val ∧ (i 1).val < win4_3.index _ 1 * 2 + 2
    rw [e1]; omega

/-- Every index of the root output lies in the block of the point its row falls in. -/
theorem covered4_4 (i : S50000x2.Idx) :
    ∃ t : Fin cfg4.N, (cfg4.win 4).flush t = true ∧ i ∈ ((cfg4.win 4).blk t).view.set := by
  have hi0 : (i 0).val < 50000 := (i 0).isLt
  have hi1 : (i 1).val < 2 := (i 1).isLt
  have hN : cfg4.N = 50 := N_4
  have ht : (i 0).val / 1000 < cfg4.N := by rw [hN]; omega
  obtain ⟨-, -, -, -, -, -, -, -, e0, e1⟩ := idx4 ⟨(i 0).val / 1000, ht⟩
  refine ⟨⟨(i 0).val / 1000, ht⟩, flush4_4 _, ?_⟩
  show i ∈ ((View.whole main_v38_1).slice (win4_4.rect ⟨(i 0).val / 1000, ht⟩)).set
  rw [View.set_slice_whole, Rect.mem_set_unit]
  intro a
  match a with
  | ⟨0, _⟩ =>
    show win4_4.index _ 0 * 1000 ≤ (i 0).val ∧ (i 0).val < win4_4.index _ 0 * 1000 + 1000
    rw [e0]; show (i 0).val / 1000 * 1000 ≤ (i 0).val ∧ (i 0).val < (i 0).val / 1000 * 1000 + 1000; omega
  | ⟨1, _⟩ =>
    show win4_4.index _ 1 * 2 ≤ (i 1).val ∧ (i 1).val < win4_4.index _ 1 * 2 + 2
    rw [e1]; omega

/-- After the region the narrow output array is the whole product with the aggregation weights. -/
theorem final4_3 (c : Dev nD) :
    (dat4 V c).arrAt 3 cfg4.N = projArr (n := 50000) (k := 128) (o := 2) (V c main_v37) (V c main_arg10) :=
  (dat4 V c).arrAt_eq_of_cover 3 _ (fun t _ => flushed4_3 V c t) covered4_3

/-- After the region the root output array is the whole product with the root weights. -/
theorem final4_4 (c : Dev nD) :
    (dat4 V c).arrAt 4 cfg4.N = projArr (n := 50000) (k := 128) (o := 2) (V c main_v37) (V c main_arg12) :=
  (dat4 V c).arrAt_eq_of_cover 4 _ (fun t _ => flushed4_4 V c t) covered4_4

end Cert.KernelIdeal.KValue

end
-- ==== Proof.KRegion5.lean ====
/-
  The last combining region (layer 3), read as a whole array.

  As in the first two layers with 2 columns and no maximum: point `t` of the 50 stages rows
  `1000 t … 1000 t + 999` of the aggregated array and of the root product, and the one-row bias whole, and writes
  back the same rows of `(aggregated + root) + bias`. The row blocks tile the 50000 rows.
-/
import proofs.«107408_j73280732004501_2_alg».proof.Proof.KRegion1

set_option maxRecDepth 16384

noncomputable section

open scoped BigOperators

namespace Cert.KernelIdeal.KValue

open Cert.KernelIdeal Cert.KernelIdeal.Gen Cert.GraphNet Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The printed index maps of the region's four windows, decided over the grid. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The aggregated block at point `t` is rows `1000 t …` of the aggregated array. -/
theorem iblk5_0_apply (c : Dev nD) (t : Fin cfg5.N) (x : S1000x2.Idx) (k : S50000x2.Idx)
    (hk0 : (k 0).val = 1000 * t.val + (x 0).val) (hk1 : (k 1).val = (x 1).val) :
    (iblk5 V c 0 t : Vec Ideal S1000x2 .f32) x = (V c main_v52 : S50000x2.Idx → Elt Ideal .f32) k := by
  obtain ⟨e0, e1, -⟩ := idx5 t
  unfold iblk5
  rw [View.read_apply]
  show V c main_v52 _ = V c main_v52 _
  congr 1
  funext a
  apply Fin.ext
  match a with
  | ⟨0, _⟩ => show win5_0.index t 0 * 1000 + 1 * (x 0).val = (k 0).val; rw [e0, hk0]; omega
  | ⟨1, _⟩ => show win5_0.index t 1 * 2 + 1 * (x 1).val = (k 1).val; rw [e1, hk1]; omega

/-- The root block at point `t` is rows `1000 t …` of the root product. -/
theorem iblk5_1_apply (c : Dev nD) (t : Fin cfg5.N) (x : S1000x2.Idx) (k : S50000x2.Idx)
    (hk0 : (k 0).val = 1000 * t.val + (x 0).val) (hk1 : (k 1).val = (x 1).val) :
    (iblk5 V c 1 t : Vec Ideal S1000x2 .f32) x = (V c main_v38_1 : S50000x2.Idx → Elt Ideal .f32) k := by
  obtain ⟨-, -, e0, e1, -⟩ := idx5 t
  unfold iblk5
  rw [View.read_apply]
  show V c main_v38_1 _ = V c main_v38_1 _
  congr 1
  funext a
  apply Fin.ext
  match a with
  | ⟨0, _⟩ => show win5_1.index t 0 * 1000 + 1 * (x 0).val = (k 0).val; rw [e0, hk0]; omega
  | ⟨1, _⟩ => show win5_1.index t 1 * 2 + 1 * (x 1).val = (k 1).val; rw [e1, hk1]; omega

/-- The bias block at any point is the whole one-row bias. -/
theorem iblk5_2_apply (c : Dev nD) (t : Fin cfg5.N) (x : S1x2.Idx) :
    (iblk5 V c 2 t : Vec Ideal S1x2 .f32) x = (V c main_v53 : S1x2.Idx → Elt Ideal .f32) x := by
  obtain ⟨-, -, -, -, e0, e1, -⟩ := idx5 t
  unfold iblk5
  rw [View.read_apply]
  show V c main_v53 _ = V c main_v53 _
  congr 1
  funext a
  apply Fin.ext
  match a with
  | ⟨0, _⟩ => show win5_2.index t 0 * 1 + 1 * (x 0).val = (x 0).val; rw [e0]; omega
  | ⟨1, _⟩ => show win5_2.index t 1 * 2 + 1 * (x 1).val = (x 1).val; rw [e1]; omega

/-- What point `t` writes back is block `t` of the whole combination. -/
theorem flushed5_3 (c : Dev nD) (t : Fin cfg5.N) :
    (dat5 V c).flushed 3 t = ((cfg5.win 3).blk t).view.read (Elt Ideal)
      (combArrLast (n := 50000) (o := 2) (V c main_v52) (V c main_v38_1) (V c main_v53)) := by
  show (cfg5.win 3).cut (grid5.coords t) ((dat5 V c).after 3 t) = _
  rw [after5_3]
  unfold out5_3
  rw [View.canon_unit_zero hz]
  simp only [View.ld_unit_zero (S := S1000x2) hz, View.ld_unit_zero (S := S1x2) hz]
  obtain ⟨-, -, -, -, -, -, e0, e1⟩ := idx5 t
  funext j
  obtain ⟨r, o, rfl⟩ : ∃ (r : Fin 1000) (o : Fin 2), j = ix2 r o := ⟨j 0, j 1, eq_ix2 j⟩
  refine (pay5_1 _ _ _ r o).trans ?_
  rw [View.read_apply]
  unfold combArrLast
  have h0 : ((((cfg5.win 3).blk t).view.emb (ix2 r o)) 0).val = 1000 * t.val + r.val := by
    show win5_3.index t 0 * 1000 + 1 * r.val = 1000 * t.val + r.val
    rw [e0]; omega
  have h1 : ((((cfg5.win 3).blk t).view.emb (ix2 r o)) 1).val = o.val := by
    show win5_3.index t 1 * 2 + 1 * o.val = o.val
    rw [e1]; omega
  rw [iblk5_0_apply V c t (ix2 r o) _ h0 h1, iblk5_1_apply V c t (ix2 r o) _ h0 h1, iblk5_2_apply V c t (ix2 (0 : Fin 1) o)]
  congr 2
  exact congrArg (ix2 (0 : Fin 1)) (Fin.ext h1).symm

/-- Every index of the output lies in the block of the point its row falls in. -/
theorem covered5_3 (i : S50000x2.Idx) :
    ∃ t : Fin cfg5.N, (cfg5.win 3).flush t = true ∧ i ∈ ((cfg5.win 3).blk t).view.set := by
  have hi0 : (i 0).val < 50000 := (i 0).isLt
  have hi1 : (i 1).val < 2 := (i 1).isLt
  have hN : cfg5.N = 50 := N_5
  have ht : (i 0).val / 1000 < cfg5.N := by rw [hN]; omega
  obtain ⟨-, -, -, -, -, -, e0, e1⟩ := idx5 ⟨(i 0).val / 1000, ht⟩
  refine ⟨⟨(i 0).val / 1000, ht⟩, flush5_3 _, ?_⟩
  show i ∈ ((View.whole main_v54).slice (win5_3.rect ⟨(i 0).val / 1000, ht⟩)).set
  rw [View.set_slice_whole, Rect.mem_set_unit]
  intro a
  match a with
  | ⟨0, _⟩ =>
    show win5_3.index _ 0 * 1000 ≤ (i 0).val ∧ (i 0).val < win5_3.index _ 0 * 1000 + 1000
    rw [e0]; show (i 0).val / 1000 * 1000 ≤ (i 0).val ∧ (i 0).val < (i 0).val / 1000 * 1000 + 1000; omega
  | ⟨1, _⟩ =>
    show win5_3.index _ 1 * 2 ≤ (i 1).val ∧ (i 1).val < win5_3.index _ 1 * 2 + 2
    rw [e1]; omega

/-- After the region the output array is the whole combination. -/
theorem final5_3 (c : Dev nD) :
    (dat5 V c).arrAt 3 cfg5.N = combArrLast (n := 50000) (o := 2) (V c main_v52) (V c main_v38_1) (V c main_v53) :=
  (dat5 V c).arrAt_eq_of_cover 3 _ (fun t _ => flushed5_3 V c t) covered5_3

end Cert.KernelIdeal.KValue

end
-- ==== Proof.KLayer3.lean ====
/-
  Layer 3 of the kernel program, from the second activations to the result.

  The fifth region finds the second activations in the buffer the fourth region wrote and the layer's two weight
  matrices as launched, and leaves the two projections; the host operations that follow leave the specification's
  `agg` of the narrow projection and the bias as one row; the sixth region leaves
  `(aggregated + root projection) + bias`: the specification's project-first layer of the second activations, which
  is the whole project-first network of the arguments.
-/
import proofs.«107408_j73280732004501_2_alg».proof.Proof.KLayer2
import proofs.«107408_j73280732004501_2_alg».proof.Proof.KRegion4
import proofs.«107408_j73280732004501_2_alg».proof.Proof.KRegion5

set_option maxRecDepth 16384

noncomputable section

open scoped BigOperators

namespace Cert.KernelIdeal.KValue

open Cert.KernelIdeal Cert.KernelIdeal.Gen Cert.GraphNet Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! ## Buffers carried unchanged across boundaries -/

/-- A buffer that is no array of the first four regions and that the second and third stretches of host operations do
    not write is carried from the first boundary to the seventh. -/
theorem W7_eq_W1 (c : Dev nD) (b : Ref sig .tc) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b)
    (hh1 : ∀ W : Valuation τ sig (Elt Ideal), StableHlo.after hostOps1 W (Proc.devRef .tc b) = W (Proc.devRef .tc b))
    (hh3 : ∀ W : Valuation τ sig (Elt Ideal), StableHlo.after hostOps3 W (Proc.devRef .tc b) = W (Proc.devRef .tc b)) :
    W7 m ρ c (Proc.devRef .tc b) = W1 m ρ c (Proc.devRef .tc b) :=
  (W7_of_ne m ρ c b h3).trans ((hh3 _).trans (W5_eq_W1 m ρ c b h0 h1 h2 hh1))

/-- … and on to the eighth when it is no array of the fifth region. -/
theorem W8_eq_W1 (c : Dev nD) (b : Ref sig .tc) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b) (h4 : ∀ w, Pipeline.arrRef spec4 w ≠ b)
    (hh1 : ∀ W : Valuation τ sig (Elt Ideal), StableHlo.after hostOps1 W (Proc.devRef .tc b) = W (Proc.devRef .tc b))
    (hh3 : ∀ W : Valuation τ sig (Elt Ideal), StableHlo.after hostOps3 W (Proc.devRef .tc b) = W (Proc.devRef .tc b)) :
    W8 m ρ c (Proc.devRef .tc b) = W1 m ρ c (Proc.devRef .tc b) :=
  (W8_of_ne m ρ c b h4).trans (W7_eq_W1 m ρ c b h0 h1 h2 h3 hh1 hh3)

theorem W7_arg10 (c : Dev nD) : W7 m ρ c (Proc.devRef .tc main_arg10) = m ((c : Thread nD τ).loc main_arg10) :=
  (W7_eq_W1 m ρ c main_arg10 (by decide) (by decide) (by decide) (by decide) (fun W => by host_keeps hostOps1)
    (fun W => by host_keeps hostOps3)).trans (W1_of_kept m ρ c main_arg10 (fun W => by host_keeps hostOps0))
theorem W7_arg12 (c : Dev nD) : W7 m ρ c (Proc.devRef .tc main_arg12) = m ((c : Thread nD τ).loc main_arg12) :=
  (W7_eq_W1 m ρ c main_arg12 (by decide) (by decide) (by decide) (by decide) (fun W => by host_keeps hostOps1)
    (fun W => by host_keeps hostOps3)).trans (W1_of_kept m ρ c main_arg12 (fun W => by host_keeps hostOps0))
theorem W8_arg2 (c : Dev nD) : W8 m ρ c (Proc.devRef .tc main_arg2) = m ((c : Thread nD τ).loc main_arg2) :=
  (W8_eq_W1 m ρ c main_arg2 (by decide) (by decide) (by decide) (by decide) (by decide) (fun W => by host_keeps hostOps1)
    (fun W => by host_keeps hostOps3)).trans (W1_arg2 m ρ c)
theorem W8_arg11 (c : Dev nD) : W8 m ρ c (Proc.devRef .tc main_arg11) = m ((c : Thread nD τ).loc main_arg11) :=
  (W8_eq_W1 m ρ c main_arg11 (by decide) (by decide) (by decide) (by decide) (by decide) (fun W => by host_keeps hostOps1)
    (fun W => by host_keeps hostOps3)).trans (W1_of_kept m ρ c main_arg11 (fun W => by host_keeps hostOps0))
theorem W8_v1 (c : Dev nD) : W8 m ρ c (Proc.devRef .tc main_v1) = W1 m ρ c (Proc.devRef .tc main_v1) :=
  W8_eq_W1 m ρ c main_v1 (by decide) (by decide) (by decide) (by decide) (by decide) (fun W => by host_keeps hostOps1)
    (fun W => by host_keeps hostOps3)
theorem W8_v3 (c : Dev nD) : W8 m ρ c (Proc.devRef .tc main_v3) = W1 m ρ c (Proc.devRef .tc main_v3) :=
  W8_eq_W1 m ρ c main_v3 (by decide) (by decide) (by decide) (by decide) (by decide) (fun W => by host_keeps hostOps1)
    (fun W => by host_keeps hostOps3)

/-! ## After the fifth region -/

/-- The narrow projection of layer 3. -/
theorem W8_v38_0 (c : Dev nD) : W8 m ρ c (Proc.devRef .tc main_v38_0)
    = projArr (n := 50000) (k := 128) (o := 2) (W7 m ρ c (Proc.devRef .tc main_v37)) (m ((c : Thread nD τ).loc main_arg10)) := by
  refine (W8_arr m ρ c 3).trans ((final4_3 (V7 m ρ) c).trans ?_)
  show projArr (W7 m ρ c (Proc.devRef .tc main_v37)) (W7 m ρ c (Proc.devRef .tc main_arg10)) = _
  rw [W7_arg10]

/-- The root projection of layer 3. -/
theorem W8_v38_1 (c : Dev nD) : W8 m ρ c (Proc.devRef .tc main_v38_1)
    = projArr (n := 50000) (k := 128) (o := 2) (W7 m ρ c (Proc.devRef .tc main_v37)) (m ((c : Thread nD τ).loc main_arg12)) := by
  refine (W8_arr m ρ c 4).trans ((final4_4 (V7 m ρ) c).trans ?_)
  show projArr (W7 m ρ c (Proc.devRef .tc main_v37)) (W7 m ρ c (Proc.devRef .tc main_arg12)) = _
  rw [W7_arg12]

/-! ## After the host operations of layer 3 -/

set_option maxHeartbeats 4000000 in
/-- The aggregated array of layer 3, entry by entry. -/
theorem W9_v52 (c : Dev nD) (i : Fin 50000) (j : Fin 2) :
    (W9 m ρ c (Proc.devRef .tc main_v52) : S50000x2.Idx → EReal) (ix2 i j)
      = agg (gOf m c) (lOf m c) (wOf m c)
          (fun a q => (W8 m ρ c (Proc.devRef .tc main_v38_0) : S50000x2.Idx → EReal) (ix2 a q)) i j := by
  have h : W9 m ρ c (Proc.devRef .tc main_v52)
      = Host.scatterAdd scatter_S50000x2_S200000x1_S200000x2_1_0_0_1
          (broadcastInDim S50000x2 ![] bcast_S_S50000x2 (constant (F := Ideal) S_ .f32 0x00000000#32))
          (broadcastInDim S200000x1 ![0] bcast_S200000_S200000x1_0 (W8 m ρ c (Proc.devRef .tc main_v3)))
          (mulf
            (extf .f32
              (Host.gather gather_S50000x2_S200000x1_S200000x2_1_0_n_n_0_1_12 (W8 m ρ c (Proc.devRef .tc main_v38_0))
                (broadcastInDim S200000x1 ![0] bcast_S200000_S200000x1_0
                  (select
                    (cmpi .slt (W8 m ρ c (Proc.devRef .tc main_v1))
                      (broadcastInDim S200000 ![] bcast_S_S200000 (constantI S_ 32 0#32)))
                    (addi (W8 m ρ c (Proc.devRef .tc main_v1))
                      (broadcastInDim S200000 ![] bcast_S_S200000 (constantI S_ 32 50000#32)))
                    (W8 m ρ c (Proc.devRef .tc main_v1)))))
              bitsLt_bf16_f32)
            (broadcastInDim S200000x2 ![0, 1] bcast_S200000x1_S200000x2_0_1
              (broadcastInDim S200000x1 ![0] bcast_S200000_S200000x1_0 (W8 m ρ c (Proc.devRef .tc main_arg2))))) := by
    show StableHlo.after hostOps5 (W8 m ρ c) (Proc.devRef .tc main_v52) = _
    after_results
  rw [h, W8_arg2]
  refine hostAgg_apply bitsLt_bf16_f32 gather_S50000x2_S200000x1_S200000x2_1_0_n_n_0_1_12 rfl rfl rfl rfl rfl rfl rfl
    scatter_S50000x2_S200000x1_S200000x2_1_0_0_1 rfl rfl rfl rfl bcast_S_S50000x2 bcast_S200000_S200000x1_0
    bcast_S200000x1_S200000x2_0_1 (m ((c : Thread nD τ).loc main_arg1)) _ _ _ ?_ ?_ _ i j
  · intro e
    exact srcColumn_apply _ _ (fun e => by rw [W8_v1]; exact W1_v1 m ρ c e) bcast_S_S200000 bcast_S200000_S200000x1_0 e
  · intro e
    exact dstColumn_apply _ _ (fun e => by rw [W8_v3]; exact W1_v3 m ρ c e) bcast_S200000_S200000x1_0 e

/-- The bias of layer 3 as one row. -/
theorem W9_v53 (c : Dev nD) (j : Fin 2) :
    (W9 m ρ c (Proc.devRef .tc main_v53) : S1x2.Idx → EReal) (ix2 (0 : Fin 1) j)
      = (m ((c : Thread nD τ).loc main_arg11) : S2.Idx → EReal) (ix1 j) := by
  have h : W9 m ρ c (Proc.devRef .tc main_v53)
      = shapeCast S1x2 (W8 m ρ c (Proc.devRef .tc main_arg11)) shapeCasts_S2_S1x2 := by
    show StableHlo.after hostOps5 (W8 m ρ c) (Proc.devRef .tc main_v53) = _
    after_results
    rfl
  rw [h, W8_arg11]
  exact shapeCast_a_1a_apply _ _ 0 j

theorem W9_v38_1 (c : Dev nD) : W9 m ρ c (Proc.devRef .tc main_v38_1) = W8 m ρ c (Proc.devRef .tc main_v38_1) := by
  host_keeps hostOps5

/-! ## After the sixth region: the result -/

/-- The result array as one function of the launch memory: the specification's project-first network. -/
def resultOf (c : Dev nD) : Buf (Elt Ideal) ((c : Thread nD τ).loc main_v54) :=
  fun i : S50000x2.Idx => netProjFirst (gOf m c) (lOf m c) (wOf m c)
    (fun a q => (m ((c : Thread nD τ).loc main_arg0) : S50000x1152.Idx → EReal) (ix2 a q))
    (fun j q => (m ((c : Thread nD τ).loc main_arg4) : S256x1152.Idx → EReal) (ix2 j q))
    (fun j q => (m ((c : Thread nD τ).loc main_arg6) : S256x1152.Idx → EReal) (ix2 j q))
    (fun j => (m ((c : Thread nD τ).loc main_arg5) : S256.Idx → EReal) (ix1 j))
    (fun j q => (m ((c : Thread nD τ).loc main_arg7) : S128x256.Idx → EReal) (ix2 j q))
    (fun j q => (m ((c : Thread nD τ).loc main_arg9) : S128x256.Idx → EReal) (ix2 j q))
    (fun j => (m ((c : Thread nD τ).loc main_arg8) : S128.Idx → EReal) (ix1 j))
    (fun j q => (m ((c : Thread nD τ).loc main_arg10) : S2x128.Idx → EReal) (ix2 j q))
    (fun j q => (m ((c : Thread nD τ).loc main_arg12) : S2x128.Idx → EReal) (ix2 j q))
    (fun j => (m ((c : Thread nD τ).loc main_arg11) : S2.Idx → EReal) (ix1 j)) (i 0) (i 1)

/-- What the last region leaves in the result buffer is the project-first network of the launch memory. -/
theorem W10_v54 (c : Dev nD) : W10 m ρ c (Proc.devRef .tc main_v54) = resultOf m c := by
  have h : W10 m ρ c (Proc.devRef .tc main_v54)
      = combArrLast (n := 50000) (o := 2) (W9 m ρ c (Proc.devRef .tc main_v52)) (W9 m ρ c (Proc.devRef .tc main_v38_1))
          (W9 m ρ c (Proc.devRef .tc main_v53)) :=
    (W10_arr m ρ c 3).trans (final5_3 (V9 m ρ) c)
  rw [h]
  funext i
  obtain ⟨a, b, rfl⟩ : ∃ (a : Fin 50000) (b : Fin 2), i = ix2 a b := ⟨i 0, i 1, eq_ix2 i⟩
  refine (layer_step_last _ _ _ (W7 m ρ c (Proc.devRef .tc main_v37)) (m ((c : Thread nD τ).loc main_arg10))
    (m ((c : Thread nD τ).loc main_arg12)) (W8 m ρ c (Proc.devRef .tc main_v38_0)) _ _ _
    (m ((c : Thread nD τ).loc main_arg11)) _ (W7_v37 m ρ c) (W8_v38_0 m ρ c)
    ((W9_v38_1 m ρ c).trans (W8_v38_1 m ρ c)) (W9_v52 m ρ c) (W9_v53 m ρ c) a b).trans ?_
  rfl

end Cert.KernelIdeal.KValue

end
-- ==== Proof.RefValue.lean ====
/-
  The reference program read as the three-layer network of the specification.

  Each layer of the reference gathers the rows of its input at the edges' source rows, scales every gathered row by
  the edge's weight, and adds the scaled rows into a zero array at the edges' destination rows: read at `(i, q)`
  this is the edge-weighted neighbour sum `agg`, the sum over the edges that write to node `i` of the input at the
  edge's source row and column `q` times the edge's weight. The layer then multiplies the sums by the transposed
  "rel" weights, adds the bias, and adds the input times the transposed "root" weights — `layerAggFirst` entry by
  entry, the contraction index running over the input's columns. The first two layers end with `max · 0`.

  The two index columns are read first: the gather's column at edge `e` is the edge's source word, moved up by the
  node count when it is negative (`srcWord`), and the scatter's column is the destination word as it is (`dstWord`);
  the row gather then reads row `srcRow e` and the row scatter writes row `dstRow e`, or nowhere.
-/
import proofs.«107408_j73280732004501_2_alg».proof.Proof.Spec
import proofs.«107408_j73280732004501_2_alg».proof.Proof.Gen.ReferenceIdeal.Read

noncomputable section

open scoped BigOperators

namespace Cert.ReferenceIdeal.RefValue

open Cert.ReferenceIdeal Cert.ReferenceIdeal.Gen Cert.ReferenceIdeal.Read Cert.GraphNet Cert.Lib.RowScatter
  Idealize.ShloMosaic Idealize.ShloMosaic.ValueIdx

/-! ## The two index columns

Entry `(e, 0)` of the gather's column is read back through the broadcast, the select, the comparison with zero, the
addition of the node count, the reshape and the slice of row 0 of the edge list; the scatter's through the broadcast,
the reshape and the slice of row 1. A reshape `[1, 200000] → [200000]` reads column `e % 200000 = e`. -/

/-- Where the gather's column at edge `e` reads the edge list: row 0, column `e`. -/
theorem srcIdx (e : Fin 200000) :
    idx_main_v0 (idx_main_v1 (idx_main_v9 (ix2 e (0 : Fin 1)))) = ix2 (0 : Fin 2) e :=
  funext fun a => Fin.ext (by
    match a with
    | ⟨0, _⟩ => rfl
    | ⟨1, _⟩ => exact Nat.mod_eq_of_lt e.isLt)

/-- Where the scatter's column at edge `e` reads the edge list: row 1, column `e`. -/
theorem dstIdx (e : Fin 200000) :
    idx_main_v2 (idx_main_v3 (idx_main_v15 (ix2 e (0 : Fin 1)))) = ix2 (1 : Fin 2) e :=
  funext fun a => Fin.ext (by
    match a with
    | ⟨0, _⟩ => rfl
    | ⟨1, _⟩ => exact Nat.mod_eq_of_lt e.isLt)

/-- The first layer's gather column at edge `e` is the edge's source word. -/
theorem srcCol1 (x1 : (⟨S2x200000, .i32⟩ : BufTy).Contents (Elt Ideal)) (e : Fin 200000) :
    val_main_v9 (F := Ideal) x1 (ix2 e 0) = srcWord x1 e := by
  rw [val_main_v9_apply, val_main_v8_apply, val_main_v5_apply, val_main_v7_apply, val_main_v4_apply,
    val_main_v6_apply, val_main_c_apply, val_main_c_0_apply, val_main_v1_apply, val_main_v0_apply, srcIdx]
  rfl

/-- The first layer's scatter column at edge `e` is the edge's destination word. -/
theorem dstCol1 (x1 : (⟨S2x200000, .i32⟩ : BufTy).Contents (Elt Ideal)) (e : Fin 200000) :
    val_main_v15 (F := Ideal) x1 (ix2 e 0) = dstWord x1 e := by
  rw [val_main_v15_apply, val_main_v3_apply, val_main_v2_apply, dstIdx]
  rfl

/-- The later layers compute the same two columns again, operation by operation. -/
theorem srcCol2_eq (x1 : (⟨S2x200000, .i32⟩ : BufTy).Contents (Elt Ideal)) : val_main_v31 (F := Ideal) x1 = val_main_v9 (F := Ideal) x1 := rfl
theorem srcCol3_eq (x1 : (⟨S2x200000, .i32⟩ : BufTy).Contents (Elt Ideal)) : val_main_v53 (F := Ideal) x1 = val_main_v9 (F := Ideal) x1 := rfl
theorem dstCol2_eq (x1 : (⟨S2x200000, .i32⟩ : BufTy).Contents (Elt Ideal)) : val_main_v37 (F := Ideal) x1 = val_main_v15 (F := Ideal) x1 := rfl
theorem dstCol3_eq (x1 : (⟨S2x200000, .i32⟩ : BufTy).Contents (Elt Ideal)) : val_main_v59 (F := Ideal) x1 = val_main_v15 (F := Ideal) x1 := rfl

theorem srcCol2 (x1 : (⟨S2x200000, .i32⟩ : BufTy).Contents (Elt Ideal)) (e : Fin 200000) :
    val_main_v31 (F := Ideal) x1 (ix2 e 0) = srcWord x1 e := by rw [srcCol2_eq]; exact srcCol1 x1 e
theorem srcCol3 (x1 : (⟨S2x200000, .i32⟩ : BufTy).Contents (Elt Ideal)) (e : Fin 200000) :
    val_main_v53 (F := Ideal) x1 (ix2 e 0) = srcWord x1 e := by rw [srcCol3_eq]; exact srcCol1 x1 e
theorem dstCol2 (x1 : (⟨S2x200000, .i32⟩ : BufTy).Contents (Elt Ideal)) (e : Fin 200000) :
    val_main_v37 (F := Ideal) x1 (ix2 e 0) = dstWord x1 e := by rw [dstCol2_eq]; exact dstCol1 x1 e
theorem dstCol3 (x1 : (⟨S2x200000, .i32⟩ : BufTy).Contents (Elt Ideal)) (e : Fin 200000) :
    val_main_v59 (F := Ideal) x1 (ix2 e 0) = dstWord x1 e := by rw [dstCol3_eq]; exact dstCol1 x1 e

/-! ## The aggregation of each layer

The edge weight is broadcast along the columns: entry `(e, q)` of the weight array is the weight of edge `e`. The
scatter adds into the zero array, so entry `(i, q)` of its result is the sum alone. -/

theorem wIdx1 (e : Fin 200000) (q : Fin 1152) : idx_main_v11 (idx_main_v12 (ix2 e q)) = ix1 e :=
  funext fun a => Fin.ext (by match a with | ⟨0, _⟩ => rfl)
theorem wIdx2 (e : Fin 200000) (q : Fin 256) : idx_main_v33 (idx_main_v34 (ix2 e q)) = ix1 e :=
  funext fun a => Fin.ext (by match a with | ⟨0, _⟩ => rfl)
theorem wIdx3 (e : Fin 200000) (q : Fin 128) : idx_main_v55 (idx_main_v56 (ix2 e q)) = ix1 e :=
  funext fun a => Fin.ext (by match a with | ⟨0, _⟩ => rfl)

/-- The first layer's scattered sums are the neighbour sums of the node features. -/
theorem agg1 (x0 : (⟨S50000x1152, .f32⟩ : BufTy).Contents (Elt Ideal)) (x1 : (⟨S2x200000, .i32⟩ : BufTy).Contents (Elt Ideal)) (x2 : (⟨S200000, .f32⟩ : BufTy).Contents (Elt Ideal)) (i : Fin 50000) (q : Fin 1152) :
    val_main_v16 (F := Ideal) x0 x1 x2 (ix2 i q)
      = agg (srcRow x1) (dstRow x1) (fun e => x2 (ix1 e)) (fun a c => x0 (ix2 a c)) i q := by
  unfold val_main_v16 val_main_v13 val_main_v10
  rw [scatterAdd_row_apply (N := 50000) (M := 200000) (C := 1152) (w := 32) scatter_S50000x1152_S200000x1_S200000x1152_1_0_0_1 rfl rfl rfl rfl,
    val_main_v14_apply, val_main_cst_apply, Ideal.ofBits_def, Ideal.ofBits_zero_f32, zero_add]
  have hl : landRow 50000 200000 (val_main_v15 (F := Ideal) x1) = dstRow x1 :=
    funext fun e => landRow_eq _ x1 e (dstCol1 x1 e)
  rw [hl]
  unfold agg
  refine Finset.sum_congr rfl fun e _ => ?_
  rw [mulf_apply, gather_row_apply (N := 50000) (M := 200000) (C := 1152) (by decide) gather_S50000x1152_S200000x1_S200000x1152_1_0_n_n_0_1_11152 rfl rfl rfl rfl rfl rfl rfl,
    gatherRow_eq _ x1 e (srcCol1 x1 e), val_main_v12_apply, val_main_v11_apply, wIdx1]

/-- The second layer's scattered sums are the neighbour sums of the first layer's rectified output. -/
theorem agg2 (x0 : (⟨S50000x1152, .f32⟩ : BufTy).Contents (Elt Ideal)) (x1 : (⟨S2x200000, .i32⟩ : BufTy).Contents (Elt Ideal)) (x2 : (⟨S200000, .f32⟩ : BufTy).Contents (Elt Ideal)) (x4 : (⟨S256x1152, .f32⟩ : BufTy).Contents (Elt Ideal)) (x5 : (⟨S256, .f32⟩ : BufTy).Contents (Elt Ideal)) (x6 : (⟨S256x1152, .f32⟩ : BufTy).Contents (Elt Ideal)) (i : Fin 50000) (q : Fin 256) :
    val_main_v38 (F := Ideal) x0 x1 x2 x4 x5 x6 (ix2 i q)
      = agg (srcRow x1) (dstRow x1) (fun e => x2 (ix1 e)) (fun a c => val_main_v25 (F := Ideal) x0 x1 x2 x4 x5 x6 (ix2 a c)) i q := by
  unfold val_main_v38 val_main_v35 val_main_v32
  generalize val_main_v25 (F := Ideal) x0 x1 x2 x4 x5 x6 = h
  rw [scatterAdd_row_apply (N := 50000) (M := 200000) (C := 256) (w := 32) scatter_S50000x256_S200000x1_S200000x256_1_0_0_1 rfl rfl rfl rfl,
    val_main_v36_apply, val_main_cst_3_apply, Ideal.ofBits_def, Ideal.ofBits_zero_f32, zero_add]
  have hl : landRow 50000 200000 (val_main_v37 (F := Ideal) x1) = dstRow x1 :=
    funext fun e => landRow_eq _ x1 e (dstCol2 x1 e)
  rw [hl]
  unfold agg
  refine Finset.sum_congr rfl fun e _ => ?_
  rw [mulf_apply, gather_row_apply (N := 50000) (M := 200000) (C := 256) (by decide) gather_S50000x256_S200000x1_S200000x256_1_0_n_n_0_1_1256 rfl rfl rfl rfl rfl rfl rfl,
    gatherRow_eq _ x1 e (srcCol2 x1 e), val_main_v34_apply, val_main_v33_apply, wIdx2]

/-- The third layer's scattered sums are the neighbour sums of the second layer's rectified output. -/
theorem agg3 (x0 : (⟨S50000x1152, .f32⟩ : BufTy).Contents (Elt Ideal)) (x1 : (⟨S2x200000, .i32⟩ : BufTy).Contents (Elt Ideal)) (x2 : (⟨S200000, .f32⟩ : BufTy).Contents (Elt Ideal)) (x4 : (⟨S256x1152, .f32⟩ : BufTy).Contents (Elt Ideal)) (x5 : (⟨S256, .f32⟩ : BufTy).Contents (Elt Ideal)) (x6 : (⟨S256x1152, .f32⟩ : BufTy).Contents (Elt Ideal)) (x7 : (⟨S128x256, .f32⟩ : BufTy).Contents (Elt Ideal)) (x8 : (⟨S128, .f32⟩ : BufTy).Contents (Elt Ideal)) (x9 : (⟨S128x256, .f32⟩ : BufTy).Contents (Elt Ideal)) (i : Fin 50000) (q : Fin 128) :
    val_main_v60 (F := Ideal) x0 x1 x2 x4 x5 x6 x7 x8 x9 (ix2 i q)
      = agg (srcRow x1) (dstRow x1) (fun e => x2 (ix1 e)) (fun a c => val_main_v47 (F := Ideal) x0 x1 x2 x4 x5 x6 x7 x8 x9 (ix2 a c)) i q := by
  unfold val_main_v60 val_main_v57 val_main_v54
  generalize val_main_v47 (F := Ideal) x0 x1 x2 x4 x5 x6 x7 x8 x9 = h
  rw [scatterAdd_row_apply (N := 50000) (M := 200000) (C := 128) (w := 32) scatter_S50000x128_S200000x1_S200000x128_1_0_0_1 rfl rfl rfl rfl,
    val_main_v58_apply, val_main_cst_6_apply, Ideal.ofBits_def, Ideal.ofBits_zero_f32, zero_add]
  have hl : landRow 50000 200000 (val_main_v59 (F := Ideal) x1) = dstRow x1 :=
    funext fun e => landRow_eq _ x1 e (dstCol3 x1 e)
  rw [hl]
  unfold agg
  refine Finset.sum_congr rfl fun e _ => ?_
  rw [mulf_apply, gather_row_apply (N := 50000) (M := 200000) (C := 128) (by decide) gather_S50000x128_S200000x1_S200000x128_1_0_n_n_0_1_1128 rfl rfl rfl rfl rfl rfl rfl,
    gatherRow_eq _ x1 e (srcCol3 x1 e), val_main_v56_apply, val_main_v55_apply, wIdx3]

/-! ## The dense part of each layer

A product with transposed weights contracts the input's columns: entry `(i, j)` reads the input at `(i, k)` and the
weights at `(j, k)`; the bias is broadcast along the rows. -/

theorem lIdx18 (i : Fin 50000) (j : Fin 256) (k : Fin 1152) : lidx_main_v18 (ix2 i j) k = ix2 i k :=
  funext fun a => Fin.ext (by match a with | ⟨0, _⟩ => rfl | ⟨1, _⟩ => rfl)
theorem rIdx18 (i : Fin 50000) (j : Fin 256) (k : Fin 1152) : idx_main_v17 (ridx_main_v18 (ix2 i j) k) = ix2 j k :=
  funext fun a => Fin.ext (by match a with | ⟨0, _⟩ => rfl | ⟨1, _⟩ => rfl)
theorem lIdx23 (i : Fin 50000) (j : Fin 256) (k : Fin 1152) : lidx_main_v23 (ix2 i j) k = ix2 i k :=
  funext fun a => Fin.ext (by match a with | ⟨0, _⟩ => rfl | ⟨1, _⟩ => rfl)
theorem rIdx23 (i : Fin 50000) (j : Fin 256) (k : Fin 1152) : idx_main_v22 (ridx_main_v23 (ix2 i j) k) = ix2 j k :=
  funext fun a => Fin.ext (by match a with | ⟨0, _⟩ => rfl | ⟨1, _⟩ => rfl)
theorem bIdx1 (i : Fin 50000) (j : Fin 256) : idx_main_v19 (idx_main_v20 (ix2 i j)) = ix1 j :=
  funext fun a => Fin.ext (by match a with | ⟨0, _⟩ => rfl)
theorem lIdx40 (i : Fin 50000) (j : Fin 128) (k : Fin 256) : lidx_main_v40 (ix2 i j) k = ix2 i k :=
  funext fun a => Fin.ext (by match a with | ⟨0, _⟩ => rfl | ⟨1, _⟩ => rfl)
theorem rIdx40 (i : Fin 50000) (j : Fin 128) (k : Fin 256) : idx_main_v39 (ridx_main_v40 (ix2 i j) k) = ix2 j k :=
  funext fun a => Fin.ext (by match a with | ⟨0, _⟩ => rfl | ⟨1, _⟩ => rfl)
theorem lIdx45 (i : Fin 50000) (j : Fin 128) (k : Fin 256) : lidx_main_v45 (ix2 i j) k = ix2 i k :=
  funext fun a => Fin.ext (by match a with | ⟨0, _⟩ => rfl | ⟨1, _⟩ => rfl)
theorem rIdx45 (i : Fin 50000) (j : Fin 128) (k : Fin 256) : idx_main_v44 (ridx_main_v45 (ix2 i j) k) = ix2 j k :=
  funext fun a => Fin.ext (by match a with | ⟨0, _⟩ => rfl | ⟨1, _⟩ => rfl)
theorem bIdx2 (i : Fin 50000) (j : Fin 128) : idx_main_v41 (idx_main_v42 (ix2 i j)) = ix1 j :=
  funext fun a => Fin.ext (by match a with | ⟨0, _⟩ => rfl)
theorem lIdx62 (i : Fin 50000) (j : Fin 2) (k : Fin 128) : lidx_main_v62 (ix2 i j) k = ix2 i k :=
  funext fun a => Fin.ext (by match a with | ⟨0, _⟩ => rfl | ⟨1, _⟩ => rfl)
theorem rIdx62 (i : Fin 50000) (j : Fin 2) (k : Fin 128) : idx_main_v61 (ridx_main_v62 (ix2 i j) k) = ix2 j k :=
  funext fun a => Fin.ext (by match a with | ⟨0, _⟩ => rfl | ⟨1, _⟩ => rfl)
theorem lIdx67 (i : Fin 50000) (j : Fin 2) (k : Fin 128) : lidx_main_v67 (ix2 i j) k = ix2 i k :=
  funext fun a => Fin.ext (by match a with | ⟨0, _⟩ => rfl | ⟨1, _⟩ => rfl)
theorem rIdx67 (i : Fin 50000) (j : Fin 2) (k : Fin 128) : idx_main_v66 (ridx_main_v67 (ix2 i j) k) = ix2 j k :=
  funext fun a => Fin.ext (by match a with | ⟨0, _⟩ => rfl | ⟨1, _⟩ => rfl)
theorem bIdx3 (i : Fin 50000) (j : Fin 2) : idx_main_v63 (idx_main_v64 (ix2 i j)) = ix1 j :=
  funext fun a => Fin.ext (by match a with | ⟨0, _⟩ => rfl)

/-- A sum of three terms changes term by term. -/
theorem add3_congr {a b c a' b' c' : EReal} (h1 : a = a') (h2 : b = b') (h3 : c = c') :
    a + b + c = a' + b' + c' := by rw [h1, h2, h3]

/-! ## The three layers

A layer depends on the earlier ones only through its input array: the second and third layers are stated over any
array `H` equal, entry by entry, to the previous layer's rectified output. -/

/-- The first layer before its rectifier: neighbour sums of the node features times the "rel" weights, plus the bias,
    plus the node features times the "root" weights. -/
theorem pre1 (x0 : (⟨S50000x1152, .f32⟩ : BufTy).Contents (Elt Ideal)) (x1 : (⟨S2x200000, .i32⟩ : BufTy).Contents (Elt Ideal)) (x2 : (⟨S200000, .f32⟩ : BufTy).Contents (Elt Ideal)) (x4 : (⟨S256x1152, .f32⟩ : BufTy).Contents (Elt Ideal)) (x5 : (⟨S256, .f32⟩ : BufTy).Contents (Elt Ideal)) (x6 : (⟨S256x1152, .f32⟩ : BufTy).Contents (Elt Ideal)) (i : Fin 50000) (j : Fin 256) :
    val_main_v24 (F := Ideal) x0 x1 x2 x4 x5 x6 (ix2 i j)
      = layerAggFirst (srcRow x1) (dstRow x1) (fun e => x2 (ix1 e)) (fun a c => x0 (ix2 a c)) (fun o c => x4 (ix2 o c)) (fun o c => x6 (ix2 o c)) (fun o => x5 (ix1 o)) i j := by
  rw [val_main_v24_apply, val_main_v21_apply, val_main_v18_apply, val_main_v23_apply, val_main_v20_apply, val_main_v19_apply,
    Ideal.addf_def, Ideal.addf_def]
  unfold layerAggFirst proj
  refine add3_congr (Finset.sum_congr rfl fun k _ => ?_) ?_ (Finset.sum_congr rfl fun k _ => ?_)
  · rw [val_main_v17_apply, lIdx18, rIdx18, agg1]
  · rw [bIdx1]
  · rw [val_main_v22_apply, lIdx23, rIdx23]

/-- The first layer's output: the rectifier `max · 0` of the above. -/
theorem act1 (x0 : (⟨S50000x1152, .f32⟩ : BufTy).Contents (Elt Ideal)) (x1 : (⟨S2x200000, .i32⟩ : BufTy).Contents (Elt Ideal)) (x2 : (⟨S200000, .f32⟩ : BufTy).Contents (Elt Ideal)) (x4 : (⟨S256x1152, .f32⟩ : BufTy).Contents (Elt Ideal)) (x5 : (⟨S256, .f32⟩ : BufTy).Contents (Elt Ideal)) (x6 : (⟨S256x1152, .f32⟩ : BufTy).Contents (Elt Ideal)) (i : Fin 50000) (j : Fin 256) :
    val_main_v25 (F := Ideal) x0 x1 x2 x4 x5 x6 (ix2 i j)
      = relu (layerAggFirst (srcRow x1) (dstRow x1) (fun e => x2 (ix1 e)) (fun a c => x0 (ix2 a c)) (fun o c => x4 (ix2 o c)) (fun o c => x6 (ix2 o c)) (fun o => x5 (ix1 o))) i j := by
  unfold relu
  rw [val_main_v25_apply, val_main_call0_v0_apply, val_main_call0_cst_apply, Ideal.maximumf_def, Ideal.ofBits_def, Ideal.ofBits_zero_f32,
    pre1]

/-- The second layer before its rectifier, over the first layer's output `H`. -/
theorem pre2 (x0 : (⟨S50000x1152, .f32⟩ : BufTy).Contents (Elt Ideal)) (x1 : (⟨S2x200000, .i32⟩ : BufTy).Contents (Elt Ideal)) (x2 : (⟨S200000, .f32⟩ : BufTy).Contents (Elt Ideal)) (x4 : (⟨S256x1152, .f32⟩ : BufTy).Contents (Elt Ideal)) (x5 : (⟨S256, .f32⟩ : BufTy).Contents (Elt Ideal)) (x6 : (⟨S256x1152, .f32⟩ : BufTy).Contents (Elt Ideal)) (x7 : (⟨S128x256, .f32⟩ : BufTy).Contents (Elt Ideal)) (x8 : (⟨S128, .f32⟩ : BufTy).Contents (Elt Ideal)) (x9 : (⟨S128x256, .f32⟩ : BufTy).Contents (Elt Ideal)) (H : Fin 50000 → Fin 256 → EReal)
    (hH : ∀ a c, val_main_v25 (F := Ideal) x0 x1 x2 x4 x5 x6 (ix2 a c) = H a c) (i : Fin 50000) (j : Fin 128) :
    val_main_v46 (F := Ideal) x0 x1 x2 x4 x5 x6 x7 x8 x9 (ix2 i j)
      = layerAggFirst (srcRow x1) (dstRow x1) (fun e => x2 (ix1 e)) H (fun o c => x7 (ix2 o c)) (fun o c => x9 (ix2 o c)) (fun o => x8 (ix1 o)) i j := by
  rw [val_main_v46_apply, val_main_v43_apply, val_main_v40_apply, val_main_v45_apply, val_main_v42_apply, val_main_v41_apply,
    Ideal.addf_def, Ideal.addf_def]
  unfold layerAggFirst proj
  refine add3_congr (Finset.sum_congr rfl fun k _ => ?_) ?_ (Finset.sum_congr rfl fun k _ => ?_)
  · rw [val_main_v39_apply, lIdx40, rIdx40, agg2]
    rw [show (fun a c => val_main_v25 (F := Ideal) x0 x1 x2 x4 x5 x6 (ix2 a c)) = H from funext fun a => funext fun c => hH a c]
  · rw [bIdx2]
  · rw [val_main_v44_apply, lIdx45, rIdx45, hH]

/-- The second layer's output: the rectifier of the above. -/
theorem act2 (x0 : (⟨S50000x1152, .f32⟩ : BufTy).Contents (Elt Ideal)) (x1 : (⟨S2x200000, .i32⟩ : BufTy).Contents (Elt Ideal)) (x2 : (⟨S200000, .f32⟩ : BufTy).Contents (Elt Ideal)) (x4 : (⟨S256x1152, .f32⟩ : BufTy).Contents (Elt Ideal)) (x5 : (⟨S256, .f32⟩ : BufTy).Contents (Elt Ideal)) (x6 : (⟨S256x1152, .f32⟩ : BufTy).Contents (Elt Ideal)) (x7 : (⟨S128x256, .f32⟩ : BufTy).Contents (Elt Ideal)) (x8 : (⟨S128, .f32⟩ : BufTy).Contents (Elt Ideal)) (x9 : (⟨S128x256, .f32⟩ : BufTy).Contents (Elt Ideal)) (H : Fin 50000 → Fin 256 → EReal)
    (hH : ∀ a c, val_main_v25 (F := Ideal) x0 x1 x2 x4 x5 x6 (ix2 a c) = H a c) (i : Fin 50000) (j : Fin 128) :
    val_main_v47 (F := Ideal) x0 x1 x2 x4 x5 x6 x7 x8 x9 (ix2 i j)
      = relu (layerAggFirst (srcRow x1) (dstRow x1) (fun e => x2 (ix1 e)) H (fun o c => x7 (ix2 o c)) (fun o c => x9 (ix2 o c)) (fun o => x8 (ix1 o))) i j := by
  unfold relu
  rw [val_main_v47_apply, val_main_call1_v0_apply, val_main_call1_cst_apply, Ideal.maximumf_def, Ideal.ofBits_def, Ideal.ofBits_zero_f32,
    pre2 x0 x1 x2 x4 x5 x6 x7 x8 x9 H hH]

/-- The third layer, which has no rectifier, over the second layer's output `H`. -/
theorem pre3 (x0 : (⟨S50000x1152, .f32⟩ : BufTy).Contents (Elt Ideal)) (x1 : (⟨S2x200000, .i32⟩ : BufTy).Contents (Elt Ideal)) (x2 : (⟨S200000, .f32⟩ : BufTy).Contents (Elt Ideal)) (x4 : (⟨S256x1152, .f32⟩ : BufTy).Contents (Elt Ideal)) (x5 : (⟨S256, .f32⟩ : BufTy).Contents (Elt Ideal)) (x6 : (⟨S256x1152, .f32⟩ : BufTy).Contents (Elt Ideal)) (x7 : (⟨S128x256, .f32⟩ : BufTy).Contents (Elt Ideal)) (x8 : (⟨S128, .f32⟩ : BufTy).Contents (Elt Ideal)) (x9 : (⟨S128x256, .f32⟩ : BufTy).Contents (Elt Ideal)) (x10 : (⟨S2x128, .f32⟩ : BufTy).Contents (Elt Ideal)) (x11 : (⟨S2, .f32⟩ : BufTy).Contents (Elt Ideal)) (x12 : (⟨S2x128, .f32⟩ : BufTy).Contents (Elt Ideal)) (H : Fin 50000 → Fin 128 → EReal)
    (hH : ∀ a c, val_main_v47 (F := Ideal) x0 x1 x2 x4 x5 x6 x7 x8 x9 (ix2 a c) = H a c) (i : Fin 50000) (j : Fin 2) :
    val_main_v68 (F := Ideal) x0 x1 x2 x4 x5 x6 x7 x8 x9 x10 x11 x12 (ix2 i j)
      = layerAggFirst (srcRow x1) (dstRow x1) (fun e => x2 (ix1 e)) H (fun o c => x10 (ix2 o c)) (fun o c => x12 (ix2 o c)) (fun o => x11 (ix1 o)) i j := by
  rw [val_main_v68_apply, val_main_v65_apply, val_main_v62_apply, val_main_v67_apply, val_main_v64_apply, val_main_v63_apply,
    Ideal.addf_def, Ideal.addf_def]
  unfold layerAggFirst proj
  refine add3_congr (Finset.sum_congr rfl fun k _ => ?_) ?_ (Finset.sum_congr rfl fun k _ => ?_)
  · rw [val_main_v61_apply, lIdx62, rIdx62, agg3]
    rw [show (fun a c => val_main_v47 (F := Ideal) x0 x1 x2 x4 x5 x6 x7 x8 x9 (ix2 a c)) = H from funext fun a => funext fun c => hH a c]
  · rw [bIdx3]
  · rw [val_main_v66_apply, lIdx67, rIdx67, hH]

/-! ## The whole reference -/

/-- The reference's result is the aggregate-first network of the argument arrays: the edge list gives the rows each
    edge reads and writes, the edge weights scale the gathered rows, and each layer's "rel" weights multiply the
    neighbour sums while its "root" weights multiply the layer's own input. -/
theorem result_eq (x0 : (⟨S50000x1152, .f32⟩ : BufTy).Contents (Elt Ideal)) (x1 : (⟨S2x200000, .i32⟩ : BufTy).Contents (Elt Ideal)) (x2 : (⟨S200000, .f32⟩ : BufTy).Contents (Elt Ideal)) (x4 : (⟨S256x1152, .f32⟩ : BufTy).Contents (Elt Ideal))
    (x5 : (⟨S256, .f32⟩ : BufTy).Contents (Elt Ideal)) (x6 : (⟨S256x1152, .f32⟩ : BufTy).Contents (Elt Ideal))
    (x7 : (⟨S128x256, .f32⟩ : BufTy).Contents (Elt Ideal)) (x8 : (⟨S128, .f32⟩ : BufTy).Contents (Elt Ideal))
    (x9 : (⟨S128x256, .f32⟩ : BufTy).Contents (Elt Ideal)) (x10 : (⟨S2x128, .f32⟩ : BufTy).Contents (Elt Ideal))
    (x11 : (⟨S2, .f32⟩ : BufTy).Contents (Elt Ideal)) (x12 : (⟨S2x128, .f32⟩ : BufTy).Contents (Elt Ideal)) :
    val_main_v68 (F := Ideal) x0 x1 x2 x4 x5 x6 x7 x8 x9 x10 x11 x12
      = fun i => netAggFirst (srcRow x1) (dstRow x1) (fun e => x2 (ix1 e))
          (fun a q => x0 (ix2 a q))
          (fun j q => x4 (ix2 j q)) (fun j q => x6 (ix2 j q)) (fun j => x5 (ix1 j))
          (fun j q => x7 (ix2 j q)) (fun j q => x9 (ix2 j q)) (fun j => x8 (ix1 j))
          (fun j q => x10 (ix2 j q)) (fun j q => x12 (ix2 j q)) (fun j => x11 (ix1 j)) (i 0) (i 1) := by
  funext i
  obtain ⟨a, b, rfl⟩ : ∃ (a : Fin 50000) (b : Fin 2), i = ix2 a b := ⟨i 0, i 1, eq_ix2 i⟩
  have h1 := fun p c => act1 x0 x1 x2 x4 x5 x6 p c
  have h2 := fun p c => act2 x0 x1 x2 x4 x5 x6 x7 x8 x9 _ h1 p c
  exact pre3 x0 x1 x2 x4 x5 x6 x7 x8 x9 x10 x11 x12 _ h2 a b

end Cert.ReferenceIdeal.RefValue

end
-- ==== Proof.Algebra.lean ====
/-
  The two arrangements of the graph network agree on real data.

  A layer either projects the node rows and then takes the edge-weighted neighbour sum, or takes the neighbour
  sum of the wide rows and then projects it. Entry `(i, j)` is, in the first arrangement,
      ∑ e, (∑ q, h (g e) q · W j q) · w e      (over the edges `e` that write to node `i`)
  and in the second
      ∑ q, (∑ e, h (g e) q · w e) · W j q.
  Over `ℝ` both are the double sum `∑ e, ∑ q, h (g e) q · W j q · w e`: distribute the outer factor over the inner
  sum and exchange the order of summation. The entries here are extended reals, where multiplication does not
  distribute over a sum that meets `⊤ + ⊥`; so the statements assume that every weight and every input entry is
  a real number, choose real witnesses, and carry out the regrouping in `ℝ`. The remaining difference between
  the arrangements is the order of three summands, and addition of extended reals is commutative and
  associative without any assumption.

  The network stacks three layers with `max · 0` after the first two. A layer with real data has a real output
  and so has its rectification, which feeds the finiteness assumption of the next layer.
-/
import proofs.«107408_j73280732004501_2_alg».proof.Proof.Spec

noncomputable section

open scoped BigOperators

namespace Cert.GraphNet

/-! ## Real numbers inside the extended reals

The extended reals are not a ring: `x * (y + z) = x * y + x * z` fails when `y + z` is `⊤ + ⊥`. The
embedding of `ℝ` does respect `0`, `+`, `*`, `max` and finite sums, so an expression built from real entries
is the image of the same expression over `ℝ`, where sums of products regroup freely. -/

/-- The embedding `ℝ → EReal` takes a finite sum to the sum of the images. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem real_sum {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨x, hx⟩ := hf a (Finset.mem_insert_self a s)
    obtain ⟨y, hy⟩ := ih fun i hi => hf i (Finset.mem_insert_of_mem hi)
    exact ⟨x + y, by rw [Finset.sum_insert ha, hx, hy, EReal.coe_add]⟩

/-- A product of real numbers is a real number. -/
theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- A sum of two real numbers is a real number. -/
theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

/-! ## Finiteness is carried through a layer -/

/-- The product with real weights of a real matrix is real. -/
theorem proj_finite {n k o : Nat} (h : Fin n → Fin k → EReal) (W : Fin o → Fin k → EReal)
    (hh : Finite2 h) (hW : Finite2 W) : Finite2 (proj h W) := fun i j =>
  real_sum _ _ fun q _ => real_mul (hh i q) (hW j q)

/-- The neighbour sum with real edge weights of a real matrix is real. -/
theorem agg_finite {n m c : Nat} (g : Fin m → Fin n) (l : Fin m → Option (Fin n)) (w : Fin m → EReal)
    (Y : Fin n → Fin c → EReal) (hw : Finite1 w) (hY : Finite2 Y) : Finite2 (agg g l w Y) := fun i j =>
  real_sum _ _ fun e _ => real_mul (hY (g e) j) (hw e)

/-! ## Aggregation commutes with projection

Entry `(i, j)` of `agg (proj h W)` is `∑ e, (∑ q, h (g e) q · W j q) · w e` over the edges `e` that write to `i`;
entry `(i, j)` of `proj (agg h) W` is `∑ q, (∑ e, h (g e) q · w e) · W j q`. Over `ℝ` both are the double sum
`∑ e, ∑ q, h (g e) q · W j q · w e` after distributing and exchanging the order of summation. -/

theorem agg_proj_comm {n m k o : Nat} (g : Fin m → Fin n) (l : Fin m → Option (Fin n)) (w : Fin m → EReal)
    (h : Fin n → Fin k → EReal) (W : Fin o → Fin k → EReal) (hw : Finite1 w) (hh : Finite2 h) (hW : Finite2 W) :
    agg g l w (proj h W) = proj (agg g l w h) W := by
  choose w' hw' using hw
  choose h' hh' using hh
  choose W' hW' using hW
  obtain rfl : w = fun e => ((w' e : ℝ) : EReal) := funext hw'
  obtain rfl : h = fun i q => ((h' i q : ℝ) : EReal) := funext fun i => funext (hh' i)
  obtain rfl : W = fun j q => ((W' j q : ℝ) : EReal) := funext fun j => funext (hW' j)
  funext i j
  simp only [agg, proj, ← EReal.coe_mul, ← coe_finsum]
  congr 1
  simp only [Finset.sum_mul]
  rw [Finset.sum_comm]
  refine Finset.sum_congr rfl fun q _ => Finset.sum_congr rfl fun e _ => ?_
  ring

/-- The two arrangements of a layer agree on real inputs: exchange aggregation and projection in the first
term, then reorder the three summands. -/
theorem layer_eq {n m k o : Nat} (g : Fin m → Fin n) (l : Fin m → Option (Fin n)) (w : Fin m → EReal)
    (h : Fin n → Fin k → EReal) (Wrel Wroot : Fin o → Fin k → EReal) (b : Fin o → EReal)
    (hw : Finite1 w) (hh : Finite2 h) (hWrel : Finite2 Wrel) :
    layerProjFirst g l w h Wrel Wroot b = layerAggFirst g l w h Wrel Wroot b := by
  funext i j
  unfold layerProjFirst layerAggFirst
  rw [agg_proj_comm g l w h Wrel hw hh hWrel]
  exact add_right_comm _ _ _

/-- A layer with real weights, bias and input has a real output. -/
theorem layerProjFirst_finite {n m k o : Nat} (g : Fin m → Fin n) (l : Fin m → Option (Fin n)) (w : Fin m → EReal)
    (h : Fin n → Fin k → EReal) (Wrel Wroot : Fin o → Fin k → EReal) (b : Fin o → EReal)
    (hw : Finite1 w) (hh : Finite2 h) (hWrel : Finite2 Wrel) (hWroot : Finite2 Wroot) (hb : Finite1 b) :
    Finite2 (layerProjFirst g l w h Wrel Wroot b) := fun i j =>
  real_add (real_add (agg_finite g l w _ hw (proj_finite h Wrel hh hWrel) i j) (proj_finite h Wroot hh hWroot i j))
    (hb j)

/-- The rectifier of a real matrix is real: the embedding of `ℝ` is monotone, so it takes `max r 0` to the
maximum of the images. -/
theorem relu_finite {n o : Nat} (h : Fin n → Fin o → EReal) (hh : Finite2 h) : Finite2 (relu h) := by
  intro i j
  obtain ⟨r, hr⟩ := hh i j
  refine ⟨max r 0, ?_⟩
  unfold relu
  rw [hr, EReal.coe_strictMono.monotone.map_max, EReal.coe_zero]

/-! ## The three-layer network

Rewrite the layers from the outside in: each uses `layer_eq` on an input that is the rectified output of the
project-first layer below it, which is real by `layerProjFirst_finite` and `relu_finite`. -/

theorem net_eq {n m d0 d1 d2 d3 : Nat} (g : Fin m → Fin n) (l : Fin m → Option (Fin n)) (w : Fin m → EReal)
    (x : Fin n → Fin d0 → EReal) (W1 R1 : Fin d1 → Fin d0 → EReal) (b1 : Fin d1 → EReal)
    (W2 R2 : Fin d2 → Fin d1 → EReal) (b2 : Fin d2 → EReal) (W3 R3 : Fin d3 → Fin d2 → EReal) (b3 : Fin d3 → EReal)
    (hw : Finite1 w) (hx : Finite2 x) (hW1 : Finite2 W1) (hR1 : Finite2 R1) (hb1 : Finite1 b1)
    (hW2 : Finite2 W2) (hR2 : Finite2 R2) (hb2 : Finite1 b2) (hW3 : Finite2 W3) :
    netProjFirst g l w x W1 R1 b1 W2 R2 b2 W3 R3 b3 = netAggFirst g l w x W1 R1 b1 W2 R2 b2 W3 R3 b3 := by
  have f1 : Finite2 (relu (layerProjFirst g l w x W1 R1 b1)) :=
    relu_finite _ (layerProjFirst_finite g l w x W1 R1 b1 hw hx hW1 hR1 hb1)
  have f2 : Finite2 (relu (layerProjFirst g l w (relu (layerProjFirst g l w x W1 R1 b1)) W2 R2 b2)) :=
    relu_finite _ (layerProjFirst_finite g l w _ W2 R2 b2 hw f1 hW2 hR2 hb2)
  unfold netProjFirst netAggFirst
  rw [layer_eq g l w _ W3 R3 b3 hw f2 hW3, layer_eq g l w _ W2 R2 b2 hw f1 hW2,
    layer_eq g l w x W1 R1 b1 hw hx hW1]

end Cert.GraphNet

end
-- ==== Proof.PreFinite.lean ====
/-
  The precondition decoded. The claim is made for arguments that pass a test: of each of the eleven float arrays, take
  the absolute value of every entry, compare it below `+∞`, and fold the answers by `and` over all axes starting from
  1; then join the eleven results by `and`. The test is passed when that word is 1.

  An `and` of one-bit words is 1 only when both are, and a fold by `and` from 1 is 1 only when every folded word is;
  so each entry `x` of each array has `max x (-x) < ⊤` among the extended reals. At `⊥` and at `⊤` that maximum is
  `⊤`, so `x` is neither: it is a real number. The two integer arrays are not tested and nothing is said of them.
-/
import proofs.«107408_j73280732004501_2_alg».proof.Proof.Spec
import proofs.«107408_j73280732004501_2_alg».proof.Pre_finite_inputs
import Idealize.ShloMosaic.Lib.ReduceAll

noncomputable section

open scoped BigOperators

namespace Cert.GraphNet.Pre

open Cert.GraphNet Idealize.ShloMosaic Idealize.ShloMosaic.ValueIdx

/-- The pattern `0x7F800000` denotes `+∞`. -/
theorem ofBits_inf : Ideal.ofBits .f32 0x7F800000#32 = (⊤ : EReal) := by
  simp [Ideal.ofBits, Ideal.ieee]

/-- One extended real whose absolute value `max x (-x)` compares below `+∞` is a real number: at `⊥` and at `⊤`
    the absolute value is `⊤`, which is not below `⊤`. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [ofBits_inf] at h
  unfold Ideal.cmp at h
  induction x using EReal.rec with
  | bot => simp at h
  | coe r => exact ⟨r, rfl⟩
  | top => simp at h

/-- The shape with no axes has one index. -/
instance : Subsingleton (⟨0, ![]⟩ : Shape).Idx := ⟨fun a b => funext fun d => d.elim0⟩

/-- An array whose test "`|x i| < +∞` at every index `i`", folded by `and` from 1 over all axes, came out 1 has a
    real number at every index: the fold being 1, each compared entry is 1, and the entry is then real by
    `real_of_abs_lt_inf`. -/
theorem real_of_all_abs_lt_inf {s : Shape} {axes : List (Fin s.rank)} (x : FVec Ideal s .f32)
    (hb : (⟨0, ![]⟩ : Shape).BroadcastsInDim s ![]) (hr : s.ReducesTo axes ⟨0, ![]⟩)
    (hu : 0 < (⟨0, ![]⟩ : Shape).numel)
    (h : Host.reduce IntOp.andi
          (cmpf .olt (Host.absf x) (broadcastInDim s ![] hb (constant ⟨0, ![]⟩ .f32 0x7F800000#32)))
          (constantI ⟨0, ![]⟩ 1 1#1) hr hu ix0 = 1#1) (i : s.Idx) :
    ∃ r : ℝ, x i = (r : EReal) :=
  real_of_abs_lt_inf (x i) (Host.reduce_andi_all _ _ hr hu ix0 h i)

/-- The precondition "every float argument is finite" read back: it is the `and` of eleven all-entries tests, one per
    float argument, so each of the eleven arrays is real at every entry. -/
theorem finite_of_pre [Cert.Pre_finite_inputs.Facts]
    (x0 : FVec Ideal ⟨2, ![50000, 1152]⟩ .f32) (x1 : IVec ⟨2, ![2, 200000]⟩ 32) (x2 : FVec Ideal ⟨1, ![200000]⟩ .f32)
    (x3 : IVec ⟨1, ![50000]⟩ 32) (x4 : FVec Ideal ⟨2, ![256, 1152]⟩ .f32) (x5 : FVec Ideal ⟨1, ![256]⟩ .f32)
    (x6 : FVec Ideal ⟨2, ![256, 1152]⟩ .f32) (x7 : FVec Ideal ⟨2, ![128, 256]⟩ .f32) (x8 : FVec Ideal ⟨1, ![128]⟩ .f32)
    (x9 : FVec Ideal ⟨2, ![128, 256]⟩ .f32) (x10 : FVec Ideal ⟨2, ![2, 128]⟩ .f32) (x11 : FVec Ideal ⟨1, ![2]⟩ .f32)
    (x12 : FVec Ideal ⟨2, ![2, 128]⟩ .f32)
    (h : Cert.Pre_finite_inputs.fn (F := Ideal) x0 x1 x2 x3 x4 x5 x6 x7 x8 x9 x10 x11 x12 = fun _ => 1#1) :
    Finite2 (fun a q => x0 (ix2 a q)) ∧ Finite1 (fun e => x2 (ix1 e))
    ∧ Finite2 (fun j q => x4 (ix2 j q)) ∧ Finite1 (fun j => x5 (ix1 j)) ∧ Finite2 (fun j q => x6 (ix2 j q))
    ∧ Finite2 (fun j q => x7 (ix2 j q)) ∧ Finite1 (fun j => x8 (ix1 j)) ∧ Finite2 (fun j q => x9 (ix2 j q))
    ∧ Finite2 (fun j q => x10 (ix2 j q)) ∧ Finite1 (fun j => x11 (ix1 j)) ∧ Finite2 (fun j q => x12 (ix2 j q)) := by
  have h0 := congrFun h ix0
  unfold Cert.Pre_finite_inputs.fn Cert.Pre_finite_inputs.fn_part1 Cert.Pre_finite_inputs.fn_part2
    Cert.Pre_finite_inputs.fn_part3 at h0
  dsimp only at h0
  -- the result is the left-nested `and` of the eleven tests: peel them off from the last to the first
  obtain ⟨h0, t12⟩ := IntOp.andi_eq_one.1 h0
  obtain ⟨h0, t11⟩ := IntOp.andi_eq_one.1 h0
  obtain ⟨h0, t10⟩ := IntOp.andi_eq_one.1 h0
  obtain ⟨h0, t9⟩ := IntOp.andi_eq_one.1 h0
  obtain ⟨h0, t8⟩ := IntOp.andi_eq_one.1 h0
  obtain ⟨h0, t7⟩ := IntOp.andi_eq_one.1 h0
  obtain ⟨h0, t6⟩ := IntOp.andi_eq_one.1 h0
  obtain ⟨h0, t5⟩ := IntOp.andi_eq_one.1 h0
  obtain ⟨h0, t4⟩ := IntOp.andi_eq_one.1 h0
  obtain ⟨t0, t2⟩ := IntOp.andi_eq_one.1 h0
  exact ⟨fun a q => real_of_all_abs_lt_inf x0 _ _ _ t0 (ix2 a q),
    fun e => real_of_all_abs_lt_inf x2 _ _ _ t2 (ix1 e),
    fun j q => real_of_all_abs_lt_inf x4 _ _ _ t4 (ix2 j q),
    fun j => real_of_all_abs_lt_inf x5 _ _ _ t5 (ix1 j),
    fun j q => real_of_all_abs_lt_inf x6 _ _ _ t6 (ix2 j q),
    fun j q => real_of_all_abs_lt_inf x7 _ _ _ t7 (ix2 j q),
    fun j => real_of_all_abs_lt_inf x8 _ _ _ t8 (ix1 j),
    fun j q => real_of_all_abs_lt_inf x9 _ _ _ t9 (ix2 j q),
    fun j q => real_of_all_abs_lt_inf x10 _ _ _ t10 (ix2 j q),
    fun j => real_of_all_abs_lt_inf x11 _ _ _ t11 (ix1 j),
    fun j q => real_of_all_abs_lt_inf x12 _ _ _ t12 (ix2 j q)⟩

end Cert.GraphNet.Pre

end
-- ==== Proof.lean ====
/-
  A three-layer graph convolution network over 50000 nodes and 200000 weighted edges, computed two ways.

  One layer maps node features `h` to `A h W_relᵀ + b + h W_rootᵀ`, where `A` is the edge-weighted adjacency:
  `(A h) i = ∑ over the edges e into i of w_e · h (source of e)`; the first two layers are followed by `max · 0`.
  The reference aggregates the wide rows first and projects the sums, `(A h) W_relᵀ`. The kernel projects first, in
  three tiled matrix-product regions, aggregates the narrow rows `A (h W_relᵀ)` on the host, and adds the root
  product and the bias in three tiled elementwise regions. Over the extended reals the two agree when every input
  number is finite: `A (h Wᵀ) = (A h) Wᵀ` is the regrouping of a finite double sum of products of reals (it fails
  at infinities, where multiplication does not distribute over addition), finiteness passes through each layer, and
  every change of float format is the identity. The precondition says exactly that every float input is finite; the
  integer edge list is unconstrained, and both programs read it in the same way — a negative source is moved up by
  the node count and then clamped into the node range, a destination outside the node range is dropped.

  The kernel's value is read off its run region by region (the array each region leaves, as one whole-array function
  of what it found) and through the host operations in between; the reference's off its run operation by operation;
  the two results are the two arrangements of one network, equal for finite inputs.
-/
import proofs.«107408_j73280732004501_2_alg».proof.Defs
import proofs.«107408_j73280732004501_2_alg».proof.Proof.Gen.Kernel
import proofs.«107408_j73280732004501_2_alg».proof.Proof.Gen.Kernel.Skeleton
import proofs.«107408_j73280732004501_2_alg».proof.Proof.PatchedKernelLaunch
import proofs.«107408_j73280732004501_2_alg».proof.Proof.Gen.Kernel.Points
import proofs.«107408_j73280732004501_2_alg».proof.Proof.PatchedKernelFrame
import proofs.«107408_j73280732004501_2_alg».proof.Proof.Gen.KernelIdeal
import proofs.«107408_j73280732004501_2_alg».proof.Proof.Gen.KernelIdeal.Skeleton
import proofs.«107408_j73280732004501_2_alg».proof.Proof.PatchedKernelIdealLaunch
import proofs.«107408_j73280732004501_2_alg».proof.Proof.Gen.KernelIdeal.Points
import proofs.«107408_j73280732004501_2_alg».proof.Proof.PatchedKernelIdealFrame
import proofs.«107408_j73280732004501_2_alg».proof.Proof.Gen.ReferenceIdeal
import proofs.«107408_j73280732004501_2_alg».proof.Proof.Gen.Pre_finite_inputs
import proofs.«107408_j73280732004501_2_alg».proof.Proof.Gen.ReferenceIdeal.Run
import proofs.«107408_j73280732004501_2_alg».proof.Proof.Gen.ReferenceIdeal.Read
import proofs.«107408_j73280732004501_2_alg».proof.Proof.KRun
import proofs.«107408_j73280732004501_2_alg».proof.Proof.KLayer3
import proofs.«107408_j73280732004501_2_alg».proof.Proof.RefValue
import proofs.«107408_j73280732004501_2_alg».proof.Proof.Algebra
import proofs.«107408_j73280732004501_2_alg».proof.Proof.PreFinite
import Idealize.ShloMosaic.Adequacy
import Idealize.ShloMosaic.Init

set_option maxRecDepth 16384

noncomputable section

namespace Cert.Proof

open Idealize.ShloMosaic Idealize.ShloMosaic.TcCoe Idealize.SL.Sem Cert.GraphNet

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel ends with the project-first network of its arguments in the result buffer. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v54) = Cert.KernelIdeal.KValue.resultOf m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) :=
  (θ_run Cert.KernelIdeal.defs _ _).mono
    (fun r h c => ⟨(h c).1.trans (Cert.KernelIdeal.KValue.W10_v54 m ρ c), (h c).2⟩)
    (Cert.KernelIdeal.KValue.run_result (F := Ideal) m ρ)

/-- From memories agreeing on the arguments, of which the kernel's holds finite float inputs, both idealized programs
    end with the same result array: the kernel's is the project-first network of the arguments, the reference's the
    aggregate-first network of the same arguments, and the two arrangements agree on finite data. -/
theorem algebraic : Cert.algebraic_KernelIdeal_ReferenceIdeal := by
  intro m ρ m' ρ' hpre hagree
  refine ⟨fun c => Cert.KernelIdeal.KValue.resultOf m c, kernel_run m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v68_eq, Cert.ReferenceIdeal.RefValue.result_eq]
  obtain ⟨a0, a1, a2, -, a4, a5, a6, a7, a8, a9, a10, a11, a12⟩ := hagree c
  rw [a0, a1, a2, a4, a5, a6, a7, a8, a9, a10, a11, a12]
  obtain ⟨f0, f2, f4, f5, f6, f7, f8, f9, f10, -, -⟩ := Cert.GraphNet.Pre.finite_of_pre _ _ _ _ _ _ _ _ _ _ _ _ _ (hpre c)
  funext i
  exact (congrFun (congrFun (net_eq _ _ _ _ _ _ _ _ _ _ _ _ _ f2 f0 f4 f6 f5 f7 f9 f8 f10) (i 0)) (i 1)).symm

/-- The claim: the three programs run and keep their arguments, the idealization rewrote nothing, and the two
    idealized programs agree on finite inputs. -/
theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
